-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S64x128 : Shape := ⟨2, ![64, 128]⟩
abbrev S1024x128 : Shape := ⟨2, ![1024, 128]⟩
abbrev S8x128 : Shape := ⟨2, ![8, 128]⟩
abbrev S1024 : Shape := ⟨1, ![1024]⟩
abbrev S1024x1 : Shape := ⟨2, ![1024, 1]⟩
abbrev S1x8192x128 : Shape := ⟨3, ![1, 8192, 128]⟩
abbrev S2x8192x128 : Shape := ⟨3, ![2, 8192, 128]⟩
abbrev S128x128 : Shape := ⟨2, ![128, 128]⟩
abbrev S1x1024x128 : Shape := ⟨3, ![1, 1024, 128]⟩
abbrev S1024x1024 : Shape := ⟨2, ![1024, 1024]⟩
abbrev S_ : Shape := ⟨0, ![]⟩

abbrev nBuf : Space → Nat
  | .hbm => 31
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .bf16⟩
  | .hbm, ⟨3, _⟩ => ⟨S8192x128, .bf16⟩
  | .hbm, ⟨4, _⟩ => ⟨S64x128, .f32⟩
  | .hbm, ⟨5, _⟩ => ⟨S1x8192x128, .bf16⟩
  | .hbm, ⟨6, _⟩ => ⟨S1x8192x128, .bf16⟩
  | .hbm, ⟨7, _⟩ => ⟨S2x8192x128, .bf16⟩
  | .hbm, ⟨8, _⟩ => ⟨S128x128, .f32⟩
  | .hbm, ⟨9, _⟩ => ⟨S64x128, .f32⟩
  | .hbm, ⟨10, _⟩ => ⟨S_, .f32⟩
  | .hbm, ⟨11, _⟩ => ⟨S_, .f32⟩
  | .hbm, ⟨12, _⟩ => ⟨S64x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S8x128, .f32⟩
  | .local _ .vmem, ⟨9, _⟩ => ⟨S8x128, .f32⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S8x128, .f32⟩
  | .local _ .vmem, ⟨15, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  shapeCasts_S1024_S8x128 : S1024.ShapeCasts S8x128
  inb_S8x128_S8x128_0_0 : ∀ a, (![0, 0] : Fin 2 → Nat) a + S8x128.size a ≤ S8x128.size a
  h_S8x128 : 0 < S8x128.numel
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  bcast_S8192x128_S1x8192x128_1_2 : S8192x128.BroadcastsInDim S1x8192x128 (![1, 2] : Fin 2 → Fin S1x8192x128.rank)
  concatenates_S1x8192x128_S1x8192x128_S2x8192x128_d0 : Shape.Concatenates [S1x8192x128, S1x8192x128] S2x8192x128 0
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  iota_S1024x1024_d0_w32 : S1024x1024.Iotas .tc 32 [0]
  iota_S1024x1024_d1_w32 : S1024x1024.Iotas .tc 32 [1]
  reduces_S1024x1024_S1024 : S1024x1024.Reduces [0] S1024
  shapeCasts_S8x128_S8x128 : S8x128.ShapeCasts S8x128
  slices_S128x128_S64x128_0_0 : S128x128.Slices ![0, 0] S64x128
  reducesTo_S64x128_S_d0_1 : S64x128.ReducesTo [0, 1] S_
  h_S_ : 0 < S_.numel
  slices_S128x128_S64x128_64_0 : S128x128.Slices ![64, 0] S64x128
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S2x8192x128.size a
  hwx1_0 : ∀ i : grid1.Coords, EltTy.bits .bf16 = 32 ∨ (Rect.block (s := S2x8192x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S2x8192x128.size a
  hwx1_1 : ∀ i : grid1.Coords, EltTy.bits .bf16 = 32 ∨ (Rect.block (s := S2x8192x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S128x128.size a
  hwx1_2 : ∀ i : grid1.Coords, EltTy.bits .f32 = 32 ∨ (Rect.block (s := S128x128) S8x128.size (cc1_transform_2 i) (hinb1_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩

abbrev nBuf : Space → Nat
  | .hbm => 106
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .i1⟩
  | .hbm, ⟨42, _⟩ => ⟨S8192x8192, .i1⟩
  | .hbm, ⟨43, _⟩ => ⟨S8192x8192, .i32⟩
  | .hbm, ⟨44, _⟩ => ⟨S_, .i32⟩
  | .hbm, ⟨45, _⟩ => ⟨S8192x8192, .i32⟩
  | .hbm, ⟨46, _⟩ => ⟨S8192x8192, .i32⟩
  | .hbm, ⟨47, _⟩ => ⟨S8192x8192, .i32⟩
  | .hbm, ⟨48, _⟩ => ⟨S8192x8192, .i1⟩
  | .hbm, ⟨49, _⟩ => ⟨S_, .i1⟩
  | .hbm, ⟨50, _⟩ => ⟨S8192x8192, .i1⟩
  | .hbm, ⟨51, _⟩ => ⟨S8192x8192, .i1⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S128x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .i1⟩
  | .hbm, ⟨77, _⟩ => ⟨S8192x8192, .i1⟩
  | .hbm, ⟨78, _⟩ => ⟨S8192x8192, .i32⟩
  | .hbm, ⟨79, _⟩ => ⟨S_, .i32⟩
  | .hbm, ⟨80, _⟩ => ⟨S8192x8192, .i32⟩
  | .hbm, ⟨81, _⟩ => ⟨S8192x8192, .i32⟩
  | .hbm, ⟨82, _⟩ => ⟨S8192x8192, .i32⟩
  | .hbm, ⟨83, _⟩ => ⟨S8192x8192, .i1⟩
  | .hbm, ⟨84, _⟩ => ⟨S_, .i1⟩
  | .hbm, ⟨85, _⟩ => ⟨S8192x8192, .i1⟩
  | .hbm, ⟨86, _⟩ => ⟨S8192x8192, .i1⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S_, .f32⟩
  | .hbm, ⟨93, _⟩ => ⟨S8192x8192, .f32⟩
  | .hbm, ⟨94, _⟩ => ⟨S8192x8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_0 : Ref sig .tc := ⟨.hbm, 49, rfl⟩
abbrev main_call0_v5 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_10 : Ref sig .tc := ⟨.hbm, 56, rfl⟩
abbrev main_call1_v0 : Ref sig .tc := ⟨.hbm, 57, rfl⟩
abbrev main_call1_v1 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_cst_12 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_13 : Ref sig .tc := ⟨.hbm, 67, rfl⟩
abbrev main_v40 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_v45 : Ref sig .tc := ⟨.hbm, 75, rfl⟩
abbrev main_c_16 : Ref sig .tc := ⟨.hbm, 76, rfl⟩
abbrev main_v46 : Ref sig .tc := ⟨.hbm, 77, rfl⟩
abbrev main_call2_v0 : Ref sig .tc := ⟨.hbm, 78, rfl⟩
abbrev main_call2_c : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_c_0 : Ref sig .tc := ⟨.hbm, 84, rfl⟩
abbrev main_call2_v5 : Ref sig .tc := ⟨.hbm, 85, rfl⟩
abbrev main_v47 : Ref sig .tc := ⟨.hbm, 86, rfl⟩
abbrev main_cst_17 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_18 : Ref sig .tc := ⟨.hbm, 91, rfl⟩
abbrev main_call3_v0 : Ref sig .tc := ⟨.hbm, 92, rfl⟩
abbrev main_call3_v1 : Ref sig .tc := ⟨.hbm, 93, rfl⟩
abbrev main_v51 : Ref sig .tc := ⟨.hbm, 94, rfl⟩
abbrev main_cst_19 : Ref sig .tc := ⟨.hbm, 95, rfl⟩
abbrev main_v52 : Ref sig .tc := ⟨.hbm, 96, rfl⟩
abbrev main_cst_20 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_21 : Ref sig .tc := ⟨.hbm, 101, rfl⟩
abbrev main_v56 : Ref sig .tc := ⟨.hbm, 102, rfl⟩
abbrev main_cst_22 : Ref sig .tc := ⟨.hbm, 103, rfl⟩
abbrev main_v57 : Ref sig .tc := ⟨.hbm, 104, rfl⟩
abbrev main_v58 : Ref sig .tc := ⟨.hbm, 105, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  reducesTo_S8192_S_d0 : S8192.ReducesTo [0] S_
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Kernel.R0.lean ====
/- Region 0 of the kernel program (the row-normalising call, a grid of 8 points over 1024-row tiles), read
   by itself at ANY contents V of the TensorCore's buffers on entry, and at any float instance F.

   At a grid point t the body receives five staging buffers: the 1024x128 blocks of the two argument
   arrays (rows 1024*t .. 1024*t+1023), which it reads whole and leaves as they were, and three result
   buffers, each of which it overwrites whole with ONE store: the two normalised blocks (each a pure
   function of one input block) and the 8x128 slab of per-row sums of squared differences (a pure function
   of both input blocks). So after the body each result buffer is a function of the two input blocks alone,
   whatever it held before; the loads the body makes of the result buffers before storing are dead.

   This file states that as separation-logic data: the block of a window at a point, what each result
   buffer holds after the body, the body's triple, the per-point data of the pipeline and the obligation
   the launch theorems ask of the body. -/
import proofs.«158555_j34162169872914_2_alg».proof.Proof.Gen.Kernel.Launch
import proofs.«158555_j34162169872914_2_alg».proof.Proof.Gen.Kernel.Skeleton
import proofs.«158555_j34162169872914_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of extent 1024 is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered: everything below is stated at this parameter
variable (V : (c : Dev nD) → (b : Ref sig .tc) → Buf (Elt F) ((c : Thread nD τ).loc b))

/-! ## The windows' blocks -/

/-- Window w's block at point t: the rows of its array (as V has it) that the window's index map selects
    at t, read as a vector of the block's shape. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, whatever the per-point data, as long as
    the data's array is V's and the body leaves the block in place: the block is fetched before every point
    and the window is never cut or idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The whole 1024x128 buffer as a rectangle. -/
abbrev rTile : Rect S1024x128 := Rect.unit (s := S1024x128) ![0, 0] S1024x128.size inb_S1024x128_S1024x128_0_0
/-- The whole 8x128 buffer as a rectangle. -/
abbrev rSlab : Rect S8x128 := Rect.unit (s := S8x128) ![0, 0] S8x128.size inb_S8x128_S8x128_0_0

/-! ## What the body leaves in each result buffer -/

/-- Window 2 (the first normalised block, in the narrow format) after the body: one whole-buffer store of the
    first input block divided row by row by max(its row norm, eps), narrowed. -/
def out0_2 (x0 : Vec F S1024x128 .f32) (x1 : Vec F S1024x128 .f32) : Vec F S1024x128 .bf16 :=
  View.canon [⟨rTile, k0_pay4 (View.ld x0 rTile)⟩]

/-- One store of the whole buffer covers it. -/
theorem cover0_2 (p0 : Vec F S1024x128 .bf16) (y : S1024x128.Idx) :
    ∃ pc ∈ ([⟨rTile, p0⟩] : List (View.Piece (Elt F) S1024x128 .bf16)), y ∈ pc.1.set :=
  View.cover_of_tiled [⟨rTile, p0⟩] S1024x128.size (by rfl) y

/-- Window 3 (the second normalised block) after the body: the same function of the second input block. -/
def out0_3 (x0 : Vec F S1024x128 .f32) (x1 : Vec F S1024x128 .f32) : Vec F S1024x128 .bf16 :=
  View.canon [⟨rTile, k0_pay5 (View.ld x1 rTile)⟩]

theorem cover0_3 (p0 : Vec F S1024x128 .bf16) (y : S1024x128.Idx) :
    ∃ pc ∈ ([⟨rTile, p0⟩] : List (View.Piece (Elt F) S1024x128 .bf16)), y ∈ pc.1.set :=
  View.cover_of_tiled [⟨rTile, p0⟩] S1024x128.size (by rfl) y

/-- Window 4 (the slab of row sums) after the body: for each of the block's 1024 rows the sum over the 128
    lanes of the squared difference of the two normalised rows, laid out 8x128 in row-major order. -/
def out0_4 (x0 : Vec F S1024x128 .f32) (x1 : Vec F S1024x128 .f32) : Vec F S8x128 .f32 :=
  View.canon [⟨rSlab, k0_pay3 (View.ld x0 rTile) (View.ld x1 rTile)⟩]

theorem cover0_4 (p0 : Vec F S8x128 .f32) (y : S8x128.Idx) :
    ∃ pc ∈ ([⟨rSlab, p0⟩] : List (View.Piece (Elt F) S8x128 .f32)), y ∈ pc.1.set :=
  View.cover_of_tiled [⟨rSlab, p0⟩] S8x128.size (by rfl) y

/-! ## The body's triple -/

set_option maxHeartbeats 1000000 in
/-- The body on whole staging buffers, the inputs' holding x0 and x1 and the results' holding anything, runs
    without fault to a state where the inputs' hold what they held and each result's holds out0_W x0 x1. -/
theorem sound_kernel0 (c : Dev nD) (E : Set ℕ) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S8x128 .f32) (harg5 : arg5.IsWhole)
    (x0 : Vec F S1024x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_norm_align_kernel i arg1 harg1 arg2 harg2 arg3 harg3 arg4 harg4 arg5 harg5) K := by
  simp only [cc0_norm_align_kernel_eq_skeleton]; unfold cc0_norm_align_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's per-point data -/

/-- Pipeline 0 on core c: the arrays as V has them; after the body at point t each input's buffer holds its
    block and each result's holds out0_W of the two input blocks; the invariant carried between points is the
    untouched rest of the core's scoped state; nothing is owed to another core; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The data's arrays are V's. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is entered with at point t: the invariant, the core's debts, and the five staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the launch theorems ask of the body, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.R1.lean ====
/-
  Region 1 (the pairwise-sum kernel, grid 2 × 8 × 8, point t = (b, i, j)) as one pipeline.

  The body reads two 1024-row blocks of ONE array — the stacked, normalised inputs: block (b, i) through window 0,
  block (b, j) through window 1 — and keeps a running (8, 128) block in its output window 2, whose block index
  (8·b + i, 0) does not depend on j: the output buffer is carried across the eight points of a (b, i) row, reset to
  zero by the body at j = 0 and written back after j = 7. So the body has two cases: at j = 0 it overwrites the
  buffer with zero and then adds the tile's column sums to that; at j ≠ 0 it adds them to what the point before
  left. What the output buffer holds after each point is therefore a recursion on the point (outsAt1).
  Everything here is generic in the float instance.
-/
import proofs.«158555_j34162169872914_2_alg».proof.Proof.Gen.Kernel.Launch
import proofs.«158555_j34162169872914_2_alg».proof.Proof.Gen.Kernel.Skeleton
import proofs.«158555_j34162169872914_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds block (b, i) at every point, fetched there (j = 0) or not (the block
    index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds block (b, j) at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one branch: the last grid coordinate j is 0. -/
abbrev cond1_0 (i : grid1.Coords) : Prop := (Scalar.cmpi .ne (Scalar.extui (Scalar.cmpi .eq (BitVec.ofNat 32 (i 2).val) 0#32)) 0#32) = 1#1
/-- It holds exactly at the points t ≡ 0 (mod 8): the grid is row-major with j last. -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the output window, through which its contents are stated. -/
abbrev VO1_2 : View sig .tc .vmem S8x128 .f32 := (Memref.whole cc1_stg2_0 : Memref sig .tc .vmem S8x128 .f32).view
/-- Each window's current staging memref at point t, as the pipeline passes it to the body, and its wholeness. -/
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)

/-! ## The body's run, case by case -/

set_option maxHeartbeats 1000000 in
/-- CASE j = 0. On whole staging memrefs, the two inputs' at contents x0, x1 and the output's at anything, the body
    runs to the continuation with the inputs' as they were and the output's buffer with the body's stores written
    (the zero block, then the zero block plus the tile's column sums): the pieces, last first, are found by the run. -/
noncomputable def kernelRun1_A (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : cond1_0 i) (x0 : Vec F S1x1024x128 .bf16) (x1 : Vec F S1x1024x128 .bf16) :
    { L2 : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)) -∗ K ⟨⟩))
          ⊢ wp frame (wpE (defs₀ (F := F)) Variants.none c none) E (cc1_pairwise_sum_kernel i arg3 harg3 arg4 harg4 arg5 harg5) K } := by
  refine ⟨?_, fun E K => ?run⟩
  case run =>
    simp only [cc1_pairwise_sum_kernel_eq_skeleton]; unfold cc1_pairwise_sum_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- CASE j ≠ 0. The same with the output's buffer at its running contents xo2, which the body reads before it
    stores (the running contents plus the tile's column sums). -/
noncomputable def kernelRun1_B (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : ¬cond1_0 i) (x0 : Vec F S1x1024x128 .bf16) (x1 : Vec F S1x1024x128 .bf16) (xo2 : Vec F S8x128 .f32) :
    { L2 : List (View.Piece (Elt F) S8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)) -∗ K ⟨⟩))
          ⊢ wp frame (wpE (defs₀ (F := F)) Variants.none c none) E (cc1_pairwise_sum_kernel i arg3 harg3 arg4 harg4 arg5 harg5) K } := by
  refine ⟨?_, fun E K => ?run⟩
  case run =>
    simp only [cc1_pairwise_sum_kernel_eq_skeleton]; unfold cc1_pairwise_sum_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-! ## What each case leaves in the output window's buffer -/

/-- Case j = 0: the body's stores are whole-block stores, so they cover the (8, 128) block. -/
theorem cover1_A_2 (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : cond1_0 i) (x0 : Vec F S1x1024x128 .bf16) (x1 : Vec F S1x1024x128 .bf16) (y : S8x128.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S8x128.size (by sl_kernel_rfl) y

/-- What case j = 0 leaves in the output buffer: its pieces read back (over contents that do not matter). -/
def out1_A_2 (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : cond1_0 i) (x0 : Vec F S1x1024x128 .bf16) (x1 : Vec F S1x1024x128 .bf16) : Vec F S8x128 .f32 :=
  VO1_2.read (Elt F) (VO1_2.writes (Elt F) VO1_2.junk (kernelRun1_A c i arg3 harg3 arg4 harg4 arg5 harg5 hc0 x0 x1).1)

/-- Case j ≠ 0: one whole-block store, which covers the block. -/
theorem cover1_B_2 (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : ¬cond1_0 i) (x0 : Vec F S1x1024x128 .bf16) (x1 : Vec F S1x1024x128 .bf16) (xo2 : Vec F S8x128 .f32) (y : S8x128.Idx) :
    ∃ pc ∈ (kernelRun1_B c i arg3 harg3 arg4 harg4 arg5 harg5 hc0 x0 x1 xo2).1, y ∈ pc.1.set :=
  View.cover_of_tiledL (kernelRun1_B c i arg3 harg3 arg4 harg4 arg5 harg5 hc0 x0 x1 xo2).1 S8x128.size (by sl_kernel_rfl) y

/-- What case j ≠ 0 leaves in the output buffer. -/
def out1_B_2 (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : ¬cond1_0 i) (x0 : Vec F S1x1024x128 .bf16) (x1 : Vec F S1x1024x128 .bf16) (xo2 : Vec F S8x128 .f32) : Vec F S8x128 .f32 :=
  VO1_2.read (Elt F) (VO1_2.writes (Elt F) VO1_2.junk (kernelRun1_B c i arg3 harg3 arg4 harg4 arg5 harg5 hc0 x0 x1 xo2).1)

/-! ## What the output buffer holds after each point -/

/-- THE ACCUMULATION over j. After the body at position n: at n ≡ 0 (mod 8) the reset case on the point's blocks;
    otherwise the adding case on the point's blocks and what position n − 1 left (the buffer is not written back
    in between). -/
def outsAt1 (c : Dev nD) : (n : ℕ) → n < cfg1.N → Vec F S8x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 8 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

/-- At a point with j = 0: the reset case's contents. -/
theorem outsAt1_A (c : Dev nD) (t : Fin cfg1.N) (h0 : t.val % 8 = 0) :
    outsAt1 V c t.val t.isLt = out1_A_2 c (grid1.coords t) (ms1_0 t) (hs1_0 t) (ms1_1 t) (hs1_1 t) (ms1_2 t) (hs1_2 t)
      ((hcond1_0 t).mpr h0) (iblk1 V c 0 t) (iblk1 V c 1 t) := by
  obtain ⟨n, hn⟩ := t
  cases n with
  | zero => exact rfl
  | succ n => exact (dif_pos h0).trans rfl

/-- At a point with j ≠ 0: the adding case's contents, over what the point before left. -/
theorem outsAt1_B (c : Dev nD) (t : Fin cfg1.N) (h0 : ¬t.val % 8 = 0) :
    outsAt1 V c t.val t.isLt = out1_B_2 c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core c: the arrays as the region finds them; after the body at point t each
    input's buffer at its block and the output's at outsAt1; the invariant the scoped rest and the generator
    register, untouched; nothing owed. The two input windows read ONE array, so each holds half of it: the left and
    the right half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point with j ≠ 0 the output buffer holds what the body left at the point before: the point is not the
    first, and the buffer is written back only after j = 7. -/
theorem before1_2_B (c : Dev nD) (t : Fin cfg1.N) (h0 : ¬t.val % 8 = 0) (d) :
    (dat1 V c).before 2 t d = outsAt1 V c (t.val - 1) (Nat.lt_of_le_of_lt (Nat.sub_le _ _) t.isLt) := by
  have hN : t.val < 128 := lt_of_lt_of_eq t.isLt (show cfg1.N = 128 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; j decides the case; at j ≠ 0 the output buffer
    holds what the point before left; so that case's run applies. The invariant and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.R1Arrays.lean ====
/-
  Region 1's arrays. Its two input windows read ONE array (the stacked, normalised inputs), so the pipeline holds
  that array as two half shares, one per window, and its output array whole. At the region's entry the core holds
  both buffers whole; the full share of the stacked input splits into the two halves, and at the exit, where both
  windows still hold the same contents, the halves rejoin.
-/
import proofs.«158555_j34162169872914_2_alg».proof.Proof.Kernel.R1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The shares the proof data holds region 1's arrays at: the stacked input is read through two windows, each holding
    one half of it; the output array is held whole. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

/-- The distinct buffers behind region 1's three windows: the stacked input and the output. -/
theorem img1 : Finset.univ.image (Pipeline.arrRef spec1) = ({main_v3, main_v4} : Finset (Ref sig .tc)) := by decide

/-- ENTRY. The two buffers behind region 1's arrays, each whole at the full share, are the pipeline's arrays at the
    same contents: the stacked input's full share splits into the two input windows' halves. -/
theorem arrays1_of_bufs (c : Dev nD) (Vv : (b : Ref sig .tc) → Buf (Elt F) ((c : Thread nD τ).loc b))
    (G : (w : Fin cfg1.W) → Buf (Elt F) ((cfg1.win w).arr.view.loc (c : Thread nD τ)))
    (h0 : G 0 = Vv main_v3) (h1 : G 1 = Vv main_v3) (h2 : G 2 = Vv main_v4) :
    (Pipeline.arrBufs (Ix := Unit) (Name := ℕ) (U := UR sig nD τ) (Lvl := ℕ) spec1 c Vv : sProp 𝕄) ⊢ (dat1 V c).arrays G := by
  unfold Pipeline.arrBufs Pipeline.Dat.arrays
  rw [img1, bigSep_insert (by decide), bigSep_singleton, bigSep_W1]
  rw [share1_0, share1_1, share1_2, h0, h1, h2]
  rw [(arr_whole1 0).set_eq_univ, (arr_whole1 2).set_eq_univ]
  show (iprop(((c : Thread nD τ).loc main_v3 ↦{fullShare} Vv main_v3) ∗ ((c : Thread nD τ).loc main_v4 ↦{fullShare} Vv main_v4)) : sProp 𝕄) ⊢ _
  iintro ⟨H3, H4⟩
  ihave H3' := (pointsTo_share (PosShare.mem_left_op_right fullShare)).1 $$ H3
  icases H3' with ⟨Hl, Hr⟩
  isplitl [Hl]; · iexact Hl
  isplitl [Hr]; · iexact Hr
  iexact H4

/-- EXIT. Conversely the pipeline's arrays, the two input windows' at ONE contents, are the two buffers whole: the
    halves of the stacked input rejoin. -/
theorem bufs_of_arrays1 (c : Dev nD) (Vv : (b : Ref sig .tc) → Buf (Elt F) ((c : Thread nD τ).loc b))
    (G : (w : Fin cfg1.W) → Buf (Elt F) ((cfg1.win w).arr.view.loc (c : Thread nD τ)))
    (h0 : G 0 = Vv main_v3) (h1 : G 1 = Vv main_v3) (h2 : G 2 = Vv main_v4) :
    (dat1 V c).arrays G ⊢ (Pipeline.arrBufs (Ix := Unit) (Name := ℕ) (U := UR sig nD τ) (Lvl := ℕ) spec1 c Vv : sProp 𝕄) := by
  unfold Pipeline.arrBufs Pipeline.Dat.arrays
  rw [img1, bigSep_insert (by decide), bigSep_singleton, bigSep_W1]
  rw [share1_0, share1_1, share1_2, h0, h1, h2]
  rw [(arr_whole1 0).set_eq_univ, (arr_whole1 2).set_eq_univ]
  show _ ⊢ (iprop(((c : Thread nD τ).loc main_v3 ↦{fullShare} Vv main_v3) ∗ ((c : Thread nD τ).loc main_v4 ↦{fullShare} Vv main_v4)) : sProp 𝕄)
  iintro ⟨Hl, Hr, H4⟩
  isplitl [Hl Hr]
  · iapply (pointsTo_share (PosShare.mem_left_op_right fullShare)).2
    isplitl [Hl]; · iexact Hl
    iexact Hr
  iexact H4

end Cert.Kernel.Hand

end
-- ==== Proof.Kernel.Run.lean ====
/-
  The run of the whole program: region 0, three host operations, region 1, twenty-two host operations.

  The contents of the core's unscoped buffers at the five boundaries are a fold from the launch memory: W0 the
  launch contents; W1 region 0's arrays at what its write-backs leave (its three outputs; the two arguments as
  entered); W2 after the three host operations that stack the two normalised arrays; W3 region 1's output array at
  what its write-backs leave (the stacked input, read through two windows, as entered); W4 after the host tail.
  Each region is a segment entered from "every unscoped buffer at the boundary's contents, the generator register at
  some state, nothing owed" and left at the same over the next boundary's contents. The run's post reads EVERY
  unscoped buffer at W4; the frame (the arguments end as launched) and the result's value are read off it.
-/
import proofs.«158555_j34162169872914_2_alg».proof.Proof.Kernel.R0
import proofs.«158555_j34162169872914_2_alg».proof.Proof.Kernel.R1Arrays
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the three host operations (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1: its output array at what the pipeline leaves, every other buffer as entered. -/
def W3 (c : Dev nD) : Valuation τ sig (Elt F) :=
  Function.update (W2 m ρ c) (Proc.devRef .tc main_v4) ((dat1 (V2 m ρ) c).arrAt 2 cfg1.N)
theorem W3_v4 (c : Dev nD) : W3 m ρ c (Proc.devRef .tc main_v4) = (dat1 (V2 m ρ) c).arrAt 2 cfg1.N := by
  unfold W3; exact Function.update_self ..
theorem W3_of_ne (c : Dev nD) (b : Ref sig .tc) (hb : b ≠ main_v4) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
/-- After the host tail (the end). -/
abbrev W4 : Dev nD → Valuation τ sig (Elt F) := fun c => StableHlo.after hostOps2 (W3 m ρ c)

/-! ## The arguments end as launched -/

theorem hostOps1_keeps (c : Dev nD) (W : Valuation τ sig (Elt F)) (b : Ref sig .tc) (hb : b ∉ ([main_v1, main_v2, main_v3] : List (Ref sig .tc))) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (fun e => hb (by rw [e]; decide))))

theorem hostOps2_keeps (c : Dev nD) (W : Valuation τ sig (Elt F)) (b : Ref sig .tc)
    (hb : b ∉ ([main_v5, main_cst, main_v6, main_v7, main_cst_0, main_v8, main_cst_1, main_v9, main_cst_2, main_v10, main_cst_3, main_v11, main_v12, main_cst_4, main_v13, main_v14, main_v15, main_cst_5, main_v16, main_cst_6, main_v17, main_v18] : List (Ref sig .tc))) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    repeat' apply And.intro
    all_goals exact StableHlo.devRef_ne_of_ne (fun e => hb (by rw [e]; decide))))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_keeps c _ main_arg0 (by decide)
    _ = W2 m ρ c (Proc.devRef .tc main_arg0) := W3_of_ne m ρ c main_arg0 (by decide)
    _ = W1 m ρ c (Proc.devRef .tc main_arg0) := hostOps1_keeps c _ main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_keeps c _ main_arg1 (by decide)
    _ = W2 m ρ c (Proc.devRef .tc main_arg1) := W3_of_ne m ρ c main_arg1 (by decide)
    _ = W1 m ρ c (Proc.devRef .tc main_arg1) := hostOps1_keeps c _ main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0: entered from every unscoped buffer at W0, left at W1. Its five arrays are distinct buffers, split out
    of the unscoped buffers whole and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's output array the exit contents are the entry contents. -/
theorem rest1_eq (c : Dev nD) :
    (Pipeline.unscopedRest (Ix := Unit) (Name := ℕ) (U := UR sig nD τ) (Lvl := ℕ) spec1 c (V3 m ρ c) : sProp 𝕄)
      = Pipeline.unscopedRest spec1 c (V2 m ρ c) := by
  unfold Pipeline.unscopedRest
  refine bigSep_congr fun b hb => ?_
  have hb' : b ≠ main_v4 := fun e => (Finset.mem_sdiff.mp hb).2 (by rw [e, img1]; decide)
  rw [show V3 m ρ c b = V2 m ρ c b from W3_of_ne m ρ c b hb']

set_option backward.isDefEq.respectTransparency.types false in
/-- REGION 1: entered from every unscoped buffer at W2, left at W3. Its two input windows read one array: at entry
    that buffer's full share splits into the windows' halves, at exit the halves (still at the entry contents)
    rejoin; its output array goes in whole and comes back at what the write-backs leave. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsp := Pipeline.unscopedBufs_split₀ (Ix := Unit) (Name := ℕ) (U := UR sig nD τ) (Lvl := ℕ) (Val := Elt F)
      (Pipeline.pin (pcfgs (F := F)) adm) (1 : Fin 2) winFacts₀1.arr_unscoped c (V2 m ρ c)
    rw [Pipeline.unscopedBufs_held] at hsp
    have harr := arrays1_of_bufs (V2 m ρ) c (V2 m ρ c) ((pdats m ρ 1 c).arrAt · 0) rfl rfl rfl
    iintro ⟨⟨Hub, Hp, HO⟩, -, -⟩
    ihave H := (Entails.of_eq hsp) $$ Hub
    icases H with ⟨Ha, Hrest⟩
    ihave Ha' := harr $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hsp : (StableHlo.held (c : Thread nD τ) (Pipeline.ucRefs τ sig) (W3 m ρ c) : sProp 𝕄)
        = iprop(Pipeline.arrBufs spec1 c (V3 m ρ c) ∗ Pipeline.unscopedRest spec1 c (V2 m ρ c)) := by
      have h := Pipeline.unscopedBufs_split₀ (Ix := Unit) (Name := ℕ) (U := UR sig nD τ) (Lvl := ℕ) (Val := Elt F)
        (Pipeline.pin (pcfgs (F := F)) adm) (1 : Fin 2) winFacts₀1.arr_unscoped c (V3 m ρ c)
      rw [Pipeline.unscopedBufs_held] at h
      rw [h, ← rest1_eq m ρ c]
      rfl
    have harr : ((pdats m ρ 1 c).arrays (fun x => (pdats m ρ 1 c).arrAt x (Pipeline.pin (pcfgs (F := F)) adm 1).N) : sProp 𝕄)
        ⊢ Pipeline.arrBufs spec1 c (V3 m ρ c) := bufs_of_arrays1 (V2 m ρ) c (V3 m ρ c) ((pdats m ρ 1 c).arrAt · cfg1.N)
      (((dat1 (V2 m ρ) c).arrAt_in 0 rfl _).trans (W3_of_ne m ρ c main_v3 (by decide)).symm)
      (((dat1 (V2 m ρ) c).arrAt_in 1 rfl _).trans (W3_of_ne m ρ c main_v3 (by decide)).symm)
      (W3_v4 m ρ c).symm
    iintro ⟨Ha, HO, HY, Hrest⟩
    ihave Ha' := harr $$ Ha
    imodintro
    isplitl [Ha' Hrest]
    · iapply (Entails.of_eq hsp.symm); isplitl [Ha'] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and the final memory holds every unscoped buffer at the last boundary's contents W4. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_main m ρ)

end Cert.Kernel.Hand

end
-- ==== Proof.KernelIdeal.R0.lean ====
/- Region 0 of the kernel program (the row-normalising call, a grid of 8 points over 1024-row tiles), read
   by itself at ANY contents V of the TensorCore's buffers on entry, and at any float instance F.

   At a grid point t the body receives five staging buffers: the 1024x128 blocks of the two argument
   arrays (rows 1024*t .. 1024*t+1023), which it reads whole and leaves as they were, and three result
   buffers, each of which it overwrites whole with ONE store: the two normalised blocks (each a pure
   function of one input block) and the 8x128 slab of per-row sums of squared differences (a pure function
   of both input blocks). So after the body each result buffer is a function of the two input blocks alone,
   whatever it held before; the loads the body makes of the result buffers before storing are dead.

   This file states that as separation-logic data: the block of a window at a point, what each result
   buffer holds after the body, the body's triple, the per-point data of the pipeline and the obligation
   the launch theorems ask of the body. -/
import proofs.«158555_j34162169872914_2_alg».proof.Proof.Gen.KernelIdeal.Launch
import proofs.«158555_j34162169872914_2_alg».proof.Proof.Gen.KernelIdeal.Skeleton
import proofs.«158555_j34162169872914_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of extent 1024 is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when region 0 is entered: everything below is stated at this parameter
variable (V : (c : Dev nD) → (b : Ref sig .tc) → Buf (Elt F) ((c : Thread nD τ).loc b))

/-! ## The windows' blocks -/

/-- Window w's block at point t: the rows of its array (as V has it) that the window's index map selects
    at t, read as a vector of the block's shape. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, whatever the per-point data, as long as
    the data's array is V's and the body leaves the block in place: the block is fetched before every point
    and the window is never cut or idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

/-- The whole 1024x128 buffer as a rectangle. -/
abbrev rTile : Rect S1024x128 := Rect.unit (s := S1024x128) ![0, 0] S1024x128.size inb_S1024x128_S1024x128_0_0
/-- The whole 8x128 buffer as a rectangle. -/
abbrev rSlab : Rect S8x128 := Rect.unit (s := S8x128) ![0, 0] S8x128.size inb_S8x128_S8x128_0_0

/-! ## What the body leaves in each result buffer -/

/-- Window 2 (the first normalised block, in the narrow format) after the body: one whole-buffer store of the
    first input block divided row by row by max(its row norm, eps), narrowed. -/
def out0_2 (x0 : Vec F S1024x128 .f32) (x1 : Vec F S1024x128 .f32) : Vec F S1024x128 .bf16 :=
  View.canon [⟨rTile, k0_pay4 (View.ld x0 rTile)⟩]

/-- One store of the whole buffer covers it. -/
theorem cover0_2 (p0 : Vec F S1024x128 .bf16) (y : S1024x128.Idx) :
    ∃ pc ∈ ([⟨rTile, p0⟩] : List (View.Piece (Elt F) S1024x128 .bf16)), y ∈ pc.1.set :=
  View.cover_of_tiled [⟨rTile, p0⟩] S1024x128.size (by rfl) y

/-- Window 3 (the second normalised block) after the body: the same function of the second input block. -/
def out0_3 (x0 : Vec F S1024x128 .f32) (x1 : Vec F S1024x128 .f32) : Vec F S1024x128 .bf16 :=
  View.canon [⟨rTile, k0_pay5 (View.ld x1 rTile)⟩]

theorem cover0_3 (p0 : Vec F S1024x128 .bf16) (y : S1024x128.Idx) :
    ∃ pc ∈ ([⟨rTile, p0⟩] : List (View.Piece (Elt F) S1024x128 .bf16)), y ∈ pc.1.set :=
  View.cover_of_tiled [⟨rTile, p0⟩] S1024x128.size (by rfl) y

/-- Window 4 (the slab of row sums) after the body: for each of the block's 1024 rows the sum over the 128
    lanes of the squared difference of the two normalised rows, laid out 8x128 in row-major order. -/
def out0_4 (x0 : Vec F S1024x128 .f32) (x1 : Vec F S1024x128 .f32) : Vec F S8x128 .f32 :=
  View.canon [⟨rSlab, k0_pay3 (View.ld x0 rTile) (View.ld x1 rTile)⟩]

theorem cover0_4 (p0 : Vec F S8x128 .f32) (y : S8x128.Idx) :
    ∃ pc ∈ ([⟨rSlab, p0⟩] : List (View.Piece (Elt F) S8x128 .f32)), y ∈ pc.1.set :=
  View.cover_of_tiled [⟨rSlab, p0⟩] S8x128.size (by rfl) y

/-! ## The body's triple -/

set_option maxHeartbeats 1000000 in
/-- The body on whole staging buffers, the inputs' holding x0 and x1 and the results' holding anything, runs
    without fault to a state where the inputs' hold what they held and each result's holds out0_W x0 x1. -/
theorem sound_kernel0 (c : Dev nD) (E : Set ℕ) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S8x128 .f32) (harg5 : arg5.IsWhole)
    (x0 : Vec F S1024x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_norm_align_kernel i arg1 harg1 arg2 harg2 arg3 harg3 arg4 harg4 arg5 harg5) K := by
  simp only [cc0_norm_align_kernel_eq_skeleton]; unfold cc0_norm_align_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's per-point data -/

/-- Pipeline 0 on core c: the arrays as V has them; after the body at point t each input's buffer holds its
    block and each result's holds out0_W of the two input blocks; the invariant carried between points is the
    untouched rest of the core's scoped state; nothing is owed to another core; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The data's arrays are V's. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is entered with at point t: the invariant, the core's debts, and the five staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the launch theorems ask of the body, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.R1.lean ====
/-
  Region 1 (the pairwise-sum kernel, grid 2 × 8 × 8, point t = (b, i, j)) as one pipeline.

  The body reads two 1024-row blocks of ONE array — the stacked, normalised inputs: block (b, i) through window 0,
  block (b, j) through window 1 — and keeps a running (8, 128) block in its output window 2, whose block index
  (8·b + i, 0) does not depend on j: the output buffer is carried across the eight points of a (b, i) row, reset to
  zero by the body at j = 0 and written back after j = 7. So the body has two cases: at j = 0 it overwrites the
  buffer with zero and then adds the tile's column sums to that; at j ≠ 0 it adds them to what the point before
  left. What the output buffer holds after each point is therefore a recursion on the point (outsAt1).
  Everything here is generic in the float instance.
-/
import proofs.«158555_j34162169872914_2_alg».proof.Proof.Gen.KernelIdeal.Launch
import proofs.«158555_j34162169872914_2_alg».proof.Proof.Gen.KernelIdeal.Skeleton
import proofs.«158555_j34162169872914_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the TensorCore when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds block (b, i) at every point, fetched there (j = 0) or not (the block
    index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds block (b, j) at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one branch: the last grid coordinate j is 0. -/
abbrev cond1_0 (i : grid1.Coords) : Prop := (Scalar.cmpi .ne (Scalar.extui (Scalar.cmpi .eq (BitVec.ofNat 32 (i 2).val) 0#32)) 0#32) = 1#1
/-- It holds exactly at the points t ≡ 0 (mod 8): the grid is row-major with j last. -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the output window, through which its contents are stated. -/
abbrev VO1_2 : View sig .tc .vmem S8x128 .f32 := (Memref.whole cc1_stg2_0 : Memref sig .tc .vmem S8x128 .f32).view
/-- Each window's current staging memref at point t, as the pipeline passes it to the body, and its wholeness. -/
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128 .f32 := win1_2.stage (cfg1.slots t 2)
abbrev hs1_2 (t : Fin cfg1.N) : (ms1_2 t).IsWhole := hstage1_2 ((cfg1.slots t 2).cast nbuf1_2)

/-! ## The body's run, case by case -/

set_option maxHeartbeats 1000000 in
/-- CASE j = 0. On whole staging memrefs, the two inputs' at contents x0, x1 and the output's at anything, the body
    runs to the continuation with the inputs' as they were and the output's buffer with the body's stores written
    (the zero block, then the zero block plus the tile's column sums): the pieces, last first, are found by the run. -/
noncomputable def kernelRun1_A (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : cond1_0 i) (x0 : Vec F S1x1024x128 .bf16) (x1 : Vec F S1x1024x128 .bf16) :
    { L2 : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)) -∗ K ⟨⟩))
          ⊢ wp frame (wpE (defs₀ (F := F)) Variants.none c none) E (cc1_pairwise_sum_kernel i arg3 harg3 arg4 harg4 arg5 harg5) K } := by
  refine ⟨?_, fun E K => ?run⟩
  case run =>
    simp only [cc1_pairwise_sum_kernel_eq_skeleton]; unfold cc1_pairwise_sum_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- CASE j ≠ 0. The same with the output's buffer at its running contents xo2, which the body reads before it
    stores (the running contents plus the tile's column sums). -/
noncomputable def kernelRun1_B (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : ¬cond1_0 i) (x0 : Vec F S1x1024x128 .bf16) (x1 : Vec F S1x1024x128 .bf16) (xo2 : Vec F S8x128 .f32) :
    { L2 : List (View.Piece (Elt F) S8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)) -∗ K ⟨⟩))
          ⊢ wp frame (wpE (defs₀ (F := F)) Variants.none c none) E (cc1_pairwise_sum_kernel i arg3 harg3 arg4 harg4 arg5 harg5) K } := by
  refine ⟨?_, fun E K => ?run⟩
  case run =>
    simp only [cc1_pairwise_sum_kernel_eq_skeleton]; unfold cc1_pairwise_sum_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-! ## What each case leaves in the output window's buffer -/

/-- Case j = 0: the body's stores are whole-block stores, so they cover the (8, 128) block. -/
theorem cover1_A_2 (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : cond1_0 i) (x0 : Vec F S1x1024x128 .bf16) (x1 : Vec F S1x1024x128 .bf16) (y : S8x128.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S8x128.size (by sl_kernel_rfl) y

/-- What case j = 0 leaves in the output buffer: its pieces read back (over contents that do not matter). -/
def out1_A_2 (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : cond1_0 i) (x0 : Vec F S1x1024x128 .bf16) (x1 : Vec F S1x1024x128 .bf16) : Vec F S8x128 .f32 :=
  VO1_2.read (Elt F) (VO1_2.writes (Elt F) VO1_2.junk (kernelRun1_A c i arg3 harg3 arg4 harg4 arg5 harg5 hc0 x0 x1).1)

/-- Case j ≠ 0: one whole-block store, which covers the block. -/
theorem cover1_B_2 (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : ¬cond1_0 i) (x0 : Vec F S1x1024x128 .bf16) (x1 : Vec F S1x1024x128 .bf16) (xo2 : Vec F S8x128 .f32) (y : S8x128.Idx) :
    ∃ pc ∈ (kernelRun1_B c i arg3 harg3 arg4 harg4 arg5 harg5 hc0 x0 x1 xo2).1, y ∈ pc.1.set :=
  View.cover_of_tiledL (kernelRun1_B c i arg3 harg3 arg4 harg4 arg5 harg5 hc0 x0 x1 xo2).1 S8x128.size (by sl_kernel_rfl) y

/-- What case j ≠ 0 leaves in the output buffer. -/
def out1_B_2 (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : ¬cond1_0 i) (x0 : Vec F S1x1024x128 .bf16) (x1 : Vec F S1x1024x128 .bf16) (xo2 : Vec F S8x128 .f32) : Vec F S8x128 .f32 :=
  VO1_2.read (Elt F) (VO1_2.writes (Elt F) VO1_2.junk (kernelRun1_B c i arg3 harg3 arg4 harg4 arg5 harg5 hc0 x0 x1 xo2).1)

/-! ## What the output buffer holds after each point -/

/-- THE ACCUMULATION over j. After the body at position n: at n ≡ 0 (mod 8) the reset case on the point's blocks;
    otherwise the adding case on the point's blocks and what position n − 1 left (the buffer is not written back
    in between). -/
def outsAt1 (c : Dev nD) : (n : ℕ) → n < cfg1.N → Vec F S8x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 8 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

/-- At a point with j = 0: the reset case's contents. -/
theorem outsAt1_A (c : Dev nD) (t : Fin cfg1.N) (h0 : t.val % 8 = 0) :
    outsAt1 V c t.val t.isLt = out1_A_2 c (grid1.coords t) (ms1_0 t) (hs1_0 t) (ms1_1 t) (hs1_1 t) (ms1_2 t) (hs1_2 t)
      ((hcond1_0 t).mpr h0) (iblk1 V c 0 t) (iblk1 V c 1 t) := by
  obtain ⟨n, hn⟩ := t
  cases n with
  | zero => exact rfl
  | succ n => exact (dif_pos h0).trans rfl

/-- At a point with j ≠ 0: the adding case's contents, over what the point before left. -/
theorem outsAt1_B (c : Dev nD) (t : Fin cfg1.N) (h0 : ¬t.val % 8 = 0) :
    outsAt1 V c t.val t.isLt = out1_B_2 c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core c: the arrays as the region finds them; after the body at point t each
    input's buffer at its block and the output's at outsAt1; the invariant the scoped rest and the generator
    register, untouched; nothing owed. The two input windows read ONE array, so each holds half of it: the left and
    the right half of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point with j ≠ 0 the output buffer holds what the body left at the point before: the point is not the
    first, and the buffer is written back only after j = 7. -/
theorem before1_2_B (c : Dev nD) (t : Fin cfg1.N) (h0 : ¬t.val % 8 = 0) (d) :
    (dat1 V c).before 2 t d = outsAt1 V c (t.val - 1) (Nat.lt_of_le_of_lt (Nat.sub_le _ _) t.isLt) := by
  have hN : t.val < 128 := lt_of_lt_of_eq t.isLt (show cfg1.N = 128 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; j decides the case; at j ≠ 0 the output buffer
    holds what the point before left; so that case's run applies. The invariant and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.R1Arrays.lean ====
/-
  Region 1's arrays. Its two input windows read ONE array (the stacked, normalised inputs), so the pipeline holds
  that array as two half shares, one per window, and its output array whole. At the region's entry the core holds
  both buffers whole; the full share of the stacked input splits into the two halves, and at the exit, where both
  windows still hold the same contents, the halves rejoin.
-/
import proofs.«158555_j34162169872914_2_alg».proof.Proof.KernelIdeal.R1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The shares the proof data holds region 1's arrays at: the stacked input is read through two windows, each holding
    one half of it; the output array is held whole. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

/-- The distinct buffers behind region 1's three windows: the stacked input and the output. -/
theorem img1 : Finset.univ.image (Pipeline.arrRef spec1) = ({main_v3, main_v4} : Finset (Ref sig .tc)) := by decide

/-- ENTRY. The two buffers behind region 1's arrays, each whole at the full share, are the pipeline's arrays at the
    same contents: the stacked input's full share splits into the two input windows' halves. -/
theorem arrays1_of_bufs (c : Dev nD) (Vv : (b : Ref sig .tc) → Buf (Elt F) ((c : Thread nD τ).loc b))
    (G : (w : Fin cfg1.W) → Buf (Elt F) ((cfg1.win w).arr.view.loc (c : Thread nD τ)))
    (h0 : G 0 = Vv main_v3) (h1 : G 1 = Vv main_v3) (h2 : G 2 = Vv main_v4) :
    (Pipeline.arrBufs (Ix := Unit) (Name := ℕ) (U := UR sig nD τ) (Lvl := ℕ) spec1 c Vv : sProp 𝕄) ⊢ (dat1 V c).arrays G := by
  unfold Pipeline.arrBufs Pipeline.Dat.arrays
  rw [img1, bigSep_insert (by decide), bigSep_singleton, bigSep_W1]
  rw [share1_0, share1_1, share1_2, h0, h1, h2]
  rw [(arr_whole1 0).set_eq_univ, (arr_whole1 2).set_eq_univ]
  show (iprop(((c : Thread nD τ).loc main_v3 ↦{fullShare} Vv main_v3) ∗ ((c : Thread nD τ).loc main_v4 ↦{fullShare} Vv main_v4)) : sProp 𝕄) ⊢ _
  iintro ⟨H3, H4⟩
  ihave H3' := (pointsTo_share (PosShare.mem_left_op_right fullShare)).1 $$ H3
  icases H3' with ⟨Hl, Hr⟩
  isplitl [Hl]; · iexact Hl
  isplitl [Hr]; · iexact Hr
  iexact H4

/-- EXIT. Conversely the pipeline's arrays, the two input windows' at ONE contents, are the two buffers whole: the
    halves of the stacked input rejoin. -/
theorem bufs_of_arrays1 (c : Dev nD) (Vv : (b : Ref sig .tc) → Buf (Elt F) ((c : Thread nD τ).loc b))
    (G : (w : Fin cfg1.W) → Buf (Elt F) ((cfg1.win w).arr.view.loc (c : Thread nD τ)))
    (h0 : G 0 = Vv main_v3) (h1 : G 1 = Vv main_v3) (h2 : G 2 = Vv main_v4) :
    (dat1 V c).arrays G ⊢ (Pipeline.arrBufs (Ix := Unit) (Name := ℕ) (U := UR sig nD τ) (Lvl := ℕ) spec1 c Vv : sProp 𝕄) := by
  unfold Pipeline.arrBufs Pipeline.Dat.arrays
  rw [img1, bigSep_insert (by decide), bigSep_singleton, bigSep_W1]
  rw [share1_0, share1_1, share1_2, h0, h1, h2]
  rw [(arr_whole1 0).set_eq_univ, (arr_whole1 2).set_eq_univ]
  show _ ⊢ (iprop(((c : Thread nD τ).loc main_v3 ↦{fullShare} Vv main_v3) ∗ ((c : Thread nD τ).loc main_v4 ↦{fullShare} Vv main_v4)) : sProp 𝕄)
  iintro ⟨Hl, Hr, H4⟩
  isplitl [Hl Hr]
  · iapply (pointsTo_share (PosShare.mem_left_op_right fullShare)).2
    isplitl [Hl]; · iexact Hl
    iexact Hr
  iexact H4

end Cert.KernelIdeal.Hand

end
-- ==== Proof.KernelIdeal.Run.lean ====
/-
  The run of the whole program: region 0, three host operations, region 1, twenty-two host operations.

  The contents of the core's unscoped buffers at the five boundaries are a fold from the launch memory: W0 the
  launch contents; W1 region 0's arrays at what its write-backs leave (its three outputs; the two arguments as
  entered); W2 after the three host operations that stack the two normalised arrays; W3 region 1's output array at
  what its write-backs leave (the stacked input, read through two windows, as entered); W4 after the host tail.
  Each region is a segment entered from "every unscoped buffer at the boundary's contents, the generator register at
  some state, nothing owed" and left at the same over the next boundary's contents. The run's post reads EVERY
  unscoped buffer at W4; the frame (the arguments end as launched) and the result's value are read off it.
-/
import proofs.«158555_j34162169872914_2_alg».proof.Proof.KernelIdeal.R0
import proofs.«158555_j34162169872914_2_alg».proof.Proof.KernelIdeal.R1Arrays
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the three host operations (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1: its output array at what the pipeline leaves, every other buffer as entered. -/
def W3 (c : Dev nD) : Valuation τ sig (Elt F) :=
  Function.update (W2 m ρ c) (Proc.devRef .tc main_v4) ((dat1 (V2 m ρ) c).arrAt 2 cfg1.N)
theorem W3_v4 (c : Dev nD) : W3 m ρ c (Proc.devRef .tc main_v4) = (dat1 (V2 m ρ) c).arrAt 2 cfg1.N := by
  unfold W3; exact Function.update_self ..
theorem W3_of_ne (c : Dev nD) (b : Ref sig .tc) (hb : b ≠ main_v4) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
/-- After the host tail (the end). -/
abbrev W4 : Dev nD → Valuation τ sig (Elt F) := fun c => StableHlo.after hostOps2 (W3 m ρ c)

/-! ## The arguments end as launched -/

theorem hostOps1_keeps (c : Dev nD) (W : Valuation τ sig (Elt F)) (b : Ref sig .tc) (hb : b ∉ ([main_v1, main_v2, main_v3] : List (Ref sig .tc))) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (fun e => hb (by rw [e]; decide))))

theorem hostOps2_keeps (c : Dev nD) (W : Valuation τ sig (Elt F)) (b : Ref sig .tc)
    (hb : b ∉ ([main_v5, main_cst, main_v6, main_v7, main_cst_0, main_v8, main_cst_1, main_v9, main_cst_2, main_v10, main_cst_3, main_v11, main_v12, main_cst_4, main_v13, main_v14, main_v15, main_cst_5, main_v16, main_cst_6, main_v17, main_v18] : List (Ref sig .tc))) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    repeat' apply And.intro
    all_goals exact StableHlo.devRef_ne_of_ne (fun e => hb (by rw [e]; decide))))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_keeps c _ main_arg0 (by decide)
    _ = W2 m ρ c (Proc.devRef .tc main_arg0) := W3_of_ne m ρ c main_arg0 (by decide)
    _ = W1 m ρ c (Proc.devRef .tc main_arg0) := hostOps1_keeps c _ main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_keeps c _ main_arg1 (by decide)
    _ = W2 m ρ c (Proc.devRef .tc main_arg1) := W3_of_ne m ρ c main_arg1 (by decide)
    _ = W1 m ρ c (Proc.devRef .tc main_arg1) := hostOps1_keeps c _ main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0: entered from every unscoped buffer at W0, left at W1. Its five arrays are distinct buffers, split out
    of the unscoped buffers whole and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's output array the exit contents are the entry contents. -/
theorem rest1_eq (c : Dev nD) :
    (Pipeline.unscopedRest (Ix := Unit) (Name := ℕ) (U := UR sig nD τ) (Lvl := ℕ) spec1 c (V3 m ρ c) : sProp 𝕄)
      = Pipeline.unscopedRest spec1 c (V2 m ρ c) := by
  unfold Pipeline.unscopedRest
  refine bigSep_congr fun b hb => ?_
  have hb' : b ≠ main_v4 := fun e => (Finset.mem_sdiff.mp hb).2 (by rw [e, img1]; decide)
  rw [show V3 m ρ c b = V2 m ρ c b from W3_of_ne m ρ c b hb']

set_option backward.isDefEq.respectTransparency.types false in
/-- REGION 1: entered from every unscoped buffer at W2, left at W3. Its two input windows read one array: at entry
    that buffer's full share splits into the windows' halves, at exit the halves (still at the entry contents)
    rejoin; its output array goes in whole and comes back at what the write-backs leave. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsp := Pipeline.unscopedBufs_split₀ (Ix := Unit) (Name := ℕ) (U := UR sig nD τ) (Lvl := ℕ) (Val := Elt F)
      (Pipeline.pin (pcfgs (F := F)) adm) (1 : Fin 2) winFacts₀1.arr_unscoped c (V2 m ρ c)
    rw [Pipeline.unscopedBufs_held] at hsp
    have harr := arrays1_of_bufs (V2 m ρ) c (V2 m ρ c) ((pdats m ρ 1 c).arrAt · 0) rfl rfl rfl
    iintro ⟨⟨Hub, Hp, HO⟩, -, -⟩
    ihave H := (Entails.of_eq hsp) $$ Hub
    icases H with ⟨Ha, Hrest⟩
    ihave Ha' := harr $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hsp : (StableHlo.held (c : Thread nD τ) (Pipeline.ucRefs τ sig) (W3 m ρ c) : sProp 𝕄)
        = iprop(Pipeline.arrBufs spec1 c (V3 m ρ c) ∗ Pipeline.unscopedRest spec1 c (V2 m ρ c)) := by
      have h := Pipeline.unscopedBufs_split₀ (Ix := Unit) (Name := ℕ) (U := UR sig nD τ) (Lvl := ℕ) (Val := Elt F)
        (Pipeline.pin (pcfgs (F := F)) adm) (1 : Fin 2) winFacts₀1.arr_unscoped c (V3 m ρ c)
      rw [Pipeline.unscopedBufs_held] at h
      rw [h, ← rest1_eq m ρ c]
      rfl
    have harr : ((pdats m ρ 1 c).arrays (fun x => (pdats m ρ 1 c).arrAt x (Pipeline.pin (pcfgs (F := F)) adm 1).N) : sProp 𝕄)
        ⊢ Pipeline.arrBufs spec1 c (V3 m ρ c) := bufs_of_arrays1 (V2 m ρ) c (V3 m ρ c) ((pdats m ρ 1 c).arrAt · cfg1.N)
      (((dat1 (V2 m ρ) c).arrAt_in 0 rfl _).trans (W3_of_ne m ρ c main_v3 (by decide)).symm)
      (((dat1 (V2 m ρ) c).arrAt_in 1 rfl _).trans (W3_of_ne m ρ c main_v3 (by decide)).symm)
      (W3_v4 m ρ c).symm
    iintro ⟨Ha, HO, HY, Hrest⟩
    ihave Ha' := harr $$ Ha
    imodintro
    isplitl [Ha' Hrest]
    · iapply (Entails.of_eq hsp.symm); isplitl [Ha'] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and the final memory holds every unscoped buffer at the last boundary's contents W4. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_main m ρ)

end Cert.KernelIdeal.Hand

end
-- ==== Proof.RefSpec.lean ====
/-
  The specification both programs are compared against: the scalar the reference computes and the scalar the
  kernel computes, each as one explicit function of the two 8192 × 128 argument arrays read as extended reals.
  Both normalise every row by its clamped Euclidean norm, take the mean squared distance of the normalised rows
  (`alignTerm`), and add the mean of two logarithms of a pairwise potential of the Gram matrix of the normalised
  rows: the reference sums `exp (-2 · max (2 - 2 s) 0)` over the strict upper triangle and divides by the number of
  such pairs, the kernel sums `exp (4 · min s 1 - 4)` over all off-diagonal pairs and divides by twice that number.
  Float literals stay as their words; only the zero word is evaluated.
-/
import Idealize.ShloMosaic.Lib.ValueIdx
import Idealize.ShloMosaic.PureOps.Ideal

noncomputable section

open scoped BigOperators

namespace Cert.RefSide

open Idealize.ShloMosaic Idealize.ShloMosaic.ValueIdx

/-! ## The reference's result as one function of the two argument arrays -/

/-- An 8192 × 128 array of extended reals. -/
abbrev Arr : Type := (⟨2, ![8192, 128]⟩ : Shape).Idx → EReal

/-- The clamped Euclidean norm of row `r`: `max (√(∑_d x(r,d)²)) ε`. -/
def rowNorm (x : Arr) (r : Fin 8192) : EReal :=
  max (Ideal.sqrt (∑ d : Fin 128, x (ix2 r d) * x (ix2 r d))) (Ideal.ofBits .f32 0x2B8CBCCC#32)

/-- The normalised entry `x(r,d) / rowNorm x r`. -/
def normd (x : Arr) (r : Fin 8192) (d : Fin 128) : EReal :=
  Ideal.div (x (ix2 r d)) (rowNorm x r)

/-- The Gram entry of the normalised rows `r` and `c`: `∑_d xn(r,d) · xn(c,d)`. -/
def gram (x : Arr) (r c : Fin 8192) : EReal := ∑ d : Fin 128, normd x r d * normd x c d

/-- One summand of the reference's pairwise potential, `exp (-2 · max (2 - 2 s) 0)`. -/
def refEntry (s : EReal) : EReal :=
  Ideal.exp (Ideal.ofBits .f32 0xC0000000#32 *
    max (Ideal.ofBits .f32 0x40000000#32 - Ideal.ofBits .f32 0x40000000#32 * s) 0)

/-- The sum of the summands over the strictly upper triangle `r < c`, written over all pairs with the mask as an `if`. -/
def upperSum (x : Arr) : EReal :=
  ∑ r : Fin 8192, ∑ c : Fin 8192, if r.val < c.val then refEntry (gram x r c) else 0

/-- The logarithm of the mean summand over the `8192 · 8191 / 2` pairs. -/
def refLog (x : Arr) : EReal :=
  Ideal.log (Ideal.div (upperSum x) (Ideal.ofBits .f32 0x4BFFF800#32))

/-- The mean over the rows of the squared distance of the two normalised rows. -/
def alignTerm (q k : Arr) : EReal :=
  Ideal.div (∑ r : Fin 8192, ∑ d : Fin 128, (normd q r d - normd k r d) * (normd q r d - normd k r d))
    (Ideal.ofBits .f32 0x46000000#32)

/-- The reference's scalar result: `align + 1 · ((log-term q + log-term k) / 2)`. -/
def refG (q k : Arr) : EReal :=
  alignTerm q k + Ideal.ofBits .f32 0x3F800000#32 *
    Ideal.div (refLog q + refLog k) (Ideal.ofBits .f32 0x40000000#32)

/-! ## The kernel's result over the same pieces -/

/-- One summand of the kernel's pairwise potential, `exp (4 · min s 1 - 4)`. -/
def kerEntry (s : EReal) : EReal :=
  Ideal.exp (Ideal.ofBits .f32 0x40800000#32 * min s (Ideal.ofBits .f32 0x3F800000#32) - Ideal.ofBits .f32 0x40800000#32)

/-- The sum of the kernel's summands over all off-diagonal pairs `r ≠ c`. -/
def fullSum (x : Arr) : EReal :=
  ∑ r : Fin 8192, ∑ c : Fin 8192, if r.val = c.val then 0 else kerEntry (gram x r c)

/-- The logarithm of the mean summand over the `8192 · 8191` ordered pairs. -/
def kerLog (x : Arr) : EReal :=
  Ideal.log (Ideal.div (fullSum x) (Ideal.ofBits .f32 0x4C7FF800#32))

/-- The kernel's scalar result. -/
def kerG (q k : Arr) : EReal :=
  alignTerm q k + Ideal.ofBits .f32 0x3F800000#32 *
    Ideal.div (kerLog q + kerLog k) (Ideal.ofBits .f32 0x40000000#32)

end Cert.RefSide

end
-- ==== Proof.KernelIdeal.R0Value.lean ====
/- What region 0 leaves in its three result arrays, at the ideal instance, as explicit functions of the two
   argument arrays (read as 8192 x 128 arrays of extended reals, at any entry contents V of the buffers).

   The region visits 8 points; at point t it reads rows 1024 t .. 1024 t + 1023 of both arguments and writes
   * rows 1024 t .. 1024 t + 1023 of the first and second result arrays: each entry x(r,d) divided by
     max(sqrt(sum_e x(r,e)^2), eps), the row's clamped Euclidean norm (narrowing the format is the identity here);
   * rows 8 t .. 8 t + 7 of the 64 x 128 third result array: for each of the tile's 1024 rows, the sum over
     the 128 lanes of the squared difference of the two normalised rows, the 1024 sums laid out row-major.
   The blocks of each result array tile it, so after the region each result array is one function of the
   arguments: the normalised array of the first argument, that of the second, and the array of squared
   distances whose entry (g, b) is that of row 1024 (g / 8) + 128 (g % 8) + b.

   First the body's arithmetic read at an index, over variables of the blocks' literal types; then the blocks
   as rows of the arrays; then each result array. -/
import proofs.«158555_j34162169872914_2_alg».proof.Proof.Gen.KernelIdeal.Skeleton
import proofs.«158555_j34162169872914_2_alg».proof.Proof.RefSpec
import proofs.«158555_j34162169872914_2_alg».proof.Proof.KernelIdeal.R0
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandValue

open Cert.KernelIdeal Cert.KernelIdeal.Gen
open Idealize.ShloMosaic Idealize.ShloMosaic.ValueIdx

/-! ## Reading the body's arithmetic at an index

At the ideal instance every vector operation is the pointwise (or row-wise) exact one, so each stored value is an
explicit extended-real expression of the loaded blocks' entries. -/

/-- The index of the 1024x128 block that a row index and a lane index name: the reduction over the lane
    axis reads, for the reduced index (p), the entries (p, k). -/
theorem lift_row (h : S1024x128.Reduces [1] S1024) (p : Fin 1024) (k : Fin (S1024x128.size 1)) :
    h.lift (ix1 p) k = ix2 p (⟨k.val, k.isLt⟩ : Fin 128) := by
  funext c; apply Fin.ext; fin_cases c <;> rfl

/-- The sum over the lane axis from a zero accumulator, read at row p, is the sum of the row's 128 entries. -/
theorem rowSum_apply (y : FVec Ideal S1024x128 .f32) (p : Fin 1024) :
    multiReduction .add [1] S1024 y 0x00000000#32 reduces_S1024x128_S1024 (.inl rfl) rfl (ix1 p)
      = ∑ e : Fin 128, y (ix2 p e) := by
  refine (Ideal.multiReduction_add_single y 0x00000000#32 reduces_S1024x128_S1024 (.inl rfl) rfl (ix1 p)).trans ?_
  exact Finset.sum_congr rfl (fun k _ => congrArg y (lift_row _ p k))

/-- A length-1024 vector recast as a 1024x1 column, read at (p, 0), is its entry p. -/
theorem column_apply (v : FVec Ideal S1024 .f32) (p : Fin 1024) :
    shapeCast S1024x1 v shapeCasts_S1024_S1024x1 (ix2 p (0 : Fin 1)) = v (ix1 p) := by
  refine shapeCast_apply v shapeCasts_S1024_S1024x1 (ix2 p (0 : Fin 1)) (ix1 p) ?_
  rw [Shape.rowMajor_val_one, Shape.rowMajor_val_two]
  show p.val = p.val * 1 + 0
  omega

/-- A 1024x1 column broadcast along the lanes, read at (p, d), is the column's entry (p, 0). -/
theorem lanes_apply (v : FVec Ideal S1024x1 .f32) (p : Fin 1024) (d : Fin 128) :
    broadcastTo S1024x128 v broadcasts_S1024x1_S1024x128 (ix2 p d) = v (ix2 p (0 : Fin 1)) := by
  refine broadcastTo_apply v broadcasts_S1024x1_S1024x128 (ix2 p d) (ix2 p (0 : Fin 1)) ?_
  intro a; fin_cases a <;> rfl

/-- The first normalised block at (p, d): the entry divided by the larger of the row's Euclidean norm and eps. -/
theorem pay1_apply (x : Vec Ideal S1024x128 .f32) (p : Fin 1024) (d : Fin 128) :
    k0_pay1 x (ix2 p d) = Ideal.div (x (ix2 p d))
      (max (Ideal.sqrt (∑ e : Fin 128, x (ix2 p e) * x (ix2 p e))) (Ideal.ofBits .f32 0x2B8CBCCC#32)) := by
  unfold k0_pay1
  show Ideal.div (x (ix2 p d)) (broadcastTo S1024x128 _ broadcasts_S1024x1_S1024x128 (ix2 p d)) = _
  refine congrArg (Ideal.div (x (ix2 p d))) ?_
  refine (lanes_apply _ p d).trans ?_
  show max (Ideal.sqrt (shapeCast S1024x1 _ shapeCasts_S1024_S1024x1 (ix2 p (0 : Fin 1)))) (Ideal.ofBits .f32 0x2B8CBCCC#32) = _
  refine congrArg (fun z => max (Ideal.sqrt z) (Ideal.ofBits .f32 0x2B8CBCCC#32)) ?_
  refine (column_apply _ p).trans ?_
  exact rowSum_apply (mulf x x) p

/-- The second normalised block is the same function of the second input block. -/
theorem pay2_eq_pay1 (x : Vec Ideal S1024x128 .f32) : k0_pay2 x = k0_pay1 x := rfl

theorem pay2_apply (x : Vec Ideal S1024x128 .f32) (p : Fin 1024) (d : Fin 128) :
    k0_pay2 x (ix2 p d) = Ideal.div (x (ix2 p d))
      (max (Ideal.sqrt (∑ e : Fin 128, x (ix2 p e) * x (ix2 p e))) (Ideal.ofBits .f32 0x2B8CBCCC#32)) :=
  (congrFun (pay2_eq_pay1 x) (ix2 p d)).trans (pay1_apply x p d)

/-- Narrowing the format changes nothing at the ideal instance: the stored narrow blocks are the normalised blocks. -/
theorem pay4_apply (x : Vec Ideal S1024x128 .f32) (i : S1024x128.Idx) : (k0_pay4 x i : EReal) = k0_pay1 x i := rfl
theorem pay5_apply (x : Vec Ideal S1024x128 .f32) (i : S1024x128.Idx) : (k0_pay5 x i : EReal) = k0_pay2 x i := rfl

/-- A length-1024 vector recast as an 8x128 slab, read at (a, b), is its entry 128 a + b (row-major order). -/
theorem slab_apply (v : FVec Ideal S1024 .f32) (a : Fin 8) (b : Fin 128) :
    shapeCast S8x128 v shapeCasts_S1024_S8x128 (ix2 a b) = v (ix1 (⟨128 * a.val + b.val, by omega⟩ : Fin 1024)) := by
  refine shapeCast_apply v shapeCasts_S1024_S8x128 (ix2 a b) (ix1 (⟨128 * a.val + b.val, by omega⟩ : Fin 1024)) ?_
  rw [Shape.rowMajor_val_one, Shape.rowMajor_val_two]
  show 128 * a.val + b.val = a.val * 128 + b.val
  omega

/-- The slab at (a, b): over the 128 lanes of row 128 a + b, the sum of the squared differences of the two
    normalised blocks. -/
theorem pay3_apply (x0 x1 : Vec Ideal S1024x128 .f32) (a : Fin 8) (b : Fin 128) :
    k0_pay3 x0 x1 (ix2 a b) = ∑ e : Fin 128,
      (k0_pay1 x0 (ix2 (⟨128 * a.val + b.val, by omega⟩ : Fin 1024) e) - k0_pay2 x1 (ix2 (⟨128 * a.val + b.val, by omega⟩ : Fin 1024) e))
        * (k0_pay1 x0 (ix2 (⟨128 * a.val + b.val, by omega⟩ : Fin 1024) e) - k0_pay2 x1 (ix2 (⟨128 * a.val + b.val, by omega⟩ : Fin 1024) e)) := by
  unfold k0_pay3
  refine (slab_apply _ a b).trans ?_
  exact rowSum_apply (mulf (subf (k0_pay1 x0) (k0_pay2 x1)) (subf (k0_pay1 x0) (k0_pay2 x1))) _

/-! ## From blocks to arrays -/

open Cert.KernelIdeal.Hand
open Idealize.ShloMosaic.TcCoe Idealize.SL.Sem
open Idealize.ShloMosaic.Pipeline (Dat)

section Arrays
variable (V : (c : Dev nD) → (b : Ref sig .tc) → Buf (Elt Ideal) ((c : Thread nD τ).loc b))

theorem hz : (![0, 0] : Fin 2 → Nat) = fun _ => 0 := funext fun a => by fin_cases a <;> rfl

/-- Every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the block at point t is row 1024 t + p of the array. -/
def rowOf (t : Fin cfg0.N) (p : Fin 1024) : Fin 8192 :=
  ⟨1024 * t.val + p.val, by have := t.isLt; have hN : cfg0.N = 8 := N_0; omega⟩

/-- The first input's block at point t, at (p, d), is the first argument array at (1024 t + p, d). -/
theorem iblk0_0_apply (c : Dev nD) (t : Fin cfg0.N) (p : Fin 1024) (d : Fin 128) :
    (iblk0 V c 0 t : Vec Ideal S1024x128 .f32) (ix2 p d) = (V c main_arg0 : Cert.RefSide.Arr) (ix2 (rowOf t p) d) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 1024 + 1 * p.val = 1024 * t.val + p.val; rw [e0]; omega
  | ⟨1, _⟩ => show win0_0.index t 1 * 128 + 1 * d.val = d.val; rw [e1]; omega

/-- The second input's block at point t, at (p, d), is the second argument array at (1024 t + p, d). -/
theorem iblk0_1_apply (c : Dev nD) (t : Fin cfg0.N) (p : Fin 1024) (d : Fin 128) :
    (iblk0 V c 1 t : Vec Ideal S1024x128 .f32) (ix2 p d) = (V c main_arg1 : Cert.RefSide.Arr) (ix2 (rowOf t p) d) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t 0 * 1024 + 1 * p.val = 1024 * t.val + p.val; rw [e0]; omega
  | ⟨1, _⟩ => show win0_1.index t 1 * 128 + 1 * d.val = d.val; rw [e1]; omega

/-- If a block's rows are rows R p of an array, its normalised entries are the array's normalised entries there. -/
theorem pay1_rows (x : Vec Ideal S1024x128 .f32) (a : Cert.RefSide.Arr) (R : Fin 1024 → Fin 8192)
    (hx : ∀ p d, x (ix2 p d) = a (ix2 (R p) d)) (p : Fin 1024) (d : Fin 128) :
    k0_pay1 x (ix2 p d) = Cert.RefSide.normd a (R p) d := by
  rw [pay1_apply]
  unfold Cert.RefSide.normd Cert.RefSide.rowNorm
  simp only [hx]

/-- The array of normalised entries of an array. -/
def normArr (a : Cert.RefSide.Arr) : Cert.RefSide.Arr :=
  fun i => Cert.RefSide.normd a ⟨(i 0).val, idx2_lt0 i⟩ ⟨(i 1).val, idx2_lt1 i⟩

theorem normArr_apply (a : Cert.RefSide.Arr) (r : Fin 8192) (d : Fin 128) :
    normArr a (ix2 r d) = Cert.RefSide.normd a r d := rfl

/-- What point t writes back through window 2 is block t of the first argument's normalised array. -/
theorem flushed0_2_eq (c : Dev nD) (t : Fin cfg0.N) :
    (dat0 V c).flushed 2 t = ((cfg0.win 2).blk t).view.read (Elt Ideal) (normArr (V c main_arg0)) := by
  show (cfg0.win 2).cut (grid0.coords t) ((dat0 V c).after 2 t) = _
  rw [after0_2]
  unfold out0_2
  rw [View.canon_unit_zero hz]
  simp only [View.ld_unit_zero (S := S1024x128) hz]
  funext j
  obtain ⟨p, d, rfl⟩ : ∃ (p : Fin 1024) (d : Fin 128), j = ix2 p d := ⟨j 0, j 1, eq_ix2 j⟩
  obtain ⟨-, -, -, -, e0, e1, -⟩ := idx_facts t
  show k0_pay1 (iblk0 V c 0 t) (ix2 p d) = normArr (V c main_arg0) (((cfg0.win 2).blk t).view.emb (ix2 p d))
  have he : ((cfg0.win 2).blk t).view.emb (ix2 p d) = ix2 (rowOf t p) d := by
    funext a
    apply Fin.ext
    match a with
    | ⟨0, _⟩ => show win0_2.index t 0 * 1024 + 1 * p.val = 1024 * t.val + p.val; rw [e0]; omega
    | ⟨1, _⟩ => show win0_2.index t 1 * 128 + 1 * d.val = d.val; rw [e1]; omega
  refine Eq.trans ?_ (congrArg (normArr (V c main_arg0)) he).symm
  exact pay1_rows (iblk0 V c 0 t) (V c main_arg0) (rowOf t) (iblk0_0_apply V c t) p d

/-- Every index of the first result array lies in the block of the point its row falls in. -/
theorem covered0_2 (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, e0, e1, -⟩ := idx_facts t
  refine ⟨t, flush0_2 t, ?_⟩
  show i ∈ ((View.whole main_v0_0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0, ht]; omega
  | ⟨1, _⟩ => show win0_2.index t 1 * 128 ≤ (i 1).val ∧ (i 1).val < win0_2.index t 1 * 128 + 128; rw [e1]; omega

/-- After region 0 the first result array holds the first argument's normalised array. -/
theorem final0_2 (c : Dev nD) : (dat0 V c).arrAt 2 cfg0.N = normArr (V c main_arg0) :=
  (dat0 V c).arrAt_eq_of_cover 2 (normArr (V c main_arg0)) (fun t _ => flushed0_2_eq V c t) covered0_2

theorem final0_2_apply (c : Dev nD) (r : Fin 8192) (d : Fin 128) :
    ((dat0 V c).arrAt 2 cfg0.N : Cert.RefSide.Arr) (ix2 r d) = Cert.RefSide.normd (V c main_arg0) r d :=
  congrFun (final0_2 V c) (ix2 r d)

/-! ### The second result array -/

theorem pay2_rows (x : Vec Ideal S1024x128 .f32) (a : Cert.RefSide.Arr) (R : Fin 1024 → Fin 8192)
    (hx : ∀ p d, x (ix2 p d) = a (ix2 (R p) d)) (p : Fin 1024) (d : Fin 128) :
    k0_pay2 x (ix2 p d) = Cert.RefSide.normd a (R p) d :=
  (congrFun (pay2_eq_pay1 x) (ix2 p d)).trans (pay1_rows x a R hx p d)

/-- What point t writes back through window 3 is block t of the second argument's normalised array. -/
theorem flushed0_3_eq (c : Dev nD) (t : Fin cfg0.N) :
    (dat0 V c).flushed 3 t = ((cfg0.win 3).blk t).view.read (Elt Ideal) (normArr (V c main_arg1)) := by
  show (cfg0.win 3).cut (grid0.coords t) ((dat0 V c).after 3 t) = _
  rw [after0_3]
  unfold out0_3
  rw [View.canon_unit_zero hz]
  simp only [View.ld_unit_zero (S := S1024x128) hz]
  funext j
  obtain ⟨p, d, rfl⟩ : ∃ (p : Fin 1024) (d : Fin 128), j = ix2 p d := ⟨j 0, j 1, eq_ix2 j⟩
  obtain ⟨-, -, -, -, -, -, e0, e1, -⟩ := idx_facts t
  show k0_pay2 (iblk0 V c 1 t) (ix2 p d) = normArr (V c main_arg1) (((cfg0.win 3).blk t).view.emb (ix2 p d))
  have he : ((cfg0.win 3).blk t).view.emb (ix2 p d) = ix2 (rowOf t p) d := by
    funext a
    apply Fin.ext
    match a with
    | ⟨0, _⟩ => show win0_3.index t 0 * 1024 + 1 * p.val = 1024 * t.val + p.val; rw [e0]; omega
    | ⟨1, _⟩ => show win0_3.index t 1 * 128 + 1 * d.val = d.val; rw [e1]; omega
  refine Eq.trans ?_ (congrArg (normArr (V c main_arg1)) he).symm
  exact pay2_rows (iblk0 V c 1 t) (V c main_arg1) (rowOf t) (iblk0_1_apply V c t) p d

theorem covered0_3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, e0, e1, -⟩ := idx_facts t
  refine ⟨t, flush0_3 t, ?_⟩
  show i ∈ ((View.whole main_v0_1).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [e0, ht]; omega
  | ⟨1, _⟩ => show win0_3.index t 1 * 128 ≤ (i 1).val ∧ (i 1).val < win0_3.index t 1 * 128 + 128; rw [e1]; omega

/-- After region 0 the second result array holds the second argument's normalised array. -/
theorem final0_3 (c : Dev nD) : (dat0 V c).arrAt 3 cfg0.N = normArr (V c main_arg1) :=
  (dat0 V c).arrAt_eq_of_cover 3 (normArr (V c main_arg1)) (fun t _ => flushed0_3_eq V c t) covered0_3

theorem final0_3_apply (c : Dev nD) (r : Fin 8192) (d : Fin 128) :
    ((dat0 V c).arrAt 3 cfg0.N : Cert.RefSide.Arr) (ix2 r d) = Cert.RefSide.normd (V c main_arg1) r d :=
  congrFun (final0_3 V c) (ix2 r d)

/-! ### The third result array: per row, the squared distance of the two normalised rows

The 64x128 array is filled 8 rows per point; within a point's 8x128 slab the rows of the 1024-row tile are laid
out in row-major order. So entry (g, b) belongs to point g / 8 and is row 128 (g % 8) + b of that tile, i.e. row
1024 (g / 8) + 128 (g % 8) + b of the argument arrays. -/

/-- The row of the argument arrays whose squared distance lands at (g, b). -/
def slabRow (g : Fin 64) (b : Fin 128) : Fin 8192 :=
  ⟨1024 * (g.val / 8) + 128 * (g.val % 8) + b.val, by omega⟩

/-- The 64x128 array of squared distances of the normalised rows. -/
def distArr (q k : Cert.RefSide.Arr) : S64x128.Idx → EReal := fun i =>
  ∑ e : Fin 128,
    (Cert.RefSide.normd q (slabRow ⟨(i 0).val, idx2_lt0 i⟩ ⟨(i 1).val, idx2_lt1 i⟩) e
        - Cert.RefSide.normd k (slabRow ⟨(i 0).val, idx2_lt0 i⟩ ⟨(i 1).val, idx2_lt1 i⟩) e)
      * (Cert.RefSide.normd q (slabRow ⟨(i 0).val, idx2_lt0 i⟩ ⟨(i 1).val, idx2_lt1 i⟩) e
        - Cert.RefSide.normd k (slabRow ⟨(i 0).val, idx2_lt0 i⟩ ⟨(i 1).val, idx2_lt1 i⟩) e)

theorem distArr_apply (q k : Cert.RefSide.Arr) (g : Fin 64) (b : Fin 128) :
    distArr q k (ix2 g b) = ∑ e : Fin 128,
      (Cert.RefSide.normd q (slabRow g b) e - Cert.RefSide.normd k (slabRow g b) e)
        * (Cert.RefSide.normd q (slabRow g b) e - Cert.RefSide.normd k (slabRow g b) e) := rfl

/-- If the two blocks' rows are rows R p of two arrays, the slab entry (a, b) is the squared distance of the
    arrays' normalised rows R (128 a + b). -/
theorem pay3_rows (x0 x1 : Vec Ideal S1024x128 .f32) (q k : Cert.RefSide.Arr) (R : Fin 1024 → Fin 8192)
    (h0 : ∀ p d, x0 (ix2 p d) = q (ix2 (R p) d)) (h1 : ∀ p d, x1 (ix2 p d) = k (ix2 (R p) d))
    (a : Fin 8) (b : Fin 128) :
    k0_pay3 x0 x1 (ix2 a b) = ∑ e : Fin 128,
      (Cert.RefSide.normd q (R (⟨128 * a.val + b.val, by omega⟩ : Fin 1024)) e
          - Cert.RefSide.normd k (R (⟨128 * a.val + b.val, by omega⟩ : Fin 1024)) e)
        * (Cert.RefSide.normd q (R (⟨128 * a.val + b.val, by omega⟩ : Fin 1024)) e
          - Cert.RefSide.normd k (R (⟨128 * a.val + b.val, by omega⟩ : Fin 1024)) e) := by
  rw [pay3_apply]
  refine Finset.sum_congr rfl fun e _ => ?_
  rw [pay1_rows x0 q R h0, pay2_rows x1 k R h1]

/-- What point t writes back through window 4 is block t of the array of squared distances. -/
theorem flushed0_4_eq (c : Dev nD) (t : Fin cfg0.N) :
    (dat0 V c).flushed 4 t
      = ((cfg0.win 4).blk t).view.read (Elt Ideal) (distArr (V c main_arg0) (V c main_arg1)) := by
  show (cfg0.win 4).cut (grid0.coords t) ((dat0 V c).after 4 t) = _
  rw [after0_4]
  unfold out0_4
  rw [View.canon_unit_zero hz]
  simp only [View.ld_unit_zero (S := S1024x128) hz]
  funext j
  obtain ⟨a, b, rfl⟩ : ∃ (a : Fin 8) (b : Fin 128), j = ix2 a b := ⟨j 0, j 1, eq_ix2 j⟩
  obtain ⟨-, -, -, -, -, -, -, -, e0, e1⟩ := idx_facts t
  have hN : cfg0.N = 8 := N_0
  have htl : t.val < 8 := by have := t.isLt; omega
  show k0_pay3 (iblk0 V c 0 t) (iblk0 V c 1 t) (ix2 a b)
    = distArr (V c main_arg0) (V c main_arg1) (((cfg0.win 4).blk t).view.emb (ix2 a b))
  have he : ((cfg0.win 4).blk t).view.emb (ix2 a b) = ix2 (⟨8 * t.val + a.val, by omega⟩ : Fin 64) b := by
    funext x
    apply Fin.ext
    match x with
    | ⟨0, _⟩ => show win0_4.index t 0 * 8 + 1 * a.val = 8 * t.val + a.val; rw [e0]; omega
    | ⟨1, _⟩ => show win0_4.index t 1 * 128 + 1 * b.val = b.val; rw [e1]; omega
  refine Eq.trans ?_ (congrArg (distArr (V c main_arg0) (V c main_arg1)) he).symm
  refine (pay3_rows (iblk0 V c 0 t) (iblk0 V c 1 t) (V c main_arg0) (V c main_arg1) (rowOf t)
    (iblk0_0_apply V c t) (iblk0_1_apply V c t) a b).trans ?_
  have hr : rowOf t (⟨128 * a.val + b.val, by omega⟩ : Fin 1024) = slabRow (⟨8 * t.val + a.val, by omega⟩ : Fin 64) b := by
    apply Fin.ext
    show 1024 * t.val + (128 * a.val + b.val) = 1024 * ((8 * t.val + a.val) / 8) + 128 * ((8 * t.val + a.val) % 8) + b.val
    omega
  rw [hr]
  rfl

theorem covered0_4 (i : S64x128.Idx) :
    ∃ t : Fin cfg0.N, (cfg0.win 4).flush t = true ∧ i ∈ ((cfg0.win 4).blk t).view.set := by
  have hi0 : (i 0).val < 64 := (i 0).isLt
  have hi1 : (i 1).val < 128 := (i 1).isLt
  have hN : cfg0.N = 8 := N_0
  obtain ⟨t, ht⟩ : ∃ t : Fin cfg0.N, t.val = (i 0).val / 8 := ⟨⟨(i 0).val / 8, by omega⟩, rfl⟩
  obtain ⟨-, -, -, -, -, -, -, -, e0, e1⟩ := idx_facts t
  refine ⟨t, flush0_4 t, ?_⟩
  show i ∈ ((View.whole main_v0_2).slice (win0_4.rect t)).set
  rw [View.set_slice_whole, Rect.mem_set_unit]
  intro a
  match a with
  | ⟨0, _⟩ => show win0_4.index t 0 * 8 ≤ (i 0).val ∧ (i 0).val < win0_4.index t 0 * 8 + 8; rw [e0, ht]; omega
  | ⟨1, _⟩ => show win0_4.index t 1 * 128 ≤ (i 1).val ∧ (i 1).val < win0_4.index t 1 * 128 + 128; rw [e1]; omega

/-- After region 0 the third result array holds the squared distances of the normalised rows. -/
theorem final0_4 (c : Dev nD) : (dat0 V c).arrAt 4 cfg0.N = distArr (V c main_arg0) (V c main_arg1) :=
  (dat0 V c).arrAt_eq_of_cover 4 (distArr (V c main_arg0) (V c main_arg1)) (fun t _ => flushed0_4_eq V c t) covered0_4

theorem final0_4_apply (c : Dev nD) (g : Fin 64) (b : Fin 128) :
    ((dat0 V c).arrAt 4 cfg0.N : S64x128.Idx → EReal) (ix2 g b) = ∑ e : Fin 128,
      (Cert.RefSide.normd (V c main_arg0) (slabRow g b) e - Cert.RefSide.normd (V c main_arg1) (slabRow g b) e)
        * (Cert.RefSide.normd (V c main_arg0) (slabRow g b) e - Cert.RefSide.normd (V c main_arg1) (slabRow g b) e) :=
  congrFun (final0_4 V c) (ix2 g b)

end Arrays

end Cert.KernelIdeal.HandValue

end
-- ==== Proof.KernelIdeal.R1Blocks.lean ====
/- The geometry of region 1 at the ideal instance: where its blocks sit in its arrays.

   Region 1 visits a 2 x 8 x 8 grid in row-major order (point t = (b, i, j), t = 64 b + 8 i + j). Both input
   windows read ONE array, the 2 x 8192 x 128 stack of the two normalised arrays: window 0 the 1024-row block
   i of half b, window 1 the 1024-row block j of the same half. The output window is block 8 b + i (8 rows) of
   a 128 x 128 array; its buffer is carried across the eight values of j and written back after j = 7.

   Here: the index maps in closed form; each input block as rows of the stacked array; the stacked array as
   the two arrays region 0 left; and the output array assembled from what the buffer holds at the writing-back
   points, for an arbitrary family of 8 x 128 slabs. -/
import proofs.«158555_j34162169872914_2_alg».proof.Proof.KernelIdeal.R1
import proofs.«158555_j34162169872914_2_alg».proof.Proof.Gen.KernelIdeal.Launch
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx
open Idealize.ShloMosaic.TcCoe Idealize.SL.Sem
open Idealize.ShloMosaic.Pipeline (Dat)

/-! ## Region 1's index maps

The grid is 2 x 8 x 8, visited in row-major order: point t is (b, i, j) with t = 64 b + 8 i + j. -/

/-- The block indices at point t: window 0 is at (b, i, 0), window 1 at (b, j, 0), window 2 at (8 b + i, 0). -/
theorem idx_facts1 : ∀ t : Fin cfg1.N,
    win1_0.index t (0 : Fin 3) = t.val / 64 ∧ win1_0.index t (1 : Fin 3) = (t.val / 8) % 8 ∧ win1_0.index t (2 : Fin 3) = 0
    ∧ win1_1.index t (0 : Fin 3) = t.val / 64 ∧ win1_1.index t (1 : Fin 3) = t.val % 8 ∧ win1_1.index t (2 : Fin 3) = 0
    ∧ win1_2.index t (0 : Fin 2) = t.val / 8 ∧ win1_2.index t (1 : Fin 2) = 0 :=
  (by decide +kernel : ∀ t : Fin grid1.N, _)

section Blocks1
variable (V : (c : Dev nD) → (b : Ref sig .tc) → Buf (Elt Ideal) ((c : Thread nD τ).loc b))

/-- The half (b) of the stacked array that point t reads. -/
def halfOf1 (t : Fin cfg1.N) : Fin 2 :=
  ⟨t.val / 64, by have := t.isLt; have hN : cfg1.N = 128 := N_1; omega⟩
/-- Row rr of window 0's block at point t is row 1024 i + rr of that half. -/
def rowI1 (t : Fin cfg1.N) (rr : Fin 1024) : Fin 8192 :=
  ⟨1024 * ((t.val / 8) % 8) + rr.val, by omega⟩
/-- Row rr of window 1's block at point t is row 1024 j + rr of that half. -/
def rowJ1 (t : Fin cfg1.N) (rr : Fin 1024) : Fin 8192 :=
  ⟨1024 * (t.val % 8) + rr.val, by omega⟩

/-- Window 0's block at point t, at (0, rr, d), is the stacked array at (b, 1024 i + rr, d). -/
theorem iblk1_0_apply (c : Dev nD) (t : Fin cfg1.N) (rr : Fin 1024) (d : Fin 128) :
    (iblk1 V c 0 t : Vec Ideal S1x1024x128 .bf16) (ix3 (0 : Fin 1) rr d)
      = (V c main_v3 : S2x8192x128.Idx → EReal) (ix3 (halfOf1 t) (rowI1 t rr) d) := by
  obtain ⟨e0, e1, e2, -⟩ := idx_facts1 t
  unfold iblk1
  rw [View.read_apply]
  show V c main_v3 _ = V c main_v3 _
  congr 1
  funext a
  apply Fin.ext
  match a with
  | ⟨0, _⟩ => show win1_0.index t 0 * 1 + 1 * 0 = t.val / 64; rw [e0]; omega
  | ⟨1, _⟩ => show win1_0.index t 1 * 1024 + 1 * rr.val = 1024 * ((t.val / 8) % 8) + rr.val; rw [e1]; omega
  | ⟨2, _⟩ => show win1_0.index t 2 * 128 + 1 * d.val = d.val; rw [e2]; omega

/-- Window 1's block at point t, at (0, rr, d), is the stacked array at (b, 1024 j + rr, d). -/
theorem iblk1_1_apply (c : Dev nD) (t : Fin cfg1.N) (rr : Fin 1024) (d : Fin 128) :
    (iblk1 V c 1 t : Vec Ideal S1x1024x128 .bf16) (ix3 (0 : Fin 1) rr d)
      = (V c main_v3 : S2x8192x128.Idx → EReal) (ix3 (halfOf1 t) (rowJ1 t rr) d) := by
  obtain ⟨-, -, -, e0, e1, e2, -⟩ := idx_facts1 t
  unfold iblk1
  rw [View.read_apply]
  show V c main_v3 _ = V c main_v3 _
  congr 1
  funext a
  apply Fin.ext
  match a with
  | ⟨0, _⟩ => show win1_1.index t 0 * 1 + 1 * 0 = t.val / 64; rw [e0]; omega
  | ⟨1, _⟩ => show win1_1.index t 1 * 1024 + 1 * rr.val = 1024 * (t.val % 8) + rr.val; rw [e1]; omega
  | ⟨2, _⟩ => show win1_1.index t 2 * 128 + 1 * d.val = d.val; rw [e2]; omega

/-! ## The output array from its blocks

The 128 x 128 output array is written 8 rows at a time: the buffer for rows 8 q .. 8 q + 7 is carried across
the eight points 8 q .. 8 q + 7 and written back once, after the last of them. So if after each such last
point the buffer is slab q of some family of 8 x 128 slabs, the array ends as the slabs stacked. -/

/-- The slabs stacked into one 128 x 128 array. -/
def slabArr1 (Gs : ℕ → Fin 8 → Fin 128 → EReal) : S128x128.Idx → EReal := fun i =>
  Gs ((i 0).val / 8) ⟨(i 0).val % 8, Nat.mod_lt _ (by decide)⟩ ⟨(i 1).val, idx2_lt1 i⟩

theorem slabArr1_apply (Gs : ℕ → Fin 8 → Fin 128 → EReal) (g : Fin 128) (l : Fin 128) :
    slabArr1 Gs (ix2 g l) = Gs (g.val / 8) ⟨g.val % 8, Nat.mod_lt _ (by decide)⟩ l := rfl

theorem slab1_congr (Gs : ℕ → Fin 8 → Fin 128 → EReal) {n n' : ℕ} {a a' : Fin 8} (hn : n = n') (ha : a = a') (l : Fin 128) :
    Gs n a l = Gs n' a' l := by subst hn; subst ha; rfl

/-- What a writing-back point t (the last of its row of eight) writes back is block t of the stacked slabs. -/
theorem flushed1_2_eq (c : Dev nD) (Gs : ℕ → Fin 8 → Fin 128 → EReal)
    (hout : ∀ t : Fin cfg1.N, t.val % 8 = 7 → ∀ (a : Fin 8) (l : Fin 128),
      (outsAt1 V c t.val t.isLt : S8x128.Idx → EReal) (ix2 a l) = Gs (t.val / 8) a l)
    (t : Fin cfg1.N) (hf : (cfg1.win 2).flush t = true) :
    (dat1 V c).flushed 2 t = ((cfg1.win 2).blk t).view.read (Elt Ideal) (slabArr1 Gs) := by
  have h7 : t.val % 8 = 7 := (flush1_2 t).mp hf
  have hN : cfg1.N = 128 := N_1
  have htl : t.val < 128 := by have := t.isLt; omega
  obtain ⟨-, -, -, -, -, -, e0, e1⟩ := idx_facts1 t
  show (cfg1.win 2).cut (grid1.coords t) ((dat1 V c).after 2 t) = _
  rw [after1_2]
  funext j
  obtain ⟨a, l, rfl⟩ : ∃ (a : Fin 8) (l : Fin 128), j = ix2 a l := ⟨j 0, j 1, eq_ix2 j⟩
  show (outsAt1 V c t.val t.isLt : S8x128.Idx → EReal) (ix2 a l) = slabArr1 Gs (((cfg1.win 2).blk t).view.emb (ix2 a l))
  have he : ((cfg1.win 2).blk t).view.emb (ix2 a l) = ix2 (⟨8 * (t.val / 8) + a.val, by omega⟩ : Fin 128) l := by
    funext x
    apply Fin.ext
    match x with
    | ⟨0, _⟩ => show win1_2.index t 0 * 8 + 1 * a.val = 8 * (t.val / 8) + a.val; rw [e0]; omega
    | ⟨1, _⟩ => show win1_2.index t 1 * 128 + 1 * l.val = l.val; rw [e1]; omega
  refine Eq.trans ?_ (congrArg (slabArr1 Gs) he).symm
  refine (hout t h7 a l).trans ?_
  rw [slabArr1_apply]
  exact slab1_congr Gs (by show t.val / 8 = (8 * (t.val / 8) + a.val) / 8; omega)
    (Fin.ext (by show a.val = (8 * (t.val / 8) + a.val) % 8; omega)) l

/-- Row g of the output array lies in the block written back after the last point of its row of eight. -/
theorem covered1_2 (i : S128x128.Idx) :
    ∃ t : Fin cfg1.N, (cfg1.win 2).flush t = true ∧ i ∈ ((cfg1.win 2).blk t).view.set := by
  have hi0 : (i 0).val < 128 := (i 0).isLt
  have hi1 : (i 1).val < 128 := (i 1).isLt
  have hN : cfg1.N = 128 := N_1
  obtain ⟨t, ht⟩ : ∃ t : Fin cfg1.N, t.val = 8 * ((i 0).val / 8) + 7 := ⟨⟨8 * ((i 0).val / 8) + 7, by omega⟩, rfl⟩
  obtain ⟨-, -, -, -, -, -, e0, e1⟩ := idx_facts1 t
  refine ⟨t, (flush1_2 t).mpr (by omega), ?_⟩
  show i ∈ ((View.whole main_v4).slice (win1_2.rect t)).set
  rw [View.set_slice_whole, Rect.mem_set_unit]
  intro a
  match a with
  | ⟨0, _⟩ => show win1_2.index t 0 * 8 ≤ (i 0).val ∧ (i 0).val < win1_2.index t 0 * 8 + 8; rw [e0, ht]; omega
  | ⟨1, _⟩ => show win1_2.index t 1 * 128 ≤ (i 1).val ∧ (i 1).val < win1_2.index t 1 * 128 + 128; rw [e1]; omega

/-- After region 1 the output array is the slabs stacked. -/
theorem final1_2_arr (c : Dev nD) (Gs : ℕ → Fin 8 → Fin 128 → EReal)
    (hout : ∀ t : Fin cfg1.N, t.val % 8 = 7 → ∀ (a : Fin 8) (l : Fin 128),
      (outsAt1 V c t.val t.isLt : S8x128.Idx → EReal) (ix2 a l) = Gs (t.val / 8) a l) :
    (dat1 V c).arrAt 2 cfg1.N = slabArr1 Gs :=
  (dat1 V c).arrAt_eq_of_cover 2 (slabArr1 Gs) (flushed1_2_eq V c Gs hout) covered1_2

theorem final1_2 (c : Dev nD) (Gs : ℕ → Fin 8 → Fin 128 → EReal)
    (hout : ∀ t : Fin cfg1.N, t.val % 8 = 7 → ∀ (a : Fin 8) (l : Fin 128),
      (outsAt1 V c t.val t.isLt : S8x128.Idx → EReal) (ix2 a l) = Gs (t.val / 8) a l) :
    ∀ (g : Fin 128) (l : Fin 128), ((dat1 V c).arrAt 2 cfg1.N : S128x128.Idx → EReal) (ix2 g l)
      = Gs (g.val / 8) ⟨g.val % 8, Nat.mod_lt _ (by decide)⟩ l :=
  fun g l => congrFun (final1_2_arr V c Gs hout) (ix2 g l)

end Blocks1

/-! ## The stacked array

Between the two regions the host stacks the two normalised arrays into one 2 x 8192 x 128 array: each gets a
leading axis of extent 1 and the two are joined along it. So half 0 of the stacked array is the first
normalised array and half 1 is the second. -/

/-- An 8192 x 128 array given a leading unit axis, read at (0, r, d), is the array at (r, d). -/
theorem unitAxis1_apply (x : S8192x128.Idx → EReal) (r : Fin 8192) (d : Fin 128) :
    broadcastInDim S1x8192x128 ![1, 2] bcast_S8192x128_S1x8192x128_1_2 x (ix3 (0 : Fin 1) r d) = x (ix2 r d) := by
  refine broadcastInDim_apply ![1, 2] bcast_S8192x128_S1x8192x128_1_2 x (ix3 (0 : Fin 1) r d) (ix2 r d) ?_
  intro a; fin_cases a <;> rfl

/-- The array the host leaves in the stacked buffer, at (b, r, d): the first result array of region 0 at (r, d)
    when b = 0, the second when b = 1. -/
theorem stacked_apply (W : Valuation τ sig (Elt Ideal)) (b : Fin 2) (r : Fin 8192) (d : Fin 128) :
    (StableHlo.after (hostOps1 (F := Ideal)) W (Proc.devRef .tc main_v3) : S2x8192x128.Idx → EReal) (ix3 b r d)
      = if b.val = 0 then (W (Proc.devRef .tc main_v0_0) : S8192x128.Idx → EReal) (ix2 r d)
        else (W (Proc.devRef .tc main_v0_1) : S8192x128.Idx → EReal) (ix2 r d) := by
  have e : (StableHlo.after (hostOps1 (F := Ideal)) W (Proc.devRef .tc main_v3) : S2x8192x128.Idx → EReal)
      = concatenate S2x8192x128 0
          [⟨S1x8192x128, broadcastInDim S1x8192x128 ![1, 2] bcast_S8192x128_S1x8192x128_1_2 (W (Proc.devRef .tc main_v0_0) : S8192x128.Idx → EReal)⟩,
           ⟨S1x8192x128, broadcastInDim S1x8192x128 ![1, 2] bcast_S8192x128_S1x8192x128_1_2 (W (Proc.devRef .tc main_v0_1) : S8192x128.Idx → EReal)⟩]
          concatenates_S1x8192x128_S1x8192x128_S2x8192x128_d0 := by
    after_results
  refine (congrFun e (ix3 b r d)).trans ?_
  by_cases hb : b.val = 0
  · rw [if_pos hb]
    refine (concatenate_pair_apply_left (t := S2x8192x128) (s₁ := S1x8192x128) (s₂ := S1x8192x128) (0 : Fin 3) _ _
      concatenates_S1x8192x128_S1x8192x128_S2x8192x128_d0 (ix3 b r d) (by rfl) (ix3 (0 : Fin 1) r d) ?_).trans (unitAxis1_apply _ r d)
    intro x
    match x with
    | ⟨0, _⟩ => show 0 = b.val; omega
    | ⟨1, _⟩ => rfl
    | ⟨2, _⟩ => rfl
  · rw [if_neg hb]
    have hb1 : b.val = 1 := by have := b.isLt; omega
    refine (concatenate_pair_apply_right (t := S2x8192x128) (s₁ := S1x8192x128) (s₂ := S1x8192x128) (0 : Fin 3) _ _
      concatenates_S1x8192x128_S1x8192x128_S2x8192x128_d0 (ix3 b r d) (by rfl) (by rfl) (ix3 (0 : Fin 1) r d) ?_ ?_).trans (unitAxis1_apply _ r d)
    · intro x hx
      match x with
      | ⟨0, _⟩ => exact absurd rfl hx
      | ⟨1, _⟩ => rfl
      | ⟨2, _⟩ => rfl
    · show 0 + 1 = b.val
      omega

end Cert.KernelIdeal.HandValue

end
-- ==== Proof.KernelIdeal.R1Payload.lean ====
/-
  Region 1's two payloads read at an index, at the ideal instance.

  The region visits the Gram matrix of the normalised rows tile by tile: at grid point `i` it multiplies the
  1024 × 128 block of rows `1024 · i₁ …` with the block of rows `1024 · i₂ …` (contracting the 128 coordinates of
  both, so entry `(rr, cc)` of the tile is the inner product of row `rr` of the first block and row `cc` of the
  second), maps each entry `s` to `exp (4 · min s 1 - 4)`, replaces the entries on the GLOBAL diagonal
  (`1024 · i₁ + rr = 1024 · i₂ + cc`) by zero, sums each column of the tile over its rows, lays the 1024 column sums
  out row-major as an 8 × 128 slab (column `cc = 128 a + l` at `(a, l)`), and adds the slab to the block's previous
  contents. The first payload is the zero block the accumulation starts from. The row and column numbers are below
  8192, so the 32-bit word arithmetic of the mask never wraps and the comparison is the comparison of naturals.
-/
import proofs.«158555_j34162169872914_2_alg».proof.Proof.Gen.KernelIdeal.Skeleton
import proofs.«158555_j34162169872914_2_alg».proof.Proof.RefSpec
import Idealize.ShloMosaic.Lib.ValueIdx
import Idealize.ShloMosaic.Lib.Pipeline.Value
import Idealize.ShloMosaic.PureOps.Ideal.Laws

noncomputable section

open scoped BigOperators

namespace Cert.KernelIdeal.HandValue

open Idealize.ShloMosaic Idealize.ShloMosaic.ValueIdx Cert.KernelIdeal Cert.KernelIdeal.Gen Cert.RefSide

/-! ## The zero block -/

/-- Region 1's first payload is the zero block. -/
theorem k1_pay1_apply (y : S8x128.Idx) : k1_pay1 (F := Ideal) y = 0 := by
  show Ideal.ofBits .f32 0x00000000#32 = 0
  exact Ideal.ofBits_zero_f32

/-! ## The pieces of the accumulating payload, each read at an index -/

/-- The pairing the tile product contracts: axis 1 of both operands, rows of the left against rows of the right. -/
abbrev D := dot_S1024x128_S1024x128_S1024x1024_1_1_0_0_n_n

theorem lhs0 (j : S1024x1024.Idx) (q : D.contr.Idx) : (D.lhsIdx j q 0).val = (j 0).val := by
  unfold DotDims.lhsIdx
  rw [dif_neg (show ¬(0 : Fin S1024x128.rank) ∈ D.lhsBatch by decide),
    dif_pos (show (0 : Fin S1024x128.rank) ∈ D.lhsNonContracting by decide)]
  rfl
theorem rhs0 (j : S1024x1024.Idx) (q : D.contr.Idx) : (D.rhsIdx j q 0).val = (j 1).val := by
  unfold DotDims.rhsIdx
  rw [dif_neg (show ¬(0 : Fin S1024x128.rank) ∈ D.rhsBatch by decide),
    dif_pos (show (0 : Fin S1024x128.rank) ∈ D.rhsNonContracting by decide)]
  rfl

/-- The tile product into a zero accumulator at `(rr, cc)`: row `rr` of the left operand against row `cc` of the right. -/
theorem mm_apply (x y : FVec Ideal S1024x128 .bf16) (rr cc : Fin 1024) :
    matmul D none x y (constant S1024x1024 .f32 0x00000000#32) (ix2 rr cc) = ∑ d : Fin 128, x (ix2 rr d) * y (ix2 cc d) := by
  unfold matmul
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 rr cc) ((contrEquiv1 D 128 rfl rfl).symm k) = ix2 rr k := funext fun a => Fin.ext (by
    match a with
    | ⟨0, _⟩ => exact lhs0 _ _
    | ⟨1, _⟩ => exact (D.lhsIdx_val_of_single rfl _ _).trans hk)
  have er : D.rhsIdx (ix2 rr cc) ((contrEquiv1 D 128 rfl rfl).symm k) = ix2 cc k := funext fun a => Fin.ext (by
    match a with
    | ⟨0, _⟩ => exact rhs0 _ _
    | ⟨1, _⟩ => exact (D.rhsIdx_val_of_single rfl _ _).trans hk)
  rw [el, er]

/-- Dropping the leading unit axis: `(r, d)` of the cast is `(0, r, d)` of the block. -/
theorem cast3_apply {α : Type} (v : S1x1024x128.Idx → α) (h : S1x1024x128.ShapeCasts S1024x128) (r : Fin 1024) (d : Fin 128) :
    shapeCast S1024x128 v h (ix2 r d) = v (ix3 (0 : Fin 1) r d) :=
  shapeCast_apply v h (ix2 r d) (ix3 (0 : Fin 1) r d) (by
    rw [Shape.rowMajor_val_three, Shape.rowMajor_val_two]
    show (0 * 1024 + r.val) * 128 + d.val = r.val * 128 + d.val
    omega)

/-- The row-major cast of 1024 column sums to an 8 × 128 slab: `(a, l)` is column `128 a + l`. -/
theorem cast1_apply {α : Type} (w : S1024.Idx → α) (h : S1024.ShapeCasts S8x128) (a : Fin 8) (l : Fin 128) :
    shapeCast S8x128 w h (ix2 a l) = w (ix1 (⟨128 * a.val + l.val, by omega⟩ : Fin 1024)) :=
  shapeCast_apply w h (ix2 a l) (ix1 (⟨128 * a.val + l.val, by omega⟩ : Fin 1024)) (by
    rw [Shape.rowMajor_val_one, Shape.rowMajor_val_two]
    show 128 * a.val + l.val = a.val * 128 + l.val
    omega)

/-- The sum over the tile's rows, at column `cc`. -/
theorem colsum_apply (v : FVec Ideal S1024x1024 .f32) (h : S1024x1024.Reduces [0] S1024) (hφ : FKind.Formats .f32)
    (hacc : (0x00000000#32 : BitVec 32) = FKind.add.neutral .f32 hφ) (cc : Fin 1024) :
    multiReduction .add [0] S1024 v 0x00000000#32 h hφ hacc (ix1 cc) = ∑ rr : Fin 1024, v (ix2 rr cc) := by
  refine (Ideal.multiReduction_add_single v 0x00000000#32 h hφ hacc (ix1 cc)).trans ?_
  refine Finset.sum_congr rfl fun k _ => congrArg v ?_
  funext c; apply Fin.ext
  fin_cases c <;> rfl

/-- The global row number `1024 · i₁ + rr` and the global column number `1024 · i₂ + cc` are below 8192, so as
    32-bit words they are equal exactly when they are equal as naturals. -/
theorem mask_iff (i1 i2 : Fin 8) (rr cc : Fin 1024) :
    IntOp.cmpi .eq (IntOp.addi (BitVec.ofNat 32 rr.val) (Scalar.muli (BitVec.ofNat 32 i1.val) 1024#32))
        (IntOp.addi (BitVec.ofNat 32 cc.val) (Scalar.muli (BitVec.ofNat 32 i2.val) 1024#32)) = 1#1
      ↔ 1024 * i1.val + rr.val = 1024 * i2.val + cc.val := by
  have h1 := i1.isLt; have h2 := i2.isLt; have h3 := rr.isLt; have h4 := cc.isLt
  rw [IntOp.cmpi_eq, ← BitVec.toNat_inj]
  unfold IntOp.addi Scalar.muli IntOp.muli
  simp only [BitVec.toNat_add, BitVec.toNat_mul, BitVec.toNat_ofNat]
  omega

/-- The diagonal mask's bit at `(rr, cc)` of the tile at grid point `i`. -/
theorem maskbit_apply (i : grid1.Coords) (h0 : S1024x1024.Iotas .tc 32 [0]) (h1 : S1024x1024.Iotas .tc 32 [1]) (rr cc : Fin 1024) :
    cmpi .eq (addi (iota .tc S1024x1024 32 [0] h0) (broadcast S1024x1024 (Scalar.muli (BitVec.ofNat 32 (i 1).val) 1024#32)))
      (addi (iota .tc S1024x1024 32 [1] h1) (broadcast S1024x1024 (Scalar.muli (BitVec.ofNat 32 (i 2).val) 1024#32))) (ix2 rr cc)
    = if 1024 * (i 1).val + rr.val = 1024 * (i 2).val + cc.val then 1#1 else 0#1 := by
  have hi1 : (i 1).val < 8 := (i 1).isLt
  have hi2 : (i 2).val < 8 := (i 2).isLt
  show IntOp.cmpi .eq (IntOp.addi (iota .tc S1024x1024 32 [0] h0 (ix2 rr cc)) _)
    (IntOp.addi (iota .tc S1024x1024 32 [1] h1 (ix2 rr cc)) _) = _
  rw [iota_single_apply, iota_single_apply]
  have hm := mask_iff ⟨(i 1).val, hi1⟩ ⟨(i 2).val, hi2⟩ rr cc
  by_cases h : 1024 * (i 1).val + rr.val = 1024 * (i 2).val + cc.val
  · rw [if_pos h]; exact hm.mpr h
  · rw [if_neg h]; exact eq_zero_of_ne_one (fun e => h (hm.mp e))

/-- The masked summand of the tile at `(rr, cc)`: zero on the global diagonal, else `exp (4 · min s 1 - 4)` of the
    product entry `s`. -/
theorem entry_apply (i : grid1.Coords) (x y : FVec Ideal S1024x128 .bf16) (h0 : S1024x1024.Iotas .tc 32 [0])
    (h1 : S1024x1024.Iotas .tc 32 [1]) (rr cc : Fin 1024) :
    select (cmpi .eq (addi (iota .tc S1024x1024 32 [0] h0) (broadcast S1024x1024 (Scalar.muli (BitVec.ofNat 32 (i 1).val) 1024#32)))
        (addi (iota .tc S1024x1024 32 [1] h1) (broadcast S1024x1024 (Scalar.muli (BitVec.ofNat 32 (i 2).val) 1024#32))))
      (broadcast S1024x1024 (FloatOps.ofBits (F := Ideal) .f32 0x00000000#32))
      (exp (subf (mulf (broadcast S1024x1024 (FloatOps.ofBits (F := Ideal) .f32 0x40800000#32))
          (minimumf (matmul D none x y (constant S1024x1024 .f32 0x00000000#32))
            (broadcast S1024x1024 (FloatOps.ofBits (F := Ideal) .f32 0x3F800000#32))))
        (broadcast S1024x1024 (FloatOps.ofBits (F := Ideal) .f32 0x40800000#32))))
      (ix2 rr cc)
    = if 1024 * (i 1).val + rr.val = 1024 * (i 2).val + cc.val then 0
      else kerEntry (∑ d : Fin 128, x (ix2 rr d) * y (ix2 cc d)) := by
  show Scalar.select (cmpi .eq _ _ (ix2 rr cc)) (Ideal.ofBits .f32 0x00000000#32)
    (Ideal.exp (Ideal.ofBits .f32 0x40800000#32 *
      min (matmul D none x y (constant S1024x1024 .f32 0x00000000#32) (ix2 rr cc)) (Ideal.ofBits .f32 0x3F800000#32)
        - Ideal.ofBits .f32 0x40800000#32)) = _
  rw [maskbit_apply, mm_apply]
  by_cases h : 1024 * (i 1).val + rr.val = 1024 * (i 2).val + cc.val
  · rw [if_pos h, if_pos h, select_one, Ideal.ofBits_zero_f32]
  · rw [if_neg h, if_neg h, select_zero]
    rfl

/-! ## The accumulating payload at an index -/

/-- Region 1's second payload at `(a, l)`: the previous contents plus, for column `cc = 128 a + l` of the tile, the sum
    over the tile's rows `rr` of the masked summands — the mask on the GLOBAL row `1024 · i₁ + rr` and column
    `1024 · i₂ + cc`, the product entry that of row `rr` of the first block with row `cc` of the second. -/
theorem k1_pay2_apply (i : grid1.Coords) (v3 v5 : Vec Ideal S1x1024x128 .bf16) (v28 : Vec Ideal S8x128 .f32) (a : Fin 8) (l : Fin 128) :
    k1_pay2 i v3 v5 v28 (ix2 a l)
      = v28 (ix2 a l) + ∑ rr : Fin 1024,
          (if 1024 * (i 1).val + rr.val = 1024 * (i 2).val + (128 * a.val + l.val) then 0
           else kerEntry (∑ d : Fin 128, v3 (ix3 (0 : Fin 1) rr d)
                  * v5 (ix3 (0 : Fin 1) (⟨128 * a.val + l.val, by omega⟩ : Fin 1024) d))) := by
  unfold k1_pay2
  dsimp only
  refine (addf_apply _ _ _).trans ?_
  refine congrArg₂ (· + ·) (congrFun (shapeCast_self v28 _) (ix2 a l)) ?_
  refine (cast1_apply _ _ a l).trans ?_
  refine (colsum_apply _ _ _ _ _).trans ?_
  refine Finset.sum_congr rfl fun rr _ => ?_
  refine (entry_apply i _ _ _ _ rr _).trans ?_
  refine if_congr Iff.rfl rfl (congrArg kerEntry (Finset.sum_congr rfl fun d _ => ?_))
  exact congrArg₂ (· * ·) (cast3_apply v3 _ rr d) (cast3_apply v5 _ _ d)

end Cert.KernelIdeal.HandValue

end
-- ==== Proof.LibPairwise.lean ====
/-
  The algebra behind a pairwise (all rows against all rows) exponential sum, free of any program.

  For a real matrix of scores `s r c` that is symmetric, the sum of `exp (4 * min (s r c) 1 - 4)` over the
  off-diagonal pairs `r ≠ c` is twice the sum of `exp (-2 * max (2 - 2 * s r c) 0)` over the strictly upper
  pairs `r < c`: the two exponents are the same real number, and the lower triangle mirrors the upper one.
  Dividing the first by `2 * N` and the second by `N` gives the same quotient. Also here: sums over
  `Fin (a * b)` cut into `a` blocks of `b` consecutive indices (in any commutative additive monoid), and the
  passage from real numbers to extended reals: on real arguments the extended-real operations of the ideal
  reading of floats are the real ones.
-/
import Mathlib
import Idealize.ShloMosaic.PureOps.Ideal

namespace Cert.LibPairwise

open Idealize.ShloMosaic

/-! ### The exponent -/

/-- The two ways of writing the exponent agree: `-2 * max (2 - 2 s) 0 = 4 * min s 1 - 4` for real `s`
    (both are `4 s - 4` for `s ≤ 1` and `0` for `1 ≤ s`). -/
theorem exp_arg (s : ℝ) : -2 * max (2 - 2 * s) 0 = 4 * min s 1 - 4 := by
  rcases le_total s 1 with h | h
  · rw [max_eq_left (by linarith), min_eq_left h]; ring
  · rw [max_eq_right (by linarith), min_eq_right h]; ring

/-! ### Off-diagonal sums of a symmetric array -/

/-- In a commutative additive monoid, the off-diagonal sum of a symmetric square array is the strictly
    upper sum taken twice. -/
theorem offdiag_eq_upper_add_upper {M : Type*} [AddCommMonoid M] {n : ℕ} (e : Fin n → Fin n → M)
    (hsym : ∀ r c, e r c = e c r) :
    (∑ r, ∑ c, if r = c then 0 else e r c)
      = (∑ r, ∑ c, if r < c then e r c else 0) + ∑ r, ∑ c, if r < c then e r c else 0 := by
  have hsplit : ∀ r c : Fin n, (if r = c then 0 else e r c)
      = (if r < c then e r c else 0) + (if c < r then e r c else 0) := by
    intro r c
    rcases lt_trichotomy r c with h | h | h
    · rw [if_neg h.ne, if_pos h, if_neg (not_lt_of_gt h), add_zero]
    · subst h; rw [if_pos rfl, if_neg (lt_irrefl _), add_zero]
    · rw [if_neg h.ne', if_neg (not_lt_of_gt h), if_pos h, zero_add]
  simp only [hsplit, Finset.sum_add_distrib]
  congr 1
  exact Finset.sum_comm.trans
    (Finset.sum_congr rfl fun c _ => Finset.sum_congr rfl fun r _ => by rw [hsym r c])

/-- The off-diagonal sum of a symmetric real square array is twice its strictly upper sum. -/
theorem offdiag_eq_two_upper {n : ℕ} (e : Fin n → Fin n → ℝ) (hsym : ∀ r c, e r c = e c r) :
    (∑ r, ∑ c, if r = c then 0 else e r c) = 2 * ∑ r, ∑ c, if r < c then e r c else 0 := by
  rw [offdiag_eq_upper_add_upper e hsym, two_mul]

/-! ### The pairwise law over the reals -/

/-- The pairwise law over ℝ. With `s r c = ∑ j, x r j * x c j` (symmetric by commutativity of the
    product), the off-diagonal sum of `exp (4 * min s 1 - 4)` divided by `67100672 = 2 * 33550336` is the
    strictly upper sum of `exp (-2 * max (2 - 2 s) 0)` divided by `33550336`. -/
theorem pair_law {n d : ℕ} (x : Fin n → Fin d → ℝ) :
    let s := fun r c => ∑ j, x r j * x c j
    (∑ r, ∑ c, if r = c then 0 else Real.exp (4 * min (s r c) 1 - 4)) / 67100672
      = (∑ r, ∑ c, if r < c then Real.exp (-2 * max (2 - 2 * s r c) 0) else 0) / 33550336 := by
  intro s
  have hs : ∀ r c, s r c = s c r := fun r c => Finset.sum_congr rfl fun j _ => mul_comm _ _
  rw [offdiag_eq_two_upper (fun r c => Real.exp (4 * min (s r c) 1 - 4)) (fun r c => by rw [hs r c])]
  simp only [exp_arg]
  ring

/-- The same law for any symmetric real score array `s` (not necessarily a Gram matrix). -/
theorem pair_law_of_symm {n : ℕ} (s : Fin n → Fin n → ℝ) (hs : ∀ r c, s r c = s c r) :
    (∑ r, ∑ c, if r = c then 0 else Real.exp (4 * min (s r c) 1 - 4)) / 67100672
      = (∑ r, ∑ c, if r < c then Real.exp (-2 * max (2 - 2 * s r c) 0) else 0) / 33550336 := by
  rw [offdiag_eq_two_upper (fun r c => Real.exp (4 * min (s r c) 1 - 4)) (fun r c => by rw [hs r c])]
  simp only [exp_arg]
  ring

/-! ### Sums over `Fin (a * b)` cut into blocks -/

/-- A sum over `Fin (a * b)` is the sum over `a` blocks of `b` consecutive indices: the index
    `b * i + r` runs through `0 … a * b - 1` exactly once as `i < a`, `r < b`. -/
theorem sum_blocks {M : Type*} [AddCommMonoid M] (a b : ℕ) (g : ℕ → M) :
    (∑ i : Fin a, ∑ r : Fin b, g (b * i.val + r.val)) = ∑ x : Fin (a * b), g x.val := by
  rw [← Fintype.sum_prod_type' (f := fun (i : Fin a) (r : Fin b) => g (b * i.val + r.val))]
  exact Fintype.sum_equiv finProdFinEquiv _ _ fun p => by
    rw [finProdFinEquiv_apply_val, add_comm]

/-- The strided variant: the index `i + a * r` (`i < a` the residue, `r < b` the block) also runs
    through `0 … a * b - 1` exactly once. -/
theorem sum_blocks_strided {M : Type*} [AddCommMonoid M] (a b : ℕ) (g : ℕ → M) :
    (∑ i : Fin a, ∑ r : Fin b, g (i.val + a * r.val)) = ∑ x : Fin (a * b), g x.val := by
  rw [Finset.sum_comm]
  calc (∑ r : Fin b, ∑ i : Fin a, g (i.val + a * r.val))
      = ∑ r : Fin b, ∑ i : Fin a, g (a * r.val + i.val) :=
        Finset.sum_congr rfl fun r _ => Finset.sum_congr rfl fun i _ => by rw [add_comm]
    _ = ∑ x : Fin (b * a), g x.val := sum_blocks b a g
    _ = ∑ x : Fin (a * b), g x.val :=
        Fintype.sum_equiv (finCongr (Nat.mul_comm b a)) _ _ fun _ => rfl

/-- Two-dimensional block cutting, rows then columns: a double sum over `Fin (a * b) × Fin (a' * b')` is
    the sum over row blocks, rows in the block, column blocks, columns in the block. -/
theorem sum_blocks₂ {M : Type*} [AddCommMonoid M] (a b a' b' : ℕ) (g : ℕ → ℕ → M) :
    (∑ i : Fin a, ∑ r : Fin b, ∑ j : Fin a', ∑ c : Fin b', g (b * i.val + r.val) (b' * j.val + c.val))
      = ∑ x : Fin (a * b), ∑ y : Fin (a' * b'), g x.val y.val := by
  have h : ∀ (i : Fin a) (r : Fin b),
      (∑ j : Fin a', ∑ c : Fin b', g (b * i.val + r.val) (b' * j.val + c.val))
        = ∑ y : Fin (a' * b'), g (b * i.val + r.val) y.val :=
    fun i r => sum_blocks a' b' (fun y => g (b * i.val + r.val) y)
  simp only [h]
  exact sum_blocks a b (fun x => ∑ y : Fin (a' * b'), g x y.val)

/-- Two-dimensional block cutting, tile by tile: the sum over pairs (row block, column block) of the sums
    inside each tile is the double sum over `Fin (a * b) × Fin (a' * b')`. -/
theorem sum_tiles {M : Type*} [AddCommMonoid M] (a b a' b' : ℕ) (g : ℕ → ℕ → M) :
    (∑ i : Fin a, ∑ j : Fin a', ∑ r : Fin b, ∑ c : Fin b', g (b * i.val + r.val) (b' * j.val + c.val))
      = ∑ x : Fin (a * b), ∑ y : Fin (a' * b'), g x.val y.val := by
  rw [← sum_blocks₂ a b a' b' g]
  exact Finset.sum_congr rfl fun i _ => Finset.sum_comm

/-! ### From the reals to the extended reals

On real arguments each extended-real operation of the ideal reading is the real operation: the
coercion `ℝ → EReal` commutes with `+`, `-`, `*`, negation (Mathlib: `EReal.coe_add`, `EReal.coe_sub`,
`EReal.coe_mul`, `EReal.coe_neg`), with `max`, `min` and finite sums (below), and the exponential, the
square root of a nonnegative real, the logarithm of a positive real and the quotient by a nonzero real
are the real ones (below). -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals, each of which is a (named) real, is the coercion of the real sum. -/
theorem sum_eq_coe {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- The coercion commutes with the maximum. -/
theorem coe_max (x y : ℝ) : ((max x y : ℝ) : EReal) = max (x : EReal) (y : EReal) :=
  EReal.coe_strictMono.monotone.map_max

/-- The coercion commutes with the minimum. -/
theorem coe_min (x y : ℝ) : ((min x y : ℝ) : EReal) = min (x : EReal) (y : EReal) :=
  EReal.coe_strictMono.monotone.map_min

/-- The extended-real exponential of a real is the real exponential. -/
theorem ideal_exp_coe (x : ℝ) : Ideal.exp (x : EReal) = ((Real.exp x : ℝ) : EReal) := rfl

/-- The extended-real square root of a nonnegative real is the real square root. -/
theorem ideal_sqrt_coe {x : ℝ} (hx : 0 ≤ x) : Ideal.sqrt (x : EReal) = ((Real.sqrt x : ℝ) : EReal) := by
  rw [Ideal.sqrt_coe, if_neg (not_lt.mpr hx)]

/-- The extended-real logarithm of a positive real is the real logarithm. -/
theorem ideal_log_coe {x : ℝ} (hx : 0 < x) : Ideal.log (x : EReal) = ((Real.log x : ℝ) : EReal) := by
  rw [Ideal.log_coe, if_neg (not_le.mpr hx)]

/-- The extended-real quotient of a real by a nonzero real is the real quotient. -/
theorem ideal_div_coe (x : ℝ) {y : ℝ} (hy : y ≠ 0) :
    Ideal.div (x : EReal) (y : EReal) = ((x / y : ℝ) : EReal) := by
  rw [Ideal.div_coe hy, ← EReal.coe_mul, mul_one_div]

/-- A Gram entry of real rows, computed in the extended reals, is the real Gram entry. -/
theorem gram_coe {n d : ℕ} (x : Fin n → Fin d → ℝ) (r c : Fin n) :
    (∑ j, (x r j : EReal) * (x c j : EReal)) = ((∑ j, x r j * x c j : ℝ) : EReal) :=
  sum_eq_coe _ _ _ fun j _ => (EReal.coe_mul _ _).symm

/-- The first form of the summand on a real score `t`: all operations the extended-real ones. -/
theorem entry_min_coe (t : ℝ) :
    Ideal.exp (((4 : ℝ) : EReal) * min (t : EReal) ((1 : ℝ) : EReal) - ((4 : ℝ) : EReal))
      = ((Real.exp (4 * min t 1 - 4) : ℝ) : EReal) := by
  rw [← coe_min, ← EReal.coe_mul, ← EReal.coe_sub, ideal_exp_coe]

/-- The second form of the summand on a real score `t`: all operations the extended-real ones. -/
theorem entry_max_coe (t : ℝ) :
    Ideal.exp (((-2 : ℝ) : EReal) * max (((2 : ℝ) : EReal) - ((2 : ℝ) : EReal) * (t : EReal)) ((0 : ℝ) : EReal))
      = ((Real.exp (-2 * max (2 - 2 * t) 0) : ℝ) : EReal) := by
  rw [← EReal.coe_mul, ← EReal.coe_sub, ← coe_max, ← EReal.coe_mul, ideal_exp_coe]

/-- The pairwise law over the extended reals, entries given pointwise. For a symmetric real score array
    `s`, if off the diagonal `K r c` is the real `exp (4 * min (s r c) 1 - 4)` and above the diagonal
    `U r c` is the real `exp (-2 * max (2 - 2 * s r c) 0)`, then the off-diagonal sum of `K` over
    `67100672` is the strictly upper sum of `U` over `33550336`, sums and quotients the extended-real ones. -/
theorem pair_law_ereal_of_entries {n : ℕ} (s : Fin n → Fin n → ℝ) (hs : ∀ r c, s r c = s c r)
    (K U : Fin n → Fin n → EReal)
    (hK : ∀ r c, r ≠ c → K r c = ((Real.exp (4 * min (s r c) 1 - 4) : ℝ) : EReal))
    (hU : ∀ r c, r < c → U r c = ((Real.exp (-2 * max (2 - 2 * s r c) 0) : ℝ) : EReal)) :
    Ideal.div (∑ r, ∑ c, if r = c then 0 else K r c) ((67100672 : ℝ) : EReal)
      = Ideal.div (∑ r, ∑ c, if r < c then U r c else 0) ((33550336 : ℝ) : EReal) := by
  have h1 : (∑ r, ∑ c, if r = c then 0 else K r c)
      = ((∑ r, ∑ c, if r = c then 0 else Real.exp (4 * min (s r c) 1 - 4) : ℝ) : EReal) :=
    sum_eq_coe _ _ _ fun r _ => sum_eq_coe _ _ _ fun c _ => by
      by_cases h : r = c
      · rw [if_pos h, if_pos h, EReal.coe_zero]
      · rw [if_neg h, if_neg h, hK r c h]
  have h2 : (∑ r, ∑ c, if r < c then U r c else 0)
      = ((∑ r, ∑ c, if r < c then Real.exp (-2 * max (2 - 2 * s r c) 0) else 0 : ℝ) : EReal) :=
    sum_eq_coe _ _ _ fun r _ => sum_eq_coe _ _ _ fun c _ => by
      by_cases h : r < c
      · rw [if_pos h, if_pos h, hU r c h]
      · rw [if_neg h, if_neg h, EReal.coe_zero]
  rw [h1, h2, ideal_div_coe _ (by norm_num), ideal_div_coe _ (by norm_num), EReal.coe_eq_coe_iff]
  exact pair_law_of_symm s hs

/-- The pairwise law over the extended reals for real rows `x`: every operation the extended-real one on
    coerced entries. With `S r c = ∑ j, ↑(x r j) * ↑(x c j)`, the off-diagonal sum of
    `exp (4 * min (S r c) 1 - 4)` over `67100672` is the strictly upper sum of
    `exp (-2 * max (2 - 2 * S r c) 0)` over `33550336`. -/
theorem pair_law_ereal {n d : ℕ} (x : Fin n → Fin d → ℝ) :
    let S : Fin n → Fin n → EReal := fun r c => ∑ j, (x r j : EReal) * (x c j : EReal)
    Ideal.div (∑ r, ∑ c, if r = c then 0 else
        Ideal.exp (((4 : ℝ) : EReal) * min (S r c) ((1 : ℝ) : EReal) - ((4 : ℝ) : EReal))) ((67100672 : ℝ) : EReal)
      = Ideal.div (∑ r, ∑ c, if r < c then
        Ideal.exp (((-2 : ℝ) : EReal) * max (((2 : ℝ) : EReal) - ((2 : ℝ) : EReal) * S r c) ((0 : ℝ) : EReal)) else 0)
          ((33550336 : ℝ) : EReal) := by
  intro S
  refine pair_law_ereal_of_entries (fun r c => ∑ j, x r j * x c j)
    (fun r c => Finset.sum_congr rfl fun j _ => mul_comm _ _) _ _ (fun r c _ => ?_) (fun r c _ => ?_)
  · show Ideal.exp (_ * min (∑ j, (x r j : EReal) * (x c j : EReal)) _ - _) = _
    rw [gram_coe, entry_min_coe]
  · show Ideal.exp (_ * max (_ - _ * ∑ j, (x r j : EReal) * (x c j : EReal)) _) = _
    rw [gram_coe, entry_max_coe]

end Cert.LibPairwise
-- ==== Proof.TileSums.lean ====
/-
  Re-indexing of the tiled sums. The pairwise potential is summed tile by tile: the 8192 rows and the 8192
  columns are cut into 8 tiles of 1024; inside a tile the rows are summed first, giving one value per column,
  and the 1024 columns of a tile are laid out as 8 slabs of 128. Summing the slab entries over the 64 pairs
  (row tile, slab) and the 128 positions, the column tiles accumulated inside, visits every ordered pair
  (row, column) exactly once, so the total is the double sum over all pairs. Likewise a sum over 8192 rows
  is the sum over 64 blocks of 128 rows. Also here: a left fold of additions from zero is the finite sum.
  All sums are finite sums of extended reals; only commutativity and associativity of the sum are used.
-/
import proofs.«158555_j34162169872914_2_alg».proof.Proof.RefSpec
import proofs.«158555_j34162169872914_2_alg».proof.Proof.LibPairwise

noncomputable section

namespace Cert.TileSums

open Cert.RefSide Idealize.ShloMosaic Idealize.ShloMosaic.ValueIdx Cert.LibPairwise

/-! ### The tiled pieces -/

/-- Column `cc` of tile `(i, j)`: the kernel's summand summed over the tile's 1024 rows, the global
    diagonal masked. -/
def tileCol (x : Arr) (i j : Fin 8) (cc : Fin 1024) : EReal :=
  ∑ rr : Fin 1024, if 1024 * i.val + rr.val = 1024 * j.val + cc.val then 0
    else kerEntry (gram x ⟨1024 * i.val + rr.val, by omega⟩ ⟨1024 * j.val + cc.val, by omega⟩)

/-- Entry `(a, l)` of the 8 × 128 slab of row tile `i`: the column sums of column `128 a + l` of every
    column tile `j`, added up. -/
def slabEntry (x : Arr) (i a : Fin 8) (l : Fin 128) : EReal :=
  ∑ j : Fin 8, tileCol x i j ⟨128 * a.val + l.val, by omega⟩

/-- The squared distance of the normalised rows `r` of the two arrays. -/
def rowSq (q k : Arr) (r : Fin 8192) : EReal :=
  ∑ d : Fin 128, (normd q r d - normd k r d) * (normd q r d - normd k r d)

/-! ### Generic re-indexing -/

/-- A sum over `g < 64` of a function of the quotient and the remainder of `g` by 8 is the double sum
    over the quotient and the remainder. -/
theorem sum_divmod8 {M : Type*} [AddCommMonoid M] (H : ℕ → ℕ → M) :
    (∑ g : Fin 64, H (g.val / 8) (g.val % 8)) = ∑ i : Fin 8, ∑ a : Fin 8, H i.val a.val := by
  refine (sum_blocks 8 8 (fun n => H (n / 8) (n % 8))).symm.trans ?_
  refine Finset.sum_congr rfl fun i _ => Finset.sum_congr rfl fun a _ => ?_
  have h1 : (8 * i.val + a.val) / 8 = i.val := by have := a.isLt; omega
  have h2 : (8 * i.val + a.val) % 8 = a.val := by have := a.isLt; omega
  show H ((8 * i.val + a.val) / 8) ((8 * i.val + a.val) % 8) = H i.val a.val
  rw [h1, h2]

/-- Four nested finite sums in the order (a, l, j, r) equal the same sums in the order (r, j, a, l). -/
theorem sum_reorder₄ {M : Type*} [AddCommMonoid M] {α β γ δ : Type*} [Fintype α] [Fintype β] [Fintype γ]
    [Fintype δ] (F : α → β → γ → δ → M) :
    (∑ a, ∑ l, ∑ j, ∑ r, F a l j r) = ∑ r, ∑ j, ∑ a, ∑ l, F a l j r :=
  calc (∑ a, ∑ l, ∑ j, ∑ r, F a l j r)
      = ∑ a, ∑ l, ∑ r, ∑ j, F a l j r :=
        Finset.sum_congr rfl fun a _ => Finset.sum_congr rfl fun l _ => Finset.sum_comm
    _ = ∑ a, ∑ r, ∑ l, ∑ j, F a l j r := Finset.sum_congr rfl fun a _ => Finset.sum_comm
    _ = ∑ r, ∑ a, ∑ l, ∑ j, F a l j r := Finset.sum_comm
    _ = ∑ r, ∑ a, ∑ j, ∑ l, F a l j r :=
        Finset.sum_congr rfl fun r _ => Finset.sum_congr rfl fun a _ => Finset.sum_comm
    _ = ∑ r, ∑ j, ∑ a, ∑ l, F a l j r := Finset.sum_congr rfl fun r _ => Finset.sum_comm

/-! ### The pairwise sum, tile by tile -/

/-- The masked summand at a pair of natural indices (zero outside the range), so that sums over blocks
    can be re-indexed as sums of a function of natural numbers. -/
def cell (x : Arr) (r c : ℕ) : EReal :=
  if h : r < 8192 ∧ c < 8192 then (if r = c then 0 else kerEntry (gram x ⟨r, h.1⟩ ⟨c, h.2⟩)) else 0

/-- Inside the range the masked summand is the kernel's summand off the diagonal and zero on it. -/
theorem cell_eq (x : Arr) (r c : ℕ) (hr : r < 8192) (hc : c < 8192) :
    cell x r c = if r = c then 0 else kerEntry (gram x ⟨r, hr⟩ ⟨c, hc⟩) := by
  unfold cell; rw [dif_pos ⟨hr, hc⟩]

/-- The double sum over all ordered pairs, in the masked summand. -/
theorem fullSum_eq_cell (x : Arr) : fullSum x = ∑ r : Fin 8192, ∑ c : Fin 8192, cell x r.val c.val := by
  unfold fullSum
  exact Finset.sum_congr rfl fun r _ => Finset.sum_congr rfl fun c _ => (cell_eq x r.val c.val r.isLt c.isLt).symm

/-- A tile's column sum, in the masked summand. -/
theorem tileCol_eq_cell (x : Arr) (i j : Fin 8) (cc : Fin 1024) :
    tileCol x i j cc = ∑ rr : Fin 1024, cell x (1024 * i.val + rr.val) (1024 * j.val + cc.val) := by
  unfold tileCol
  exact Finset.sum_congr rfl fun rr _ => (cell_eq x _ _ (by omega) (by omega)).symm

/-- A slab entry, in the masked summand. -/
theorem slabEntry_eq_cell (x : Arr) (i a : Fin 8) (l : Fin 128) :
    slabEntry x i a l
      = ∑ j : Fin 8, ∑ rr : Fin 1024, cell x (1024 * i.val + rr.val) (1024 * j.val + (128 * a.val + l.val)) := by
  unfold slabEntry
  exact Finset.sum_congr rfl fun j _ => tileCol_eq_cell x i j _

/-- The slab entries, summed over the 64 pairs (row tile, slab) and the 128 positions of a slab, add up to
    the double sum over all ordered pairs of rows: row `1024 i + rr`, column `1024 j + 128 a + l`. -/
theorem sum_slabs (x : Arr) :
    (∑ g : Fin 64, ∑ l : Fin 128, slabEntry x ⟨g.val / 8, by omega⟩ ⟨g.val % 8, by omega⟩ l) = fullSum x :=
  calc (∑ g : Fin 64, ∑ l : Fin 128, slabEntry x ⟨g.val / 8, by omega⟩ ⟨g.val % 8, by omega⟩ l)
      = ∑ g : Fin 64, ∑ l : Fin 128, ∑ j : Fin 8, ∑ rr : Fin 1024,
          cell x (1024 * (g.val / 8) + rr.val) (1024 * j.val + (128 * (g.val % 8) + l.val)) :=
        Finset.sum_congr rfl fun g _ => Finset.sum_congr rfl fun l _ => slabEntry_eq_cell x _ _ l
    _ = ∑ i : Fin 8, ∑ a : Fin 8, ∑ l : Fin 128, ∑ j : Fin 8, ∑ rr : Fin 1024,
          cell x (1024 * i.val + rr.val) (1024 * j.val + (128 * a.val + l.val)) :=
        sum_divmod8 (fun i a => ∑ l : Fin 128, ∑ j : Fin 8, ∑ rr : Fin 1024,
          cell x (1024 * i + rr.val) (1024 * j.val + (128 * a + l.val)))
    _ = ∑ i : Fin 8, ∑ rr : Fin 1024, ∑ j : Fin 8, ∑ a : Fin 8, ∑ l : Fin 128,
          cell x (1024 * i.val + rr.val) (1024 * j.val + (128 * a.val + l.val)) :=
        Finset.sum_congr rfl fun i _ => sum_reorder₄ (fun (a : Fin 8) (l : Fin 128) (j : Fin 8) (rr : Fin 1024) =>
          cell x (1024 * i.val + rr.val) (1024 * j.val + (128 * a.val + l.val)))
    _ = ∑ i : Fin 8, ∑ rr : Fin 1024, ∑ j : Fin 8, ∑ cc : Fin 1024,
          cell x (1024 * i.val + rr.val) (1024 * j.val + cc.val) :=
        Finset.sum_congr rfl fun i _ => Finset.sum_congr rfl fun rr _ => Finset.sum_congr rfl fun j _ =>
          sum_blocks 8 128 (fun cc => cell x (1024 * i.val + rr.val) (1024 * j.val + cc))
    _ = ∑ r : Fin 8192, ∑ c : Fin 8192, cell x r.val c.val := sum_blocks₂ 8 1024 8 1024 (cell x)
    _ = fullSum x := (fullSum_eq_cell x).symm

/-! ### The rows, block by block -/

/-- The sum over the 8192 rows is the sum over 64 blocks of 128 consecutive rows. -/
theorem sum_rowSq (q k : Arr) :
    (∑ g : Fin 64, ∑ l : Fin 128, rowSq q k ⟨128 * g.val + l.val, by omega⟩) = ∑ r : Fin 8192, rowSq q k r := by
  have h := sum_blocks 64 128 (fun n => if h : n < 8192 then rowSq q k ⟨n, h⟩ else 0)
  refine Eq.trans ?_ (h.trans ?_)
  · refine Finset.sum_congr rfl fun g _ => Finset.sum_congr rfl fun l _ => ?_
    have hb : 128 * g.val + l.val < 8192 := by omega
    show _ = if h : 128 * g.val + l.val < 8192 then rowSq q k ⟨128 * g.val + l.val, h⟩ else 0
    rw [dif_pos hb]
  · refine Finset.sum_congr rfl fun r _ => ?_
    show (if h : r.val < 8192 then rowSq q k ⟨r.val, h⟩ else 0) = rowSq q k r
    rw [dif_pos r.isLt]

/-- The alignment term over the rows taken block by block. -/
theorem alignTerm_eq_blocks (q k : Arr) :
    alignTerm q k = Ideal.div (∑ g : Fin 64, ∑ l : Fin 128, rowSq q k ⟨128 * g.val + l.val, by omega⟩)
      (Ideal.ofBits .f32 0x46000000#32) := by
  rw [sum_rowSq]; rfl

/-! ### A left fold of additions is the sum -/

/-- The running total `((0 + f 0) + f 1) + … + f n`. -/
def acc (f : ℕ → EReal) : ℕ → EReal
  | 0 => 0 + f 0
  | n + 1 => acc f n + f (n + 1)

/-- The running total after `n + 1` terms is the sum of those terms. -/
theorem acc_eq (f : ℕ → EReal) (n : ℕ) : acc f n = ∑ j ∈ Finset.range (n + 1), f j := by
  induction n with
  | zero => simp [acc]
  | succ n ih => rw [acc, ih, Finset.sum_range_succ _ (n + 1)]

/-- The running total after eight terms, as a sum over `Fin 8`. -/
theorem acc_seven (f : ℕ → EReal) : acc f 7 = ∑ j : Fin 8, f j.val := by
  rw [acc_eq, Finset.sum_range]

/-- Eight terms added one after the other from zero are their sum. -/
theorem acc_eq_sum (f : ℕ → EReal) :
    ((((((((0 + f 0) + f 1) + f 2) + f 3) + f 4) + f 5) + f 6) + f 7) = ∑ j : Fin 8, f j.val :=
  acc_seven f

end Cert.TileSums

end
-- ==== Proof.KernelIdeal.R1Acc.lean ====
/-
  Region 1's accumulation in closed form, at the ideal instance.

  After the body at position n = 64 b + 8 i + j the output block holds, at (a, l), the sum over the tiles
  j' = 0 … j of the tile's column sum at column 128 a + l: the sum over the tile's 1024 rows of
  exp(4 min(s, 1) − 4) at the dot product s of row rr of the left block with row 128 a + l of the right block,
  the entry on the global diagonal (1024 i + rr = 1024 j' + 128 a + l) replaced by 0. At j = 0 the body starts
  from the zero block; at j > 0 from what position n − 1 left. So at j = 7 the block holds the sum over all eight
  tiles of row-tile i.
-/
import proofs.«158555_j34162169872914_2_alg».proof.Proof.KernelIdeal.R1
import proofs.«158555_j34162169872914_2_alg».proof.Proof.KernelIdeal.R1Payload
import proofs.«158555_j34162169872914_2_alg».proof.Proof.TileSums
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe Idealize.ShloMosaic.Tactic Idealize.SL.Sem
open Idealize.ShloMosaic.Pipeline (Dat)
open Cert.RefSide Cert.TileSums

theorem zero2 : (![0, 0] : Fin 2 → Nat) = fun _ => 0 := by funext a; fin_cases a <;> rfl
theorem zero3 : (![0, 0, 0] : Fin 3 → Nat) = fun _ => 0 := by funext a; fin_cases a <;> rfl

/-! ## What each case leaves, as the body's payload -/

section Pieces

variable {F : FTy → Type} [FloatOps F]

/-- At j = 0 the output block ends at the adding payload over the ZERO block: the later whole-block store wins, and
    its reload of the buffer reads the zero block just stored. -/
theorem out1_A_2_eq (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : cond1_0 i) (x0 : Vec F S1x1024x128 .bf16) (x1 : Vec F S1x1024x128 .bf16) :
    out1_A_2 c i arg3 harg3 arg4 harg4 arg5 harg5 hc0 x0 x1 = k1_pay2 i x0 x1 (k1_pay1 (F := F)) := by
  unfold out1_A_2
  rw [View.read_writes_eq_canon _ _ _ (cover1_A_2 c i arg3 harg3 arg4 harg4 arg5 harg5 hc0 x0 x1)]
  unfold kernelRun1_A
  dsimp only
  sl_unfold_words
  refine (View.canon_cons_unit_zero (S := S8x128) zero2 _ _ _).trans ?_
  simp only [View.readAt_eq_ld, harg3.read_unread, harg4.read_unread, View.ld_unit_zero (S := S1x1024x128) zero3]
  rw [View.readCov_unit_zero _ zero2]

/-- At j ≠ 0 the output block ends at the adding payload over what the buffer held. -/
theorem out1_B_2_eq (c : Dev nD) (i : grid1.Coords) (arg3 : Memref sig .tc .vmem S1x1024x128 .bf16) (harg3 : arg3.IsWhole)
    (arg4 : Memref sig .tc .vmem S1x1024x128 .bf16) (harg4 : arg4.IsWhole) (arg5 : Memref sig .tc .vmem S8x128 .f32) (harg5 : arg5.IsWhole)
    (hc0 : ¬cond1_0 i) (x0 : Vec F S1x1024x128 .bf16) (x1 : Vec F S1x1024x128 .bf16) (xo2 : Vec F S8x128 .f32) :
    out1_B_2 c i arg3 harg3 arg4 harg4 arg5 harg5 hc0 x0 x1 xo2 = k1_pay2 i x0 x1 xo2 := by
  unfold out1_B_2
  rw [View.read_writes_eq_canon _ _ _ (cover1_B_2 c i arg3 harg3 arg4 harg4 arg5 harg5 hc0 x0 x1 xo2)]
  unfold kernelRun1_B
  dsimp only
  sl_unfold_words
  refine (View.canon_unit_zero (S := S8x128) zero2 _ _).trans ?_
  simp only [View.readAt_eq_ld, harg3.read_unread, harg4.read_unread, harg5.read_unread, View.ld_unit_zero (S := S1x1024x128) zero3, View.ld_unit_zero (S := S8x128) zero2]

end Pieces

/-! ## The grid's coordinates -/

/-- Point t = 64 b + 8 i + j has i = (t / 8) mod 8 and j = t mod 8. -/
theorem coords1 : ∀ t : Fin cfg1.N, ((grid1.coords t) 1).val = (t.val / 8) % 8 ∧ ((grid1.coords t) 2).val = t.val % 8 :=
  (by decide +kernel : ∀ t : Fin grid1.N, ((grid1.coords t) 1).val = (t.val / 8) % 8 ∧ ((grid1.coords t) 2).val = t.val % 8)

/-! ## The accumulation -/

section Acc

variable (V : (c : Dev nD) → (b : Ref sig .tc) → Buf (Elt Ideal) ((c : Thread nD τ).loc b))
/- The entries of the left and the right block at each position, by row of the block and lane. -/
variable (Lf Rf : ℕ → Fin 1024 → Fin 128 → EReal)

/-- The tile's column sum at position n, column 128 a + l: over the tile's rows, the global diagonal masked. -/
def colsum (n : ℕ) (a : Fin 8) (l : Fin 128) : EReal :=
  ∑ rr : Fin 1024, if 1024 * ((n / 8) % 8) + rr.val = 1024 * (n % 8) + (128 * a.val + l.val) then 0
    else kerEntry (∑ d : Fin 128, Lf n rr d * Rf n (⟨128 * a.val + l.val, by omega⟩ : Fin 1024) d)

variable (c : Dev nD)
  (hL : ∀ (t : Fin cfg1.N) (rr : Fin 1024) (d : Fin 128), (iblk1 V c 0 t : Vec Ideal S1x1024x128 .bf16) (ix3 (0 : Fin 1) rr d) = Lf t.val rr d)
  (hR : ∀ (t : Fin cfg1.N) (rr : Fin 1024) (d : Fin 128), (iblk1 V c 1 t : Vec Ideal S1x1024x128 .bf16) (ix3 (0 : Fin 1) rr d) = Rf t.val rr d)

include hL hR in
/-- A position with j = 0: zero plus the tile's column sums. -/
theorem step_A (t : Fin cfg1.N) (h0 : t.val % 8 = 0) (a : Fin 8) (l : Fin 128) :
    (outsAt1 V c t.val t.isLt : Vec Ideal S8x128 .f32) (ix2 a l) = 0 + colsum Lf Rf t.val a l := by
  rw [outsAt1_A V c t h0, out1_A_2_eq, k1_pay2_apply, k1_pay1_apply]
  obtain ⟨e1, e2⟩ := coords1 t
  simp only [e1, e2, hL, hR]
  rfl

include hL hR in
/-- A position with j ≠ 0: what the position before left plus the tile's column sums. -/
theorem step_B (t : Fin cfg1.N) (h0 : ¬t.val % 8 = 0) (a : Fin 8) (l : Fin 128) :
    (outsAt1 V c t.val t.isLt : Vec Ideal S8x128 .f32) (ix2 a l)
      = (outsAt1 V c (t.val - 1) (Nat.lt_of_le_of_lt (Nat.sub_le _ _) t.isLt) : Vec Ideal S8x128 .f32) (ix2 a l) + colsum Lf Rf t.val a l := by
  rw [outsAt1_B V c t h0, out1_B_2_eq, k1_pay2_apply]
  obtain ⟨e1, e2⟩ := coords1 t
  simp only [e1, e2, hL, hR]
  rfl

include hL hR in
/-- After position n the output block holds the left fold, over the tiles 0 … n mod 8 of row-tile n / 8, of the
    tiles' column sums. -/
theorem outsAt1_acc : ∀ (n : ℕ) (hn : n < cfg1.N) (a : Fin 8) (l : Fin 128),
    (outsAt1 V c n hn : Vec Ideal S8x128 .f32) (ix2 a l) = acc (fun j => colsum Lf Rf (8 * (n / 8) + j) a l) (n % 8) := by
  intro n
  induction n with
  | zero =>
    intro hn a l
    exact (step_A V Lf Rf c hL hR ⟨0, hn⟩ rfl a l)
  | succ n ih =>
    intro hn a l
    by_cases h0 : (n + 1) % 8 = 0
    · rw [show (outsAt1 V c (n + 1) hn : Vec Ideal S8x128 .f32) (ix2 a l) = 0 + colsum Lf Rf (n + 1) a l from step_A V Lf Rf c hL hR ⟨n + 1, hn⟩ h0 a l, h0]
      show 0 + colsum Lf Rf (n + 1) a l = 0 + colsum Lf Rf (8 * ((n + 1) / 8) + 0) a l
      rw [show 8 * ((n + 1) / 8) + 0 = n + 1 from by omega]
    · rw [show (outsAt1 V c (n + 1) hn : Vec Ideal S8x128 .f32) (ix2 a l) = _ from step_B V Lf Rf c hL hR ⟨n + 1, hn⟩ h0 a l]
      have e1 : (n + 1) / 8 = n / 8 := by omega
      have e2 : (n + 1) % 8 = n % 8 + 1 := by omega
      rw [e1, e2]
      show (outsAt1 V c n _ : Vec Ideal S8x128 .f32) (ix2 a l) + colsum Lf Rf (n + 1) a l
        = acc (fun j => colsum Lf Rf (8 * (n / 8) + j) a l) (n % 8) + colsum Lf Rf (8 * (n / 8) + (n % 8 + 1)) a l
      rw [ih (Nat.lt_of_succ_lt hn) a l, show 8 * (n / 8) + (n % 8 + 1) = n + 1 from by omega]

include hL hR in
/-- At j = 7 (the points written back) the block holds the sum over all eight tiles of its row-tile. -/
theorem outsAt1_flush (t : Fin cfg1.N) (h7 : t.val % 8 = 7) (a : Fin 8) (l : Fin 128) :
    (outsAt1 V c t.val t.isLt : Vec Ideal S8x128 .f32) (ix2 a l) = ∑ j : Fin 8, colsum Lf Rf (8 * (t.val / 8) + j.val) a l := by
  rw [outsAt1_acc V Lf Rf c hL hR t.val t.isLt a l, h7]
  exact acc_seven _

end Acc

end Cert.KernelIdeal.HandValue

end
-- ==== Proof.KernelIdeal.HostTail.lean ====
/-
  The kernel program's host tail as one function.

  After the second region the program holds a 128 × 128 array of accumulated column sums — its upper 64 rows for the
  first argument's Gram matrix, its lower 64 rows for the second's — and a 64 × 128 array of partial sums of squared
  distances of the normalised rows. The remaining host operations cut the first array into its two halves, sum each
  half and the distance array over all their entries, divide the two half sums by the number of ordered off-diagonal
  pairs and take logarithms, divide the distance sum by the number of rows, and return the mean distance plus one
  times half the sum of the two logarithms. Read at the ideal instance, each total sum is the double sum over the
  coordinates (the zero initial value dropped) and each half is the array at the shifted row.
-/
import proofs.«158555_j34162169872914_2_alg».proof.Proof.Gen.KernelIdeal.Launch
import proofs.«158555_j34162169872914_2_alg».proof.Proof.RefSpec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.HandValue

open Idealize.ShloMosaic Idealize.ShloMosaic.ValueIdx Idealize.ShloMosaic.StableHlo Idealize.SL.Sem Cert.KernelIdeal Cert.KernelIdeal.Gen Cert.RefSide

/-! ## The scalar the host tail computes -/

/-- The host operations after region 1, as one function of the two arrays they read: `P`, the 128 × 128 array of
    accumulated column sums whose upper 64 rows belong to the first argument and lower 64 rows to the second, and `A`,
    the 64 × 128 array of partial sums of squared distances. The result is the mean squared distance plus one times half
    the sum of the two logarithms of the mean pairwise summand. -/
def tail (P : S128x128.Idx → EReal) (A : S64x128.Idx → EReal) : EReal :=
  Ideal.div (∑ g : Fin 64, ∑ l : Fin 128, A (ix2 g l)) (Ideal.ofBits .f32 0x46000000#32)
    + Ideal.ofBits .f32 0x3F800000#32 *
      Ideal.div
        (Ideal.log (Ideal.div (∑ g : Fin 64, ∑ l : Fin 128, P (ix2 (⟨g.val, by omega⟩ : Fin 128) l))
            (Ideal.ofBits .f32 0x4C7FF800#32))
          + Ideal.log (Ideal.div (∑ g : Fin 64, ∑ l : Fin 128, P (ix2 (⟨64 + g.val, by omega⟩ : Fin 128) l))
            (Ideal.ofBits .f32 0x4C7FF800#32)))
        (Ideal.ofBits .f32 0x40000000#32)

/-! ## Its stages read at an index -/

/-- The host's sum of a 64 × 128 array over both axes from the zero word: the double sum over the coordinates. -/
theorem total_apply (x : FVec Ideal S64x128 .f32) (h : S64x128.ReducesTo [0, 1] S_) (hu : 0 < S_.numel) (i : S_.Idx) :
    Host.reduceAdd (F := Ideal) x (constant S_ .f32 0x00000000#32) h hu i = ∑ g : Fin 64, ∑ l : Fin 128, x (ix2 g l) := by
  simp only [Host.reduceAdd, Ideal.hostReduceAdd_def]
  rw [Ideal.hostReduceAdd_total h (fun b => b.elim0), sum_idx2]
  show Ideal.ofBits .f32 0x00000000#32 + _ = _
  rw [Ideal.ofBits_zero_f32, zero_add]

/-- The upper half: rows `0 … 63`. -/
theorem upperHalf_apply (P : S128x128.Idx → EReal) (h : S128x128.Slices ![0, 0] S64x128) (g : Fin 64) (l : Fin 128) :
    extractStridedSlice S64x128 ![0, 0] P h (ix2 g l) = P (ix2 (⟨g.val, by omega⟩ : Fin 128) l) :=
  extractStridedSlice_apply _ P h (ix2 g l) (ix2 (⟨g.val, by omega⟩ : Fin 128) l) (fun a => by
    match a with
    | ⟨0, _⟩ => show g.val = 0 + g.val; omega
    | ⟨1, _⟩ => show l.val = 0 + l.val; omega)

/-- The lower half: rows `64 … 127`. -/
theorem lowerHalf_apply (P : S128x128.Idx → EReal) (h : S128x128.Slices ![64, 0] S64x128) (g : Fin 64) (l : Fin 128) :
    extractStridedSlice S64x128 ![64, 0] P h (ix2 g l) = P (ix2 (⟨64 + g.val, by omega⟩ : Fin 128) l) :=
  extractStridedSlice_apply _ P h (ix2 g l) (ix2 (⟨64 + g.val, by omega⟩ : Fin 128) l) (fun a => by
    match a with
    | ⟨0, _⟩ => show 64 + g.val = 64 + g.val; rfl
    | ⟨1, _⟩ => show l.val = 0 + l.val; omega)

/-! ## The tail's result -/

/-- From any contents `W`, the last 22 host operations leave in the result buffer the constant function at `tail` of
    the accumulated column sums and of the partial distance sums. -/
theorem tail_eq (W : Valuation τ sig (Elt Ideal)) :
    StableHlo.after (hostOps2 (F := Ideal)) W (Proc.devRef .tc main_v18)
      = fun _ => tail (W (Proc.devRef .tc main_v4)) (W (Proc.devRef .tc main_v0_2)) := by
  after_results
  funext i
  unfold tail
  refine congrArg₂ (· + ·) (congrArg₂ Ideal.div (total_apply _ _ _ i) rfl)
    (congrArg₂ (· * ·) rfl (congrArg₂ Ideal.div (congrArg₂ (· + ·)
      (congrArg Ideal.log (congrArg₂ Ideal.div ((total_apply _ _ _ i).trans
        (Finset.sum_congr rfl fun g _ => Finset.sum_congr rfl fun l _ => upperHalf_apply _ _ g l)) rfl))
      (congrArg Ideal.log (congrArg₂ Ideal.div ((total_apply _ _ _ i).trans
        (Finset.sum_congr rfl fun g _ => Finset.sum_congr rfl fun l _ => lowerHalf_apply _ _ g l)) rfl))) rfl))

end Cert.KernelIdeal.HandValue

end
-- ==== Proof.KernelIdeal.Bridge.lean ====
/-
  From the kernel's tiles to the specification's sums.

  The stacked array S : [2, 8192, 128] holds the normalised q in its first slab and the normalised k in its second.
  At position n = 64 β + 8 p + j region 1's left block is rows 1024 p … of slab β and its right block rows 1024 j …
  of the same slab, so the position's masked column sum at column 128 a + l is the column sum of tile (p, j) of the
  matrix of exp(4 min(s, 1) − 4) over the gram matrix of slab β, and the sum over j of those is the slab entry.
  Summed over the 64 × 128 entries of a half of the output that is the full off-diagonal sum; the third output of
  region 0, summed, is the numerator of the alignment term. Hence the host tail of the two arrays is the kernel-side
  specification kerG.
-/
import proofs.«158555_j34162169872914_2_alg».proof.Proof.KernelIdeal.R1Acc
import proofs.«158555_j34162169872914_2_alg».proof.Proof.KernelIdeal.HostTail
import proofs.«158555_j34162169872914_2_alg».proof.Proof.TileSums

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem
open Cert.RefSide Cert.TileSums

/-- The stacked array read at natural-number indices (0 off the array). -/
def natS (S : S2x8192x128.Idx → EReal) (b r : ℕ) (d : Fin 128) : EReal :=
  if h : b < 2 ∧ r < 8192 then S (ix3 (⟨b, h.1⟩ : Fin 2) (⟨r, h.2⟩ : Fin 8192) d) else 0

/-- Row rr of the left block at position n: row 1024 i + rr of slab b. -/
def blockL (S : S2x8192x128.Idx → EReal) (n : ℕ) (rr : Fin 1024) (d : Fin 128) : EReal :=
  natS S (n / 64) (1024 * ((n / 8) % 8) + rr.val) d
/-- Row rr of the right block at position n: row 1024 j + rr of slab b. -/
def blockR (S : S2x8192x128.Idx → EReal) (n : ℕ) (rr : Fin 1024) (d : Fin 128) : EReal :=
  natS S (n / 64) (1024 * (n % 8) + rr.val) d

/-- The position's column sum is the column sum of tile (p, j) of slab β's masked exp-gram matrix. -/
theorem colsum_tile (S : S2x8192x128.Idx → EReal) (x : Arr) (β : ℕ)
    (hS : ∀ (r : ℕ) (hr : r < 8192) (d : Fin 128), natS S β r d = normd x ⟨r, hr⟩ d)
    (p j a : Fin 8) (l : Fin 128) :
    colsum (blockL S) (blockR S) (64 * β + 8 * p.val + j.val) a l = tileCol x p j ⟨128 * a.val + l.val, by omega⟩ := by
  have e0 : (64 * β + 8 * p.val + j.val) / 64 = β := by omega
  have e1 : (64 * β + 8 * p.val + j.val) / 8 % 8 = p.val := by omega
  have e2 : (64 * β + 8 * p.val + j.val) % 8 = j.val := by omega
  unfold colsum tileCol
  refine Finset.sum_congr rfl fun rr _ => ?_
  have hrow : ∀ d, natS S β (1024 * p.val + rr.val) d = normd x ⟨1024 * p.val + rr.val, by omega⟩ d := fun d => hS _ _ d
  have hcol : ∀ d, natS S β (1024 * j.val + (128 * a.val + l.val)) d = normd x ⟨1024 * j.val + (128 * a.val + l.val), by omega⟩ d :=
    fun d => hS _ _ d
  simp only [blockL, blockR, e0, e1, e2, hrow, hcol]
  rfl

/-- What the output block of row-tile p' holds at (a, l) after its eight positions. -/
def slabOf (S : S2x8192x128.Idx → EReal) (p' : ℕ) (a : Fin 8) (l : Fin 128) : EReal :=
  ∑ j : Fin 8, colsum (blockL S) (blockR S) (8 * p' + j.val) a l

theorem slabOf_eq (S : S2x8192x128.Idx → EReal) (x : Arr) (β : ℕ)
    (hS : ∀ (r : ℕ) (hr : r < 8192) (d : Fin 128), natS S β r d = normd x ⟨r, hr⟩ d)
    (p a : Fin 8) (l : Fin 128) : slabOf S (8 * β + p.val) a l = slabEntry x p a l := by
  unfold slabOf slabEntry
  refine Finset.sum_congr rfl fun j _ => ?_
  rw [show 8 * (8 * β + p.val) + j.val = 64 * β + 8 * p.val + j.val from by omega]
  exact colsum_tile S x β hS p j a l

/-- The host tail of an output array whose halves hold the slab entries of q and of k, and of an array holding the
    rows' squared distances, is the kernel-side specification. -/
theorem tail_kerG (q k : Arr) (P : S128x128.Idx → EReal) (A : S64x128.Idx → EReal)
    (hP0 : ∀ (g : Fin 64) (l : Fin 128), P (ix2 (⟨g.val, by omega⟩ : Fin 128) l) = slabEntry q ⟨g.val / 8, by omega⟩ ⟨g.val % 8, by omega⟩ l)
    (hP1 : ∀ (g : Fin 64) (l : Fin 128), P (ix2 (⟨64 + g.val, by omega⟩ : Fin 128) l) = slabEntry k ⟨g.val / 8, by omega⟩ ⟨g.val % 8, by omega⟩ l)
    (hA : ∀ (g : Fin 64) (l : Fin 128), A (ix2 g l) = rowSq q k ⟨128 * g.val + l.val, by omega⟩) :
    tail P A = kerG q k := by
  unfold tail kerG kerLog
  rw [alignTerm_eq_blocks, ← sum_slabs q, ← sum_slabs k]
  simp only [hP0, hP1, hA]

end Cert.KernelIdeal.HandValue

end
-- ==== Proof.KernelIdeal.Value.lean ====
/-
  The kernel program's result at the ideal instance.

  Region 0 leaves the two normalised arrays and, in its third output, each row's squared distance between them
  (as (8, 128) slabs of 1024 rows). The three host operations stack the normalised arrays. Region 1 leaves in each
  (8, 128) slab of its output the column sums, over all eight tiles of the slab's row-tile, of the masked
  exp(4 min(s, 1) − 4) of the stacked slab's gram matrix. The host tail sums each half of that array, divides by
  2 · (number of pairs), takes logarithms, averages, and adds the mean squared distance: the kernel-side
  specification kerG of the two arguments.
-/
import proofs.«158555_j34162169872914_2_alg».proof.Proof.KernelIdeal.Run
import proofs.«158555_j34162169872914_2_alg».proof.Proof.KernelIdeal.R0Value
import proofs.«158555_j34162169872914_2_alg».proof.Proof.KernelIdeal.R1Blocks
import proofs.«158555_j34162169872914_2_alg».proof.Proof.KernelIdeal.Bridge

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)
open Cert.RefSide Cert.TileSums

variable (m : (ℓ : Loc nD τ sig) → Buf (Elt Ideal) ℓ) (ρ : Dev nD → PrngReg) (c : Dev nD)

/-- The two arguments, as launched. -/
abbrev argQ : Arr := m ((c : Thread nD τ).loc main_arg0)
abbrev argK : Arr := m ((c : Thread nD τ).loc main_arg1)

/-! ## After region 0 -/

theorem after0_q : (W1 m ρ c (Proc.devRef .tc main_v0_0) : Arr) = normArr (argQ m c) :=
  (W1_arr m ρ c 2).trans (final0_2 (V0 m ρ) c)
theorem after0_k : (W1 m ρ c (Proc.devRef .tc main_v0_1) : Arr) = normArr (argK m c) :=
  (W1_arr m ρ c 3).trans (final0_3 (V0 m ρ) c)
theorem after0_dist : (W1 m ρ c (Proc.devRef .tc main_v0_2) : S64x128.Idx → EReal) = distArr (argQ m c) (argK m c) :=
  (W1_arr m ρ c 4).trans (final0_4 (V0 m ρ) c)

/-! ## The stacked array -/

/-- The stacked array as region 1 finds it. -/
abbrev stackS : S2x8192x128.Idx → EReal := V2 m ρ c main_v3

theorem stack_q (r : ℕ) (hr : r < 8192) (d : Fin 128) : natS (stackS m ρ c) 0 r d = normd (argQ m c) ⟨r, hr⟩ d := by
  unfold natS
  rw [dif_pos ⟨by decide, hr⟩]
  refine (stacked_apply (W1 m ρ c) (⟨0, by decide⟩ : Fin 2) ⟨r, hr⟩ d).trans ?_
  rw [if_pos rfl, after0_q]
  rfl

theorem stack_k (r : ℕ) (hr : r < 8192) (d : Fin 128) : natS (stackS m ρ c) 1 r d = normd (argK m c) ⟨r, hr⟩ d := by
  unfold natS
  rw [dif_pos ⟨by decide, hr⟩]
  refine (stacked_apply (W1 m ρ c) (⟨1, by decide⟩ : Fin 2) ⟨r, hr⟩ d).trans ?_
  rw [if_neg (by decide), after0_k]
  rfl

/-! ## Region 1's blocks and its output -/

theorem blockL_eq (t : Fin cfg1.N) (rr : Fin 1024) (d : Fin 128) :
    (iblk1 (V2 m ρ) c 0 t : Vec Ideal S1x1024x128 .bf16) (ix3 (0 : Fin 1) rr d) = blockL (stackS m ρ c) t.val rr d := by
  have hN : t.val < 128 := lt_of_lt_of_eq t.isLt (show cfg1.N = 128 from N_1)
  refine (iblk1_0_apply (V2 m ρ) c t rr d).trans ?_
  unfold blockL natS
  rw [dif_pos ⟨by omega, by omega⟩]
  rfl

theorem blockR_eq (t : Fin cfg1.N) (rr : Fin 1024) (d : Fin 128) :
    (iblk1 (V2 m ρ) c 1 t : Vec Ideal S1x1024x128 .bf16) (ix3 (0 : Fin 1) rr d) = blockR (stackS m ρ c) t.val rr d := by
  have hN : t.val < 128 := lt_of_lt_of_eq t.isLt (show cfg1.N = 128 from N_1)
  refine (iblk1_1_apply (V2 m ρ) c t rr d).trans ?_
  unfold blockR natS
  rw [dif_pos ⟨by omega, by omega⟩]
  rfl

/-- What the written-back blocks hold: the slab entries over the stacked array. -/
theorem flushed_slab (t : Fin cfg1.N) (h7 : t.val % 8 = 7) (a : Fin 8) (l : Fin 128) :
    (outsAt1 (V2 m ρ) c t.val t.isLt : S8x128.Idx → EReal) (ix2 a l) = slabOf (stackS m ρ c) (t.val / 8) a l :=
  outsAt1_flush (V2 m ρ) (blockL (stackS m ρ c)) (blockR (stackS m ρ c)) c (blockL_eq m ρ c) (blockR_eq m ρ c) t h7 a l

/-- Region 1's output array after the region, entry by entry. -/
theorem after1_apply (g : Fin 128) (l : Fin 128) :
    (W3 m ρ c (Proc.devRef .tc main_v4) : S128x128.Idx → EReal) (ix2 g l)
      = slabOf (stackS m ρ c) (g.val / 8) ⟨g.val % 8, Nat.mod_lt _ (by decide)⟩ l := by
  rw [W3_v4]
  exact final1_2 (V2 m ρ) c (slabOf (stackS m ρ c)) (flushed_slab m ρ c) g l

/-- The slab function at equal arguments. -/
theorem slab_cast {S : S2x8192x128.Idx → EReal} {n n' : ℕ} {a a' : Fin 8} (hn : n = n') (ha : a = a') (l : Fin 128) :
    slabOf S n a l = slabOf S n' a' l := by rw [hn, ha]

theorem after1_q (g : Fin 64) (l : Fin 128) :
    (W3 m ρ c (Proc.devRef .tc main_v4) : S128x128.Idx → EReal) (ix2 (⟨g.val, by omega⟩ : Fin 128) l)
      = slabEntry (argQ m c) ⟨g.val / 8, by omega⟩ ⟨g.val % 8, by omega⟩ l := by
  rw [after1_apply]
  exact slabOf_eq (stackS m ρ c) (argQ m c) 0 (stack_q m ρ c) ⟨g.val / 8, by omega⟩ ⟨g.val % 8, by omega⟩ l
    |> (slab_cast (by show g.val / 8 = 8 * 0 + g.val / 8; omega) rfl l).trans

theorem after1_k (g : Fin 64) (l : Fin 128) :
    (W3 m ρ c (Proc.devRef .tc main_v4) : S128x128.Idx → EReal) (ix2 (⟨64 + g.val, by omega⟩ : Fin 128) l)
      = slabEntry (argK m c) ⟨g.val / 8, by omega⟩ ⟨g.val % 8, by omega⟩ l := by
  rw [after1_apply]
  exact slabOf_eq (stackS m ρ c) (argK m c) 1 (stack_k m ρ c) ⟨g.val / 8, by omega⟩ ⟨g.val % 8, by omega⟩ l
    |> (slab_cast (by show (64 + g.val) / 8 = 8 * 1 + g.val / 8; omega) (Fin.ext (by show (64 + g.val) % 8 = g.val % 8; omega)) l).trans

/-- Region 0's third output reaches the host tail unchanged. -/
theorem tail_dist : (W3 m ρ c (Proc.devRef .tc main_v0_2) : S64x128.Idx → EReal) = distArr (argQ m c) (argK m c) :=
  ((W3_of_ne m ρ c main_v0_2 (by decide)).trans (hostOps1_keeps c _ main_v0_2 (by decide))).trans (after0_dist m ρ c)

theorem tail_dist_apply (g : Fin 64) (l : Fin 128) :
    (W3 m ρ c (Proc.devRef .tc main_v0_2) : S64x128.Idx → EReal) (ix2 g l) = rowSq (argQ m c) (argK m c) ⟨128 * g.val + l.val, by omega⟩ := by
  rw [tail_dist, distArr_apply]
  have e : slabRow g l = (⟨128 * g.val + l.val, by omega⟩ : Fin 8192) := Fin.ext (by show 1024 * (g.val / 8) + 128 * (g.val % 8) + l.val = 128 * g.val + l.val; omega)
  rw [e]
  rfl

/-! ## The result -/

/-- THE KERNEL'S VALUE: the program's result buffer ends at the kernel-side specification of the arguments. -/
theorem value_v18 : W4 m ρ c (Proc.devRef .tc main_v18) = fun _ => kerG (argQ m c) (argK m c) := by
  refine (tail_eq (W3 m ρ c)).trans ?_
  funext _
  exact tail_kerG (argQ m c) (argK m c) _ _ (after1_q m ρ c) (after1_k m ρ c) (tail_dist_apply m ρ c)

end Cert.KernelIdeal.HandValue

end
-- ==== Proof.RefValue.lean ====
/-
  The reference program's result is `refG` of its two argument arrays.

  The reference normalises each row of both arrays by its clamped Euclidean norm, takes the mean squared distance
  of the normalised rows, forms for each array the Gram matrix of its normalised rows as a product with its own
  transpose, maps every entry `s` to `exp (-2 · max (2 - 2 s) 0)`, keeps the entries strictly above the diagonal
  (the mask is `select (row + 0 ≥ column) false true`, the bit of `row < column`), sums them, divides by the
  number of such pairs, takes the logarithm, and returns the distance term plus one times half the sum of the two
  logarithms. Each stage is read here at ONE index given by its coordinates — a row `r`, a pair `(r, d)`, a pair
  `(r, c)` — so the 8192 × 8192 stages are never opened as whole arrays; the sums over index sets are re-indexed to
  sums over the coordinates. The zero words (the sums' initial values, the zero under the maximum, the zero the
  mask selects) are evaluated to `0`; every other literal stays its word.
-/
import proofs.«158555_j34162169872914_2_alg».proof.Proof.RefSpec
import proofs.«158555_j34162169872914_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.RefSide

open Idealize.ShloMosaic Idealize.ShloMosaic.ValueIdx

/-! ## Reading the reference's stages at an index

Each lemma reads one stretch of the reference's operations at an index given by its coordinates; the big
8192 × 8192 stages are only ever read at one symbolic pair `(r, c)`. -/

open Cert.ReferenceIdeal Cert.ReferenceIdeal.Read

/-- A rank-1 index set is its one coordinate … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row and column numbers below 8192 compare as 32-bit signed words the way they compare as naturals. -/
theorem sge_iff (r c : Fin 8192) :
    IntOp.cmpi .sge (IntOp.addi (BitVec.ofNat 32 r.val) 0#32) (BitVec.ofNat 32 c.val) = 1#1 ↔ c.val ≤ r.val := by
  have hr := r.isLt
  have hc := c.isLt
  rw [IntOp.cmpi_sge]
  unfold IntOp.addi
  rw [BitVec.add_zero, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- The mask word `select (iota₀ + 0 ≥ iota₁) false true` at `(r, c)` is the bit of `r < c`. -/
theorem mask_bit (r c : Fin 8192) :
    Scalar.select (IntOp.cmpi .sge (IntOp.addi (BitVec.ofNat 32 r.val) 0#32) (BitVec.ofNat 32 c.val)) (0#1) (1#1)
      = if r.val < c.val then 1#1 else 0#1 := by
  by_cases h : r.val < c.val
  · rw [if_pos h, eq_zero_of_ne_one (fun e => absurd ((sge_iff r c).mp e) (by omega)), select_zero]
  · rw [if_neg h, (sge_iff r c).mpr (by omega), select_one]

/-! ### The stages that depend on the first argument -/

theorem e_v6 (r : Fin 8192) (d : Fin 128) : idx_main_v6 (ix2 r d) = ix2 r (0 : Fin 1) :=
  funext fun a => by match a with | ⟨0, _⟩ => rfl | ⟨1, _⟩ => rfl
theorem e_v2 (r : Fin 8192) : idx_main_v2 (ix2 r (0 : Fin 1)) = ix1 r :=
  funext fun a => by match a with | ⟨0, _⟩ => rfl
theorem e_v1 (r : Fin 8192) (d : Fin 128) : idx_main_v1 (ix1 r) d = ix2 r d :=
  funext fun a => by match a with | ⟨0, _⟩ => rfl | ⟨1, _⟩ => rfl
theorem e_lv22 (r c : Fin 8192) (d : Fin 128) : lidx_main_v22 (ix2 r c) d = ix2 r d :=
  funext fun a => by match a with | ⟨0, _⟩ => rfl | ⟨1, _⟩ => rfl
theorem e_rv22 (r c : Fin 8192) (d : Fin 128) : idx_main_v21 (ridx_main_v22 (ix2 r c) d) = ix2 c d :=
  funext fun a => by match a with | ⟨0, _⟩ => rfl | ⟨1, _⟩ => rfl

/-- The keepdims column of clamped norms, at row `r`. -/
theorem rowNorm_v5 (x : Arr) (r : Fin 8192) : val_main_v5 (F := Ideal) x (ix2 r (0 : Fin 1)) = rowNorm x r := by
  rw [val_main_v5_apply, val_main_v3_apply, val_main_v2_apply, e_v2, val_main_v1_apply, val_main_v4_apply,
    val_main_cst_0_apply, val_main_cst_apply]
  simp only [e_v1, val_main_v0_apply, Ideal.mulf_def, Ideal.maximumf_def, Ideal.hostUnary_sqrt_def, Ideal.ofBits_def,
    Ideal.ofBits_zero_f32, zero_add]
  rfl

/-- The normalised array at `(r, d)`. -/
theorem normd_v7 (x : Arr) (r : Fin 8192) (d : Fin 128) : val_main_v7 (F := Ideal) x (ix2 r d) = normd x r d := by
  rw [val_main_v7_apply, val_main_v6_apply, e_v6, rowNorm_v5]
  rfl

/-- The product of the normalised array with its transpose at `(r, c)`. -/
theorem gram_v22 (x : Arr) (r c : Fin 8192) : val_main_v22 (F := Ideal) x (ix2 r c) = gram x r c := by
  rw [val_main_v22_apply]
  simp only [val_main_v21_apply, e_lv22, e_rv22, normd_v7]
  rfl

/-- The pairwise summand at `(r, c)`, before the mask. -/
theorem entry_v33 (x : Arr) (r c : Fin 8192) : val_main_v33 (F := Ideal) x (ix2 r c) = refEntry (gram x r c) := by
  rw [val_main_v33_apply, val_main_v32_apply, val_main_v31_apply, val_main_cst_9_apply, val_main_v28_apply,
    val_main_v26_apply, val_main_v25_apply, val_main_cst_7_apply, val_main_v24_apply, val_main_v23_apply,
    val_main_cst_6_apply, gram_v22, val_main_v27_apply, val_main_cst_8_apply]
  simp only [Ideal.mulf_def, Ideal.subf_def, Ideal.maximumf_def, Ideal.hostUnary_exp_def, Ideal.ofBits_def,
    Ideal.ofBits_zero_f32]
  rfl

/-- The strict-upper-triangle mask at `(r, c)`. -/
theorem mask_v30 (r c : Fin 8192) :
    val_main_v30 (F := Ideal) (ix2 r c) = if r.val < c.val then 1#1 else 0#1 := by
  rw [val_main_v30_apply, val_main_call0_v4_apply, val_main_call0_v2_apply, val_main_call0_v0_apply,
    val_main_call0_v1_apply, val_main_call0_c_apply, val_main_call0_v3_apply, val_main_call0_v5_apply,
    val_main_call0_c_0_apply, val_main_v29_apply, val_main_c_apply]
  exact mask_bit r c

/-- The masked summand at `(r, c)`. -/
theorem masked_v34 (x : Arr) (r c : Fin 8192) :
    val_main_v34 (F := Ideal) x (ix2 r c) = if r.val < c.val then refEntry (gram x r c) else 0 := by
  rw [val_main_v34_apply, mask_v30, entry_v33, val_main_call1_v1_apply, val_main_call1_v0_apply,
    val_main_cst_10_apply]
  by_cases h : r.val < c.val
  · rw [if_pos h, if_pos h, select_one]
  · rw [if_neg h, if_neg h, select_zero, Ideal.ofBits_def, Ideal.ofBits_zero_f32]

/-- The logarithm of the mean masked summand. -/
theorem log_v37 (x : Arr) (i : S_.Idx) : val_main_v37 (F := Ideal) x i = refLog x := by
  rw [val_main_v37_apply, val_main_v36_apply, val_main_v35_apply, val_main_cst_12_apply, val_main_cst_11_apply,
    sum_idx2]
  simp only [masked_v34, Ideal.hostUnary_log_def, Ideal.hostDivf_def, Ideal.ofBits_def, Ideal.ofBits_zero_f32, zero_add]
  rfl

/-! ### The stages that depend on the second argument -/

theorem e_v14 (r : Fin 8192) (d : Fin 128) : idx_main_v14 (ix2 r d) = ix2 r (0 : Fin 1) :=
  funext fun a => by match a with | ⟨0, _⟩ => rfl | ⟨1, _⟩ => rfl
theorem e_v10 (r : Fin 8192) : idx_main_v10 (ix2 r (0 : Fin 1)) = ix1 r :=
  funext fun a => by match a with | ⟨0, _⟩ => rfl
theorem e_v9 (r : Fin 8192) (d : Fin 128) : idx_main_v9 (ix1 r) d = ix2 r d :=
  funext fun a => by match a with | ⟨0, _⟩ => rfl | ⟨1, _⟩ => rfl
theorem e_lv39 (r c : Fin 8192) (d : Fin 128) : lidx_main_v39 (ix2 r c) d = ix2 r d :=
  funext fun a => by match a with | ⟨0, _⟩ => rfl | ⟨1, _⟩ => rfl
theorem e_rv39 (r c : Fin 8192) (d : Fin 128) : idx_main_v38 (ridx_main_v39 (ix2 r c) d) = ix2 c d :=
  funext fun a => by match a with | ⟨0, _⟩ => rfl | ⟨1, _⟩ => rfl

/-- The keepdims column of clamped norms, at row `r`. -/
theorem rowNorm_v13 (x : Arr) (r : Fin 8192) : val_main_v13 (F := Ideal) x (ix2 r (0 : Fin 1)) = rowNorm x r := by
  rw [val_main_v13_apply, val_main_v11_apply, val_main_v10_apply, e_v10, val_main_v9_apply, val_main_v12_apply,
    val_main_cst_2_apply, val_main_cst_1_apply]
  simp only [e_v9, val_main_v8_apply, Ideal.mulf_def, Ideal.maximumf_def, Ideal.hostUnary_sqrt_def, Ideal.ofBits_def,
    Ideal.ofBits_zero_f32, zero_add]
  rfl

/-- The normalised array at `(r, d)`. -/
theorem normd_v15 (x : Arr) (r : Fin 8192) (d : Fin 128) : val_main_v15 (F := Ideal) x (ix2 r d) = normd x r d := by
  rw [val_main_v15_apply, val_main_v14_apply, e_v14, rowNorm_v13]
  rfl

/-- The product of the normalised array with its transpose at `(r, c)`. -/
theorem gram_v39 (x : Arr) (r c : Fin 8192) : val_main_v39 (F := Ideal) x (ix2 r c) = gram x r c := by
  rw [val_main_v39_apply]
  simp only [val_main_v38_apply, e_lv39, e_rv39, normd_v15]
  rfl

/-- The pairwise summand at `(r, c)`, before the mask. -/
theorem entry_v50 (x : Arr) (r c : Fin 8192) : val_main_v50 (F := Ideal) x (ix2 r c) = refEntry (gram x r c) := by
  rw [val_main_v50_apply, val_main_v49_apply, val_main_v48_apply, val_main_cst_17_apply, val_main_v45_apply,
    val_main_v43_apply, val_main_v42_apply, val_main_cst_14_apply, val_main_v41_apply, val_main_v40_apply,
    val_main_cst_13_apply, gram_v39, val_main_v44_apply, val_main_cst_15_apply]
  simp only [Ideal.mulf_def, Ideal.subf_def, Ideal.maximumf_def, Ideal.hostUnary_exp_def, Ideal.ofBits_def,
    Ideal.ofBits_zero_f32]
  rfl

/-- The strict-upper-triangle mask at `(r, c)`. -/
theorem mask_v47 (r c : Fin 8192) :
    val_main_v47 (F := Ideal) (ix2 r c) = if r.val < c.val then 1#1 else 0#1 := by
  rw [val_main_v47_apply, val_main_call2_v4_apply, val_main_call2_v2_apply, val_main_call2_v0_apply,
    val_main_call2_v1_apply, val_main_call2_c_apply, val_main_call2_v3_apply, val_main_call2_v5_apply,
    val_main_call2_c_0_apply, val_main_v46_apply, val_main_c_16_apply]
  exact mask_bit r c

/-- The masked summand at `(r, c)`. -/
theorem masked_v51 (x : Arr) (r c : Fin 8192) :
    val_main_v51 (F := Ideal) x (ix2 r c) = if r.val < c.val then refEntry (gram x r c) else 0 := by
  rw [val_main_v51_apply, mask_v47, entry_v50, val_main_call3_v1_apply, val_main_call3_v0_apply,
    val_main_cst_18_apply]
  by_cases h : r.val < c.val
  · rw [if_pos h, if_pos h, select_one]
  · rw [if_neg h, if_neg h, select_zero, Ideal.ofBits_def, Ideal.ofBits_zero_f32]

/-- The logarithm of the mean masked summand. -/
theorem log_v54 (x : Arr) (i : S_.Idx) : val_main_v54 (F := Ideal) x i = refLog x := by
  rw [val_main_v54_apply, val_main_v53_apply, val_main_v52_apply, val_main_cst_20_apply, val_main_cst_19_apply,
    sum_idx2]
  simp only [masked_v51, Ideal.hostUnary_log_def, Ideal.hostDivf_def, Ideal.ofBits_def, Ideal.ofBits_zero_f32, zero_add]
  rfl

/-! ### The alignment term and the result -/

theorem e_v18 (r : Fin 8192) (d : Fin 128) : idx_main_v18 (ix1 r) d = ix2 r d :=
  funext fun a => by match a with | ⟨0, _⟩ => rfl | ⟨1, _⟩ => rfl

/-- The squared distance of the two normalised rows `r`. -/
theorem rowsq_v18 (q k : Arr) (r : Fin 8192) :
    val_main_v18 (F := Ideal) q k (ix1 r)
      = ∑ d : Fin 128, (normd q r d - normd k r d) * (normd q r d - normd k r d) := by
  rw [val_main_v18_apply, val_main_cst_3_apply]
  simp only [e_v18, val_main_v17_apply, val_main_v16_apply, normd_v7, normd_v15, Ideal.mulf_def, Ideal.subf_def,
    Ideal.ofBits_def, Ideal.ofBits_zero_f32, zero_add]

/-- The mean over the rows. -/
theorem align_v20 (q k : Arr) (i : S_.Idx) : val_main_v20 (F := Ideal) q k i = alignTerm q k := by
  rw [val_main_v20_apply, val_main_v19_apply, val_main_cst_5_apply, val_main_cst_4_apply, sum_idx1]
  simp only [rowsq_v18, Ideal.hostDivf_def, Ideal.ofBits_def, Ideal.ofBits_zero_f32, zero_add]
  rfl

/-- The reference's last stage is the constant function at `refG` of the two arguments. -/
theorem val58_eq (q k : Arr) : val_main_v58 (F := Ideal) q k = fun _ => refG q k := by
  funext i
  rw [val_main_v58_apply, align_v20, val_main_v57_apply, val_main_cst_22_apply, val_main_v56_apply, val_main_v55_apply,
    log_v37, log_v54, val_main_cst_21_apply]
  rfl

open Idealize.ShloMosaic.TcCoe Idealize.SL.Sem Cert.ReferenceIdeal.Gen

/-- The term the reference's run leaves in its result is `refG` of the argument arrays at launch. -/
theorem ref_eq (m : (ℓ : Loc nD τ sig) → Buf (Elt Ideal) ℓ) (c : Dev nD) :
    Cert.ReferenceIdeal.Value.res_main_v58 m c
      = fun _ => refG (m ((c.tc : Thread nD τ).loc main_arg0)) (m ((c.tc : Thread nD τ).loc main_arg1)) :=
  (val_main_v58_eq m c).trans (val58_eq _ _)

/-- Every weakly fair execution of the reference ends with `refG` of the arguments in its result and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58)
          = (fun _ => refG (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq m c), (h c).2⟩)
    (Cert.ReferenceIdeal.Value.run (F := Ideal) m ρ)

end Cert.RefSide

end
-- ==== Proof.PairLaw.lean ====
/-
  The kernel's and the reference's logarithm terms are one function of an array of real numbers.

  Both take the Gram matrix `s` of the rows normalised by their clamped Euclidean norm. The kernel sums
  `exp (4 · min s 1 - 4)` over the ordered pairs `r ≠ c` and divides by `8192 · 8191`; the reference sums
  `exp (-2 · max (2 - 2 s) 0)` over the pairs `r < c` and divides by half that number. For real entries the
  clamped norm is a positive real, so the normalised rows and `s` are real, the two exponents are the same
  real number, `s` is symmetric, and the two quotients agree. The float words are evaluated here.
-/
import proofs.«158555_j34162169872914_2_alg».proof.Proof.RefSpec
import proofs.«158555_j34162169872914_2_alg».proof.Proof.LibPairwise

namespace Cert.PairLaw

open Idealize.ShloMosaic Idealize.ShloMosaic.ValueIdx Cert.RefSide Cert.LibPairwise

/-! ### The float words of the two potentials, as real numbers -/

/-- The word `0x40800000` is the real `4`. -/
theorem word_four : Ideal.ofBits .f32 0x40800000#32 = ((4 : ℝ) : EReal) := by
  simp [Ideal.ofBits, Ideal.ieee, -EReal.coe_mul]; norm_num

/-- The word `0x3F800000` is the real `1`. -/
theorem word_one : Ideal.ofBits .f32 0x3F800000#32 = ((1 : ℝ) : EReal) := by
  simp [Ideal.ofBits, Ideal.ieee, -EReal.coe_mul]; norm_num

/-- The word `0xC0000000` is the real `-2`. -/
theorem word_neg_two : Ideal.ofBits .f32 0xC0000000#32 = ((-2 : ℝ) : EReal) := by
  simp [Ideal.ofBits, Ideal.ieee, -EReal.coe_mul]; norm_num

/-- The word `0x40000000` is the real `2`. -/
theorem word_two : Ideal.ofBits .f32 0x40000000#32 = ((2 : ℝ) : EReal) := by
  simp [Ideal.ofBits, Ideal.ieee, -EReal.coe_mul]; norm_num

/-- The word `0x4C7FF800` is the real `67100672 = 8192 · 8191`. -/
theorem word_pairs2 : Ideal.ofBits .f32 0x4C7FF800#32 = ((67100672 : ℝ) : EReal) := by
  simp [Ideal.ofBits, Ideal.ieee, -EReal.coe_mul]; norm_num

/-- The word `0x4BFFF800` is the real `33550336 = 8192 · 8191 / 2`. -/
theorem word_pairs : Ideal.ofBits .f32 0x4BFFF800#32 = ((33550336 : ℝ) : EReal) := by
  simp [Ideal.ofBits, Ideal.ieee, -EReal.coe_mul]; norm_num

/-- The clamp word `0x2B8CBCCC` is a positive real. -/
theorem word_eps : ∃ e : ℝ, 0 < e ∧ Ideal.ofBits .f32 0x2B8CBCCC#32 = (e : EReal) := by
  simp [Ideal.ofBits, Ideal.ieee, -EReal.coe_mul]

/-! ### Real arrays have real normalised rows -/

/-- The clamped norm of a row of reals is a positive real. -/
theorem rowNorm_real (v : (⟨2, ![8192, 128]⟩ : Shape).Idx → ℝ) (r : Fin 8192) :
    ∃ N : ℝ, 0 < N ∧ rowNorm (fun i => (v i : EReal)) r = (N : EReal) := by
  obtain ⟨e, he, hw⟩ := word_eps
  refine ⟨max (Real.sqrt (∑ d : Fin 128, v (ix2 r d) * v (ix2 r d))) e, lt_max_of_lt_right he, ?_⟩
  unfold rowNorm
  rw [hw, sum_eq_coe _ _ (fun d : Fin 128 => v (ix2 r d) * v (ix2 r d)) (fun d _ => (EReal.coe_mul _ _).symm),
    ideal_sqrt_coe (Finset.sum_nonneg fun d _ => mul_self_nonneg _), coe_max]

/-- The normalised rows of an array of reals are real: there is a real array `y` with
    `normd x r d = ↑(y r d)` everywhere. -/
theorem normd_real (v : (⟨2, ![8192, 128]⟩ : Shape).Idx → ℝ) :
    ∃ y : Fin 8192 → Fin 128 → ℝ, ∀ r d, normd (fun i => (v i : EReal)) r d = (y r d : EReal) := by
  choose N hN using rowNorm_real v
  refine ⟨fun r d => v (ix2 r d) / N r, fun r d => ?_⟩
  unfold normd
  rw [(hN r).2, ideal_div_coe _ (hN r).1.ne']

/-- The kernel's summand at a real score. -/
theorem kerEntry_coe (t : ℝ) : kerEntry (t : EReal) = ((Real.exp (4 * min t 1 - 4) : ℝ) : EReal) := by
  unfold kerEntry
  rw [word_four, word_one]
  exact entry_min_coe t

/-- The reference's summand at a real score. -/
theorem refEntry_coe (t : ℝ) : refEntry (t : EReal) = ((Real.exp (-2 * max (2 - 2 * t) 0) : ℝ) : EReal) := by
  unfold refEntry
  rw [word_neg_two, word_two]
  exact entry_max_coe t

/-! ### The two logarithms agree -/

/-- On an array of real numbers the kernel's logarithm term is the reference's: the off-diagonal sum of
    `exp (4 · min s 1 - 4)` over `8192 · 8191` is the strictly upper sum of `exp (-2 · max (2 - 2 s) 0)` over
    half that number, `s` the (symmetric, real) Gram matrix of the normalised rows. -/
theorem kerLog_eq_refLog (x : Arr) (hx : ∀ i, ∃ v : ℝ, x i = (v : EReal)) : kerLog x = refLog x := by
  choose v hv using hx
  obtain rfl : x = fun i => (v i : EReal) := funext hv
  obtain ⟨y, hy⟩ := normd_real v
  have hgram : ∀ r c, gram (fun i => (v i : EReal)) r c = ((∑ d, y r d * y c d : ℝ) : EReal) := by
    intro r c
    unfold gram
    simp only [hy]
    exact gram_coe y r c
  unfold kerLog refLog
  rw [word_pairs2, word_pairs]
  congr 1
  have hfull : fullSum (fun i => (v i : EReal))
      = ∑ r : Fin 8192, ∑ c : Fin 8192, if r = c then 0 else kerEntry (gram (fun i => (v i : EReal)) r c) := by
    unfold fullSum
    refine Finset.sum_congr rfl fun r _ => Finset.sum_congr rfl fun c _ => ?_
    by_cases h : r = c
    · rw [if_pos h, if_pos (congrArg Fin.val h)]
    · rw [if_neg h, if_neg (fun h' => h (Fin.ext h'))]
  have hupper : upperSum (fun i => (v i : EReal))
      = ∑ r : Fin 8192, ∑ c : Fin 8192, if r < c then refEntry (gram (fun i => (v i : EReal)) r c) else 0 := by
    unfold upperSum
    rfl
  rw [hfull, hupper]
  exact pair_law_ereal_of_entries (fun r c => ∑ d, y r d * y c d)
    (fun r c => Finset.sum_congr rfl fun d _ => mul_comm _ _) _ _
    (fun r c _ => by rw [hgram, kerEntry_coe]) (fun r c _ => by rw [hgram, refEntry_coe])

/-- On arrays of real numbers the kernel's scalar is the reference's scalar: the alignment terms are the
    same expression and the two logarithm terms agree. -/
theorem kerG_eq_refG (q k : Arr) (hq : ∀ i, ∃ v : ℝ, q i = (v : EReal)) (hk : ∀ i, ∃ v : ℝ, k i = (v : EReal)) :
    kerG q k = refG q k := by
  unfold kerG refG
  rw [kerLog_eq_refLog q hq, kerLog_eq_refLog k hk]

end Cert.PairLaw
-- ==== Proof.Finite.lean ====
/-
  From the precondition to real entries. The precondition says, of each argument array, that every entry's
  absolute value compares strictly below the word of `+∞`, all these comparisons joined by `and` down to
  one bit, and that the bit is one. Read back: every comparison holds, an extended real whose absolute
  value is below `+∞` is neither `+∞` nor `-∞`, so every entry of both arrays is a real number.
-/
import proofs.«158555_j34162169872914_2_alg».proof.Defs
import Idealize.ShloMosaic.Lib.ReduceAll
import Idealize.ShloMosaic.Lib.ValueIdx

noncomputable section

namespace Cert.Finite

open Idealize.ShloMosaic Idealize.SL.Sem Idealize.ShloMosaic.ValueIdx

/-- The scalar shape has one index. -/
instance : Subsingleton Cert.Pre_finite_inputs.S_.Idx := ⟨fun a b => funext fun d => d.elim0⟩

/-- The word `0x7F800000` is `+∞`. -/
theorem word_inf : Ideal.ofBits .f32 0x7F800000#32 = ⊤ := by simp [Ideal.ofBits, Ideal.ieee]

/-- An extended real whose absolute value compares strictly below `+∞` is a real number. -/
theorem real_of_abs_lt_inf (a : EReal)
    (h : Ideal.cmp .olt (max a (-a)) (Ideal.ofBits .f32 0x7F800000#32) = 1#1) : ∃ x : ℝ, a = (x : EReal) := by
  rw [word_inf] at h
  induction a using EReal.rec with
  | bot => simp [Ideal.cmp] at h
  | coe x => exact ⟨x, rfl⟩
  | top => simp [Ideal.cmp] at h

/-- Under the precondition every entry of both argument arrays is a real number. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal)) := by
  have h0 := congrFun (h c) ix0
  dsimp only [Cert.Pre_finite_inputs.fn] at h0
  obtain ⟨h1, h2⟩ := IntOp.andi_eq_one.1 h0
  refine ⟨fun i => ?_, fun i => ?_⟩
  · have e := Host.reduce_andi_all _ _ _ _ _ h1 i
    exact real_of_abs_lt_inf _ e
  · have e := Host.reduce_andi_all _ _ _ _ _ h2 i
    exact real_of_abs_lt_inf _ e

end Cert.Finite

end
-- ==== Proof.lean ====
/-
  The align-plus-uniformity loss of two row-normalised arrays q, k : f32[8192, 128]: a two-region tiled kernel
  against a plain reference, equal over the extended reals for finite inputs.

  Every row is normalised as x / max(‖x‖, ε), ε one f32 word on both sides. Both programs return
      (Σ_r Σ_d (qn − kn)²) / 8192  +  1 · ((L(qn) + L(kn)) / 2).
  The reference's L(x) is log( (Σ_{r<c} exp(−2 · max(2 − 2 s(r,c), 0))) / 33550336 ) over the gram matrix
  s(r,c) = Σ_d x(r,d) x(c,d); the kernel's is log( (Σ_{r≠c} exp(4 · min(s(r,c), 1) − 4)) / 67100672 ), computed in
  1024 × 1024 tiles whose column sums are accumulated into (8, 128) slabs. They agree because for a REAL s
  −2 · max(2 − 2s, 0) = 4 · min(s, 1) − 4, because s is symmetric, so the off-diagonal sum is twice the strictly
  upper one, and because 67100672 = 2 · 33550336; the normalised entries are real because the inputs are finite and
  the divisor is at least ε > 0. That the tiled sums are the plain double sums is a re-indexing of finite sums.

  The kernel program's frame (it terminates, faults nowhere, leaves its arguments unchanged) is proved for its two
  regions and two host stretches as one run, at both instances; the reference's is its run with the result dropped.
-/
import proofs.«158555_j34162169872914_2_alg».proof.Defs
import proofs.«158555_j34162169872914_2_alg».proof.Proof.Gen.Kernel
import proofs.«158555_j34162169872914_2_alg».proof.Proof.Gen.KernelIdeal
import proofs.«158555_j34162169872914_2_alg».proof.Proof.Gen.ReferenceIdeal
import proofs.«158555_j34162169872914_2_alg».proof.Proof.Gen.ReferenceIdeal.Run
import proofs.«158555_j34162169872914_2_alg».proof.Proof.Gen.ReferenceIdeal.Read
import proofs.«158555_j34162169872914_2_alg».proof.Proof.Gen.Pre_finite_inputs
import proofs.«158555_j34162169872914_2_alg».proof.Proof.Kernel.Run
import proofs.«158555_j34162169872914_2_alg».proof.Proof.KernelIdeal.Value
import proofs.«158555_j34162169872914_2_alg».proof.Proof.RefValue
import proofs.«158555_j34162169872914_2_alg».proof.Proof.PairLaw
import proofs.«158555_j34162169872914_2_alg».proof.Proof.Finite
import Idealize.ShloMosaic.Adequacy
import Idealize.ShloMosaic.Init

noncomputable section

namespace Cert.Proof

open Idealize.ShloMosaic Idealize.ShloMosaic.TcCoe Idealize.SL.Sem

/-- The kernel program as printed terminates, faults nowhere and leaves its arguments unchanged. -/
theorem frame_kernel : Cert.frame_Kernel := fun m ρ _ => Cert.Kernel.Hand.frame (F := Bits) m ρ

/-- The same of its idealization. -/
theorem frame_kernelIdeal : Cert.frame_KernelIdeal := fun m ρ _ => Cert.KernelIdeal.Hand.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- From memories agreeing on the arguments both idealized programs end with the same result: the kernel's is the
    kernel-side specification of its arguments, the reference's the reference-side one, and for real entries —
    which the precondition gives — the two specifications are one number. -/
theorem algebraic : Cert.algebraic_KernelIdeal_ReferenceIdeal := by
  intro m ρ m' ρ' hpre hagree
  refine ⟨fun c _ => Cert.RefSide.refG (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main (F := Ideal) m ρ)
    · refine (h c _ (Cert.KernelIdeal.Hand.mem_uc Cert.KernelIdeal.main_v18 (by decide))).trans ?_
      refine (Cert.KernelIdeal.HandValue.value_v18 m ρ c).trans ?_
      funext _
      obtain ⟨hq, hk⟩ := Cert.Finite.finite_of_pre m hpre c
      exact Cert.PairLaw.kerG_eq_refG _ _ hq hk
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
  · refine (θ_run Cert.ReferenceIdeal.defs _ _).mono (fun r h c => ⟨?_, (h c).2.1, (h c).2.2⟩) (Cert.RefSide.run m' ρ')
    rw [(h c).1, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
